-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 207
  | .vmem => 39
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S1x1600000, .i32⟩
  | 13 => ⟨S1600000, .i32⟩
  | 14 => ⟨S1x1600000, .i32⟩
  | 15 => ⟨S1600000, .i32⟩
  | 16 => ⟨S128x128, .f32⟩
  | 17 => ⟨S100000x128, .f32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S100000x128, .f32⟩
  | 84 => ⟨S128x128, .f32⟩
  | 85 => ⟨S100000x128, .f32⟩
  | 86 => ⟨S_, .f32⟩
  | 87 => ⟨S1600000, .f32⟩
  | 88 => ⟨S_, .f32⟩
  | 89 => ⟨S100000, .f32⟩
  | 90 => ⟨S1600000x1, .i32⟩
  | 91 => ⟨S100000, .f32⟩
  | 92 => ⟨S_, .f32⟩
  | 93 => ⟨S100000, .f32⟩
  | 94 => ⟨S100000, .f32⟩
  | 95 => ⟨S100000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000, .f32⟩
  | 114 => ⟨S1600000, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .f32⟩
  | 124 => ⟨S1600000x1, .f32⟩
  | 125 => ⟨S1600000x128, .f32⟩
  | 126 => ⟨S1600000x128, .f32⟩
  | 127 => ⟨S_, .f32⟩
  | _ => ⟨S100000x128, .f32⟩

abbrev hbmTy0_1 (i : Nat) : BufTy := match i % 128 with
  | 0 => ⟨S100000x128, .f32⟩
  | 1 => ⟨S1600000x1, .i32⟩
  | 2 => ⟨S100000x128, .f32⟩
  | 3 => ⟨S100000, .f32⟩
  | 4 => ⟨S100000x1, .f32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S1x128, .f32⟩
  | 12 => ⟨S1x128, .f32⟩
  | 13 => ⟨S_, .f32⟩
  | 14 => ⟨S1x128, .f32⟩
  | 15 => ⟨S1x128, .f32⟩
  | 16 => ⟨S_, .f32⟩
  | 17 => ⟨S1x128, .f32⟩
  | 18 => ⟨S1x128, .f32⟩
  | 19 => ⟨S1x128, .f32⟩
  | 20 => ⟨S1x128, .f32⟩
  | 21 => ⟨S1x128, .f32⟩
  | 22 => ⟨S1x128, .f32⟩
  | 23 => ⟨S100000x128, .f32⟩
  | 24 => ⟨S128x128, .f32⟩
  | 25 => ⟨S100000x128, .f32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .f32⟩
  | 35 => ⟨S100000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x1, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000, .f32⟩
  | 72 => ⟨S100000x1, .f32⟩
  | 73 => ⟨S100000x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49_0 : Ref sig .tc := ⟨.hbm, 71, rfl⟩
abbrev main_v49_1 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_c_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_17 : Ref sig .tc := ⟨.hbm, 115, rfl⟩
abbrev main_v83 : Ref sig .tc := ⟨.hbm, 116, rfl⟩
abbrev main_v84 : Ref sig .tc := ⟨.hbm, 117, rfl⟩
abbrev main_c_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104_0 : Ref sig .tc := ⟨.hbm, 139, rfl⟩
abbrev main_v104_1 : Ref sig .tc := ⟨.hbm, 140, rfl⟩
abbrev main_cst_20 : Ref sig .tc := ⟨.hbm, 141, rfl⟩
abbrev main_v105 : Ref sig .tc := ⟨.hbm, 142, rfl⟩
abbrev main_v106 : Ref sig .tc := ⟨.hbm, 143, rfl⟩
abbrev main_cst_21 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_22 : Ref sig .tc := ⟨.hbm, 154, rfl⟩
abbrev main_v116 : Ref sig .tc := ⟨.hbm, 155, rfl⟩
abbrev main_cst_23 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_24 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_c_25 : Ref sig .tc := ⟨.hbm, 164, rfl⟩
abbrev main_v123 : Ref sig .tc := ⟨.hbm, 165, rfl⟩
abbrev main_v124 : Ref sig .tc := ⟨.hbm, 166, rfl⟩
abbrev main_c_26 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_c_27 : Ref sig .tc := ⟨.hbm, 173, rfl⟩
abbrev main_v130 : Ref sig .tc := ⟨.hbm, 174, rfl⟩
abbrev main_v131 : Ref sig .tc := ⟨.hbm, 175, rfl⟩
abbrev main_c_28 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_c_29 : Ref sig .tc := ⟨.hbm, 183, rfl⟩
abbrev main_v138 : Ref sig .tc := ⟨.hbm, 184, rfl⟩
abbrev main_v139 : Ref sig .tc := ⟨.hbm, 185, rfl⟩
abbrev main_c_30 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_31 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg5_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v103) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v104_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v104_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v103) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v106) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v110) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v111) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v112) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v113) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v113) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v114) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v115) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 275
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S1x1600000, .i32⟩
  | 13 => ⟨S1600000, .i32⟩
  | 14 => ⟨S1x1600000, .i32⟩
  | 15 => ⟨S1600000, .i32⟩
  | 16 => ⟨S128x128, .f32⟩
  | 17 => ⟨S100000x128, .f32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S128, .f32⟩
  | 73 => ⟨S_, .f32⟩
  | 74 => ⟨S128, .f32⟩
  | 75 => ⟨S128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S100000x128, .f32⟩
  | 84 => ⟨S100000x128, .f32⟩
  | 85 => ⟨S100000x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S_, .f32⟩
  | 103 => ⟨S128, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S128x128, .f32⟩
  | 119 => ⟨S100000x128, .f32⟩
  | 120 => ⟨S_, .f32⟩
  | 121 => ⟨S1600000, .f32⟩
  | 122 => ⟨S_, .f32⟩
  | 123 => ⟨S100000, .f32⟩
  | 124 => ⟨S1600000x1, .i32⟩
  | 125 => ⟨S100000, .f32⟩
  | 126 => ⟨S_, .f32⟩
  | 127 => ⟨S100000, .f32⟩
  | _ => ⟨S100000x128, .f32⟩

abbrev hbmTy0_1 (i : Nat) : BufTy := match i % 128 with
  | 0 => ⟨S100000, .f32⟩
  | 1 => ⟨S100000, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000, .f32⟩
  | 20 => ⟨S1600000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S1600000x1, .f32⟩
  | 31 => ⟨S1600000x128, .f32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S100000, .f32⟩
  | 38 => ⟨S100000x1, .f32⟩
  | 39 => ⟨S100000x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S100000x128, .f32⟩
  | 58 => ⟨S100000x128, .f32⟩
  | 59 => ⟨S100000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S_, .f32⟩
  | 77 => ⟨S128, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S128x128, .f32⟩
  | 93 => ⟨S100000x128, .f32⟩
  | 94 => ⟨S_, .f32⟩
  | 95 => ⟨S1600000, .f32⟩
  | 96 => ⟨S_, .f32⟩
  | 97 => ⟨S100000, .f32⟩
  | 98 => ⟨S1600000x1, .i32⟩
  | 99 => ⟨S100000, .f32⟩
  | 100 => ⟨S_, .f32⟩
  | 101 => ⟨S100000, .f32⟩
  | 102 => ⟨S100000, .f32⟩
  | 103 => ⟨S100000, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000, .f32⟩
  | 122 => ⟨S1600000, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_2 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S1600000x1, .f32⟩
  | 5 => ⟨S1600000x128, .f32⟩
  | 6 => ⟨S1600000x128, .f32⟩
  | 7 => ⟨S_, .f32⟩
  | 8 => ⟨S100000x128, .f32⟩
  | 9 => ⟨S1600000x1, .i32⟩
  | 10 => ⟨S100000x128, .f32⟩
  | 11 => ⟨S100000, .f32⟩
  | 12 => ⟨S100000x1, .f32⟩
  | 13 => ⟨S100000x128, .f32⟩
  | 14 => ⟨S100000x128, .f32⟩
  | 15 => ⟨S100000x128, .f32⟩
  | 16 => ⟨S1x128, .f32⟩
  | 17 => ⟨S100000x128, .f32⟩
  | 18 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_cst_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_cst_1 : Ref sig .tc := ⟨.hbm, 87, rfl⟩
abbrev main_call0_v8 : Ref sig .tc := ⟨.hbm, 88, rfl⟩
abbrev main_call0_cst_2 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_cst_3 : Ref sig .tc := ⟨.hbm, 93, rfl⟩
abbrev main_call0_v12 : Ref sig .tc := ⟨.hbm, 94, rfl⟩
abbrev main_call0_cst_4 : Ref sig .tc := ⟨.hbm, 95, rfl⟩
abbrev main_call0_call0_v0 : Ref sig .tc := ⟨.hbm, 96, rfl⟩
abbrev main_call0_call0_v1 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_11 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_call1_cst : Ref sig .tc := ⟨.hbm, 115, rfl⟩
abbrev main_call1_v0 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_12 : Ref sig .tc := ⟨.hbm, 120, rfl⟩
abbrev main_v71 : Ref sig .tc := ⟨.hbm, 121, rfl⟩
abbrev main_cst_13 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_cst_14 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_c_15 : Ref sig .tc := ⟨.hbm, 130, rfl⟩
abbrev main_v78 : Ref sig .tc := ⟨.hbm, 131, rfl⟩
abbrev main_v79 : Ref sig .tc := ⟨.hbm, 132, rfl⟩
abbrev main_c_16 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_c_17 : Ref sig .tc := ⟨.hbm, 139, rfl⟩
abbrev main_v85 : Ref sig .tc := ⟨.hbm, 140, rfl⟩
abbrev main_v86 : Ref sig .tc := ⟨.hbm, 141, rfl⟩
abbrev main_c_18 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_19 : Ref sig .tc := ⟨.hbm, 149, rfl⟩
abbrev main_v93 : Ref sig .tc := ⟨.hbm, 150, rfl⟩
abbrev main_v94 : Ref sig .tc := ⟨.hbm, 151, rfl⟩
abbrev main_c_20 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_21 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_cst_22 : Ref sig .tc := ⟨.hbm, 173, rfl⟩
abbrev main_v114 : Ref sig .tc := ⟨.hbm, 174, rfl⟩
abbrev main_cst_23 : Ref sig .tc := ⟨.hbm, 175, rfl⟩
abbrev main_v115 : Ref sig .tc := ⟨.hbm, 176, rfl⟩
abbrev main_v116 : Ref sig .tc := ⟨.hbm, 177, rfl⟩
abbrev main_c_24 : Ref sig .tc := ⟨.hbm, 178, rfl⟩
abbrev main_call2_cst : Ref sig .tc := ⟨.hbm, 179, rfl⟩
abbrev main_call2_v0 : Ref sig .tc := ⟨.hbm, 180, rfl⟩
abbrev main_call2_v1 : Ref sig .tc := ⟨.hbm, 181, rfl⟩
abbrev main_call2_cst_0 : Ref sig .tc := ⟨.hbm, 182, rfl⟩
abbrev main_call2_v2 : Ref sig .tc := ⟨.hbm, 183, rfl⟩
abbrev main_call2_v3 : Ref sig .tc := ⟨.hbm, 184, rfl⟩
abbrev main_call2_v4 : Ref sig .tc := ⟨.hbm, 185, rfl⟩
abbrev main_call2_v5 : Ref sig .tc := ⟨.hbm, 186, rfl⟩
abbrev main_call2_v6 : Ref sig .tc := ⟨.hbm, 187, rfl⟩
abbrev main_call2_v7 : Ref sig .tc := ⟨.hbm, 188, rfl⟩
abbrev main_call2_cst_1 : Ref sig .tc := ⟨.hbm, 189, rfl⟩
abbrev main_call2_v8 : Ref sig .tc := ⟨.hbm, 190, rfl⟩
abbrev main_call2_cst_2 : Ref sig .tc := ⟨.hbm, 191, rfl⟩
abbrev main_call2_v9 : Ref sig .tc := ⟨.hbm, 192, rfl⟩
abbrev main_call2_v10 : Ref sig .tc := ⟨.hbm, 193, rfl⟩
abbrev main_call2_v11 : Ref sig .tc := ⟨.hbm, 194, rfl⟩
abbrev main_call2_cst_3 : Ref sig .tc := ⟨.hbm, 195, rfl⟩
abbrev main_call2_v12 : Ref sig .tc := ⟨.hbm, 196, rfl⟩
abbrev main_call2_cst_4 : Ref sig .tc := ⟨.hbm, 197, rfl⟩
abbrev main_call2_call0_v0 : Ref sig .tc := ⟨.hbm, 198, rfl⟩
abbrev main_call2_call0_v1 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_cst_25 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_call3_cst : Ref sig .tc := ⟨.hbm, 217, rfl⟩
abbrev main_call3_v0 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_cst_26 : Ref sig .tc := ⟨.hbm, 222, rfl⟩
abbrev main_v136 : Ref sig .tc := ⟨.hbm, 223, rfl⟩
abbrev main_cst_27 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_cst_28 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_c_29 : Ref sig .tc := ⟨.hbm, 232, rfl⟩
abbrev main_v143 : Ref sig .tc := ⟨.hbm, 233, rfl⟩
abbrev main_v144 : Ref sig .tc := ⟨.hbm, 234, rfl⟩
abbrev main_c_30 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_c_31 : Ref sig .tc := ⟨.hbm, 241, rfl⟩
abbrev main_v150 : Ref sig .tc := ⟨.hbm, 242, rfl⟩
abbrev main_v151 : Ref sig .tc := ⟨.hbm, 243, rfl⟩
abbrev main_c_32 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_c_33 : Ref sig .tc := ⟨.hbm, 251, rfl⟩
abbrev main_v158 : Ref sig .tc := ⟨.hbm, 252, rfl⟩
abbrev main_v159 : Ref sig .tc := ⟨.hbm, 253, rfl⟩
abbrev main_c_34 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_cst_35 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KRun.lean ====
/-
  The idealized kernel's run with its result named: every weakly fair execution of @main terminates without a
  fault, the argument arrays end as launched, and the result array ends at the contents of the last segment
  boundary — the fold of the host stretches and of the seven regions' write-backs from the launch memory.
  The segments, their proof data and the boundary contents are the generated frame's; only the final read-out also
  reads the result's buffer.
-/
import proofs.«173880_j87316685127958_1_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the fifteen segments, the last thread state read against the final state; the result's
    buffer is unscoped, so it is read like the arguments, at the last boundary's contents. -/
theorem run : θ_run defs (onTc (τ := τ) (main (F := F))) ⟨m, fun _ => 0, ρ⟩ (fun r => ∀ c : Dev nD,
      r.2.mem ((c.tc : Thread nD τ).loc main_v158) = W15 m ρ c (Proc.devRef .tc main_v158)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v158 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.KRun

end
-- ==== Proof.KKeep.lean ====
/-
  Which buffers each stretch of host operations of the idealized kernel's @main writes: a buffer outside a stretch's
  list keeps its contents across the stretch.
-/
import proofs.«173880_j87316685127958_1_alg».proof.Proof.Gen.KernelIdeal.Frame
import Idealize.ShloMosaic.Lib.StableHlo.Run
import Idealize.ShloMosaic.PureOps.Ideal

set_option maxRecDepth 16384

noncomputable section

namespace Cert.KernelIdeal.Read

open Cert.KernelIdeal Cert.KernelIdeal.Gen

open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- A written buffer's singleton lies in the list of written buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers host stretch 0 writes. -/
abbrev wr0 : List (Ref sig .tc) := [main_v0, main_v1, main_v2, main_v3, main_v4]
theorem hostOps0_wr : (hostOps0 : List (HloOp τ sig (Elt Ideal))).Forall fun op => op.writes ⊆ ((wr0).map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact sub_of_mem (by decide)

/-- The buffers host stretch 1 writes. -/
abbrev wr1 : List (Ref sig .tc) := [main_cst, main_v6, main_cst_0, main_v7, main_v8, main_v9, main_cst_1, main_v10, main_v11, main_v12, main_c, main_v13, main_v14, main_c_2, main_v15, main_v16, main_v17, main_v18, main_v19, main_c_3, main_v20, main_v21, main_c_4, main_v22, main_v23, main_v24, main_v25, main_v26, main_v27, main_c_5, main_v28, main_v29, main_c_6, main_v30, main_v31, main_v32, main_v33, main_v34, main_v35, main_v36, main_v37, main_cst_7, main_v38, main_v39, main_v40, main_v41, main_v42, main_v43, main_v44, main_v45, main_v46, main_v47, main_v48]
theorem hostOps1_wr : (hostOps1 : List (HloOp τ sig (Elt Ideal))).Forall fun op => op.writes ⊆ ((wr1).map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact sub_of_mem (by decide)

/-- The buffers host stretch 2 writes. -/
abbrev wr2 : List (Ref sig .tc) := [main_cst_8, main_v50, main_v51, main_cst_9, main_v52, main_v53, main_v54, main_v55, main_v56, main_v57]
theorem hostOps2_wr : (hostOps2 : List (HloOp τ sig (Elt Ideal))).Forall fun op => op.writes ⊆ ((wr2).map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals exact sub_of_mem (by decide)

/-- The buffers host stretch 3 writes. -/
abbrev wr3 : List (Ref sig .tc) := [main_v59]
theorem hostOps3_wr : (hostOps3 : List (HloOp τ sig (Elt Ideal))).Forall fun op => op.writes ⊆ ((wr3).map (Proc.devRef (τ := τ) .tc)).toFinset := by
  simp only [hostOps3, List.Forall, StableHlo.nullary_writes, StableHlo.unary_writes, StableHlo.binary_writes, StableHlo.ternary_writes, StableHlo.reshape_writes]
  exact sub_of_mem (by decide)

/-- The buffers host stretch 4 writes. -/
abbrev wr4 : List (Ref sig .tc) := [main_cst_10, main_v61, main_cst_11, main_v62, main_v63, main_v64, main_cst_12, main_v65, main_v66, main_v67, main_c_13, main_v68, main_v69, main_c_14, main_v70, main_v71, main_v72, main_v73, main_v74, main_c_15, main_v75, main_v76, main_c_16, main_v77, main_v78, main_v79, main_v80, main_v81, main_v82, main_c_17, main_v83, main_v84, main_c_18, main_v85, main_v86, main_v87, main_v88, main_v89, main_v90, main_v91, main_v92, main_cst_19, main_v93, main_v94, main_v95, main_v96, main_v97, main_v98, main_v99, main_v100, main_v101, main_v102, main_v103]
theorem hostOps4_wr : (hostOps4 : List (HloOp τ sig (Elt Ideal))).Forall fun op => op.writes ⊆ ((wr4).map (Proc.devRef (τ := τ) .tc)).toFinset := by
  simp only [hostOps4, List.Forall, StableHlo.nullary_writes, StableHlo.unary_writes, StableHlo.binary_writes, StableHlo.ternary_writes, StableHlo.reshape_writes]
  repeat' apply And.intro
  all_goals exact sub_of_mem (by decide)

/-- The buffers host stretch 5 writes. -/
abbrev wr5 : List (Ref sig .tc) := [main_cst_20, main_v105, main_v106, main_cst_21, main_v107, main_v108, main_v109, main_v110, main_v111, main_v112]
theorem hostOps5_wr : (hostOps5 : List (HloOp τ sig (Elt Ideal))).Forall fun op => op.writes ⊆ ((wr5).map (Proc.devRef (τ := τ) .tc)).toFinset := by
  simp only [hostOps5, List.Forall, StableHlo.nullary_writes, StableHlo.unary_writes, StableHlo.binary_writes, StableHlo.ternary_writes, StableHlo.reshape_writes]
  repeat' apply And.intro
  all_goals exact sub_of_mem (by decide)

/-- The buffers host stretch 6 writes. -/
abbrev wr6 : List (Ref sig .tc) := [main_v114]
theorem hostOps6_wr : (hostOps6 : List (HloOp τ sig (Elt Ideal))).Forall fun op => op.writes ⊆ ((wr6).map (Proc.devRef (τ := τ) .tc)).toFinset := by
  simp only [hostOps6, List.Forall, StableHlo.nullary_writes, StableHlo.unary_writes, StableHlo.binary_writes, StableHlo.ternary_writes, StableHlo.reshape_writes]
  exact sub_of_mem (by decide)

/-- The buffers host stretch 7 writes. -/
abbrev wr7 : List (Ref sig .tc) := [main_cst_22, main_v116, main_cst_23, main_v117, main_v118, main_v119, main_cst_24, main_v120, main_v121, main_v122, main_c_25, main_v123, main_v124, main_c_26, main_v125, main_v126, main_v127, main_v128, main_v129, main_c_27, main_v130, main_v131, main_c_28, main_v132, main_v133, main_v134, main_v135, main_v136, main_v137, main_c_29, main_v138, main_v139, main_c_30, main_v140, main_v141, main_v142, main_v143, main_v144, main_v145, main_v146, main_v147, main_cst_31, main_v148, main_v149, main_v150, main_v151, main_v152, main_v153, main_v154, main_v155, main_v156, main_v157, main_v158]
theorem hostOps7_wr : (hostOps7 : List (HloOp τ sig (Elt Ideal))).Forall fun op => op.writes ⊆ ((wr7).map (Proc.devRef (τ := τ) .tc)).toFinset := by
  simp only [hostOps7, List.Forall, StableHlo.nullary_writes, StableHlo.unary_writes, StableHlo.binary_writes, StableHlo.ternary_writes, StableHlo.reshape_writes]
  repeat' apply And.intro
  all_goals exact sub_of_mem (by decide)

end Cert.KernelIdeal.Read

end
-- ==== Proof.Spec.lean ====
/-
  The layer functions of a three-layer graph convolution network, stated entry by entry on the extended reals,
  over the literal shapes of this network: 100000 nodes, 128 channels.

  * `linAt`     : one entry of a feature matrix times a (pre-transposed) weight matrix, the plain sum over the
                   128 input channels;
  * `colSumAt`, `colSqSumAt` : a channel's sum, and sum of squares, over all 100000 nodes;
  * `bnAt`      : one entry of the batch normalisation followed by the rectifier, from a row vector of channel
                   means and one of channel variances (both held as 1x128 rows), the scale and the shift:
                   max ((h - mean) * (var + eps)^(-1/2) * g + beta) 0, with eps the f32 nearest 1e-5.
  Each has a whole-array form reading the coordinates off the index.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- node features: 100000 nodes by 128 channels -/
abbrev SN : Shape := ⟨2, ![100000, 128]⟩
/-- a weight matrix -/
abbrev SW : Shape := ⟨2, ![128, 128]⟩
/-- one row of 128 channels -/
abbrev SR : Shape := ⟨2, ![1, 128]⟩

/-- Entry (r, j) of features times weights: the sum over the input channel k of x(r,k)·wt(k,j). -/
def linAt (x : FVec Ideal SN .f32) (wt : FVec Ideal SW .f32) (r : Fin 100000) (j : Fin 128) : EReal :=
  ∑ k : Fin 128, x (ix2 r k) * wt (ix2 k j)

/-- Features times weights, as an array. -/
def lin (x : FVec Ideal SN .f32) (wt : FVec Ideal SW .f32) : FVec Ideal SN .f32 :=
  fun i => linAt x wt (i 0) (i 1)

theorem lin_apply (x : FVec Ideal SN .f32) (wt : FVec Ideal SW .f32) (r : Fin 100000) (j : Fin 128) :
    lin x wt (ix2 r j) = linAt x wt r j := rfl

/-- Channel j's sum over all nodes. -/
def colSumAt (h : FVec Ideal SN .f32) (j : Fin 128) : EReal := ∑ r : Fin 100000, h (ix2 r j)

/-- Channel j's sum of squares over all nodes. -/
def colSqSumAt (h : FVec Ideal SN .f32) (j : Fin 128) : EReal := ∑ r : Fin 100000, h (ix2 r j) * h (ix2 r j)

/-- The channel sums as a 1x128 row. -/
def colSum (h : FVec Ideal SN .f32) : FVec Ideal SR .f32 := fun i => colSumAt h (i 1)

/-- The channel sums of squares as a 1x128 row. -/
def colSqSum (h : FVec Ideal SN .f32) : FVec Ideal SR .f32 := fun i => colSqSumAt h (i 1)

theorem colSum_apply (h : FVec Ideal SN .f32) (a : Fin 1) (j : Fin 128) : colSum h (ix2 a j) = colSumAt h j := rfl
theorem colSqSum_apply (h : FVec Ideal SN .f32) (a : Fin 1) (j : Fin 128) : colSqSum h (ix2 a j) = colSqSumAt h j := rfl

/-- The variance guard: the f32 nearest 1e-5. -/
def eps : EReal := Ideal.ofBits .f32 0x3727C5AC#32

/-- Entry (r, j) of normalise, scale, shift, rectify. -/
def bnAt (h : FVec Ideal SN .f32) (mean var g beta : FVec Ideal SR .f32) (r : Fin 100000) (j : Fin 128) : EReal :=
  max ((h (ix2 r j) - mean (ix2 0 j)) * Ideal.rsqrt (var (ix2 0 j) + eps) * g (ix2 0 j) + beta (ix2 0 j)) 0

/-- Normalise, scale, shift, rectify, as an array. -/
def bn (h : FVec Ideal SN .f32) (mean var g beta : FVec Ideal SR .f32) : FVec Ideal SN .f32 :=
  fun i => bnAt h mean var g beta (i 0) (i 1)

theorem bn_apply (h : FVec Ideal SN .f32) (mean var g beta : FVec Ideal SR .f32) (r : Fin 100000) (j : Fin 128) :
    bn h mean var g beta (ix2 r j) = bnAt h mean var g beta r j := rfl

end Cert.Gcn

end
-- ==== Proof.Layer.lean ====
/-
  One layer of the network as the host computes it, stated as functions of arrays at the ideal values.

  * `srcOf`, `dstOf`: the two rows of the edge list (source and destination node of every edge) as vectors.
  * `wrapIdx`: an index vector with its negative entries moved up by the number of nodes, held as a column.
  * `dinvOf`: per node, (1 + the number of edges arriving at it)^(-1/2).
  * `convTail h src dst b`: the normalised neighbourhood sum of the rows of `h`: row i is
    the sum over the edges j arriving at i of h(src j)·dinv(src j)·dinv(dst j), plus h(i)·dinv(i)², plus the bias row.
  * `tr`: a weight matrix transposed.  `layer x e w b`: convTail of x·wᵀ.
  * `meanRow`, `varRow`: channel means s/N and variances ss/N − (s/N)² from the channel sums and sums of squares, as
    1x128 rows;  `rowOf`: a channel vector held as a 1x128 row;  `bnK`: normalise, scale, shift, rectify with these.
  * `net`: the three layers with the two normalisations between them.
-/
import proofs.«173880_j87316685127958_1_alg».proof.KernelIdeal
import proofs.«173880_j87316685127958_1_alg».proof.Proof.Spec
import Idealize.ShloMosaic.PureOps.Ideal

noncomputable section

namespace Cert.KernelIdeal.Layer

open Idealize.ShloMosaic Cert.KernelIdeal

variable [Facts₀]
open Facts₀

/-- The edges' source nodes: row 0 of the edge list. -/
def srcOf (e : IVec S2x1600000 32) : IVec S1600000 32 :=
  shapeCast S1600000 (extractStridedSlice S1x1600000 ![0, 0] e slices_S2x1600000_S1x1600000_0_0) shapeCasts_S1x1600000_S1600000

/-- The edges' destination nodes: row 1 of the edge list. -/
def dstOf (e : IVec S2x1600000 32) : IVec S1600000 32 :=
  shapeCast S1600000 (extractStridedSlice S1x1600000 ![1, 0] e slices_S2x1600000_S1x1600000_1_0) shapeCasts_S1x1600000_S1600000

/-- A weight matrix transposed. -/
def tr (w : FVec Ideal S128x128 .f32) : FVec Ideal S128x128 .f32 :=
  transpose S128x128 [1, 0] w transposes_S128x128_S128x128_1_0

/-- An index vector, negative entries moved up by the number of nodes, as a column of indices. -/
def wrapIdx (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- Per node: (number of arriving edges + 1)^(-1/2). -/
def dinvOf (dst : IVec S1600000 32) : FVec Ideal S100000 .f32 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- The normalised neighbourhood sum with self loops, plus the bias. -/
def convTail (h : FVec Ideal S100000x128 .f32) (src dst : IVec S1600000 32) (b : FVec Ideal S128 .f32) :
    FVec Ideal S100000x128 .f32 :=
  addf
    (addf
      (Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 dst)
        (mulf
          (Host.gather gather_S100000x128_S1600000x1_S1600000x128_1_0_n_n_0_1_1128 h (wrapIdx src))
          (broadcastInDim S1600000x128 ![0, 1] bcast_S1600000x1_S1600000x128_0_1
            (broadcastInDim S1600000x1 ![0] bcast_S1600000_S1600000x1_0
              (mulf (Host.gather gather_S100000_S1600000x1_S1600000_n_0_n_n_0_1_1 (dinvOf dst) (wrapIdx src))
                (Host.gather gather_S100000_S1600000x1_S1600000_n_0_n_n_0_1_1 (dinvOf dst) (wrapIdx dst)))))))
      (mulf h
        (broadcastInDim S100000x128 ![0, 1] bcast_S100000x1_S100000x128_0_1
          (broadcastInDim S100000x1 ![0] bcast_S100000_S100000x1_0 (mulf (dinvOf dst) (dinvOf dst))))))
    (broadcastInDim S100000x128 ![0, 1] bcast_S1x128_S100000x128_0_1 (broadcastInDim S1x128 ![1] bcast_S128_S1x128_1 b))

/-- One layer: features times the transposed weights, then the neighbourhood sum. -/
def layer (x : FVec Ideal S100000x128 .f32) (e : IVec S2x1600000 32) (w : FVec Ideal S128x128 .f32) (b : FVec Ideal S128 .f32) :
    FVec Ideal S100000x128 .f32 :=
  convTail (Cert.Gcn.lin x (tr w)) (srcOf e) (dstOf e) b

/-- A row of channel sums divided by the number of nodes. -/
def meanRow (s : FVec Ideal S1x128 .f32) : FVec Ideal S1x128 .f32 :=
  Host.divf s (broadcastInDim S1x128 ![] bcast_S_S1x128 (constant S_ .f32 0x47C35000#32))

/-- Mean of squares minus squared mean. -/
def varRow (s ss : FVec Ideal S1x128 .f32) : FVec Ideal S1x128 .f32 :=
  subf (meanRow ss) (mulf (meanRow s) (meanRow s))

/-- A channel vector held as a 1x128 row. -/
def rowOf (g : FVec Ideal S128 .f32) : FVec Ideal S1x128 .f32 := shapeCast S1x128 g shapeCasts_S128_S1x128

/-- Normalise by the batch statistics, scale, shift, rectify. -/
def bnK (h : FVec Ideal S100000x128 .f32) (g beta : FVec Ideal S128 .f32) : FVec Ideal S100000x128 .f32 :=
  Cert.Gcn.bn h (meanRow (Cert.Gcn.colSum h)) (varRow (Cert.Gcn.colSum h) (Cert.Gcn.colSqSum h)) (rowOf g) (rowOf beta)

/-- The network. -/
def net (x : FVec Ideal S100000x128 .f32) (e : IVec S2x1600000 32)
    (w1 : FVec Ideal S128x128 .f32) (b1 g1 be1 : FVec Ideal S128 .f32)
    (w2 : FVec Ideal S128x128 .f32) (b2 g2 be2 : FVec Ideal S128 .f32)
    (w3 : FVec Ideal S128x128 .f32) (b3 : FVec Ideal S128 .f32) : FVec Ideal S100000x128 .f32 :=
  layer (bnK (layer (bnK (layer x e w1 b1) g1 be1) e w2 b2) g2 be2) e w3 b3

end Cert.KernelIdeal.Layer

end
-- ==== Proof.LibMatSum.lean ====
/-
  A matrix product read at an entry, at the ideal values, for any dimension record that contracts the left
  operand's columns with the right operand's rows (no batch axis): the entry `(a, b)` of `A · B` is
  `∑ c, A (a, c) · B (c, b)`, for the host's product and for the matrix unit's product into a zero accumulator alike.
  (The record's well-formedness witness is a proposition, so every such record is the library's plain one.)
-/
import Idealize.ShloMosaic.Lib.StackMember
import Idealize.ShloMosaic.Lib.ValueIdx
import Idealize.ShloMosaic.PureOps.Ideal.Laws

noncomputable section

namespace Idealize.ShloMosaic.MatSum

open Idealize.ShloMosaic Idealize.ShloMosaic.ValueIdx

variable {m k n : Nat} {φ₁ φ₂ : FTy}

/-- A record with the plain product's dimension numbers is the plain record. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The plain record's operand indices at output `(a, b)` and contraction position `c`. -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's product at an entry. -/
theorem dotGeneral_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  rw [eq_plain]
  exact StackMember.dotGeneral_plain_apply prec A B a b

/-- The matrix unit's product into a zero accumulator at an entry. -/
theorem matmul_zero_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (⟨2, ![m, n]⟩ : Shape) .f32 0x00000000#32) (ix2 a b)
      = ∑ c : Fin k, A (ix2 a c) * B (ix2 c b) := by
  rw [eq_plain]
  show FloatOps.matmul _ prec A B (constant _ .f32 0x00000000#32) (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Idealize.ShloMosaic.MatSum

end
-- ==== Proof.RegLin0.lean ====
/-
  One linear layer of the network as a whole-array function: the region multiplies every block of 5000 feature
  rows by the (pre-transposed) 128 x 128 weight matrix into a zero accumulator, and writes the product block
  back over the same rows of the output.  Rounding the operands to a narrower format is the identity on the
  extended reals, so entry (r, j) of the output array is the plain sum over k of x(r, k) * wt(k, j): row r lies
  in block r / 5000, at row r % 5000 of that block, and the twenty blocks tile the 100000 rows.
-/
import proofs.«173880_j87316685127958_1_alg».proof.Proof.Gen.KernelIdeal.Frame
import proofs.«173880_j87316685127958_1_alg».proof.Proof.Spec
import proofs.«173880_j87316685127958_1_alg».proof.Proof.LibMatSum
import Idealize.ShloMosaic.Lib.Pipeline.Value
import Idealize.ShloMosaic.Lib.ValueIdx

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zeroOff0 : (![0, 0] : Fin 2 → Nat) = fun _ => 0 := funext fun a => by fin_cases a <;> rfl

/-- The product block at entry (p, q): the sum over k of the row block's (p, k) times the weights' (k, q). -/
theorem linPay0_apply (x0 : Vec Ideal S5000x128 .f32) (x1 : Vec Ideal S128x128 .f32) (p : Fin 5000) (q : Fin 128) :
    Gen.k0_pay1 (F := Ideal) x0 x1 (ix2 p q) = ∑ k : Fin 128, x0 (ix2 p k) * x1 (ix2 k q) := by
  unfold Gen.k0_pay1
  simp only [shapeCast_self]
  exact MatSum.matmul_zero_entry dot_S5000x128_S128x128_S5000x128_1_0_0_1_n_n_wf none _ _ p q

/-- Where the three windows' blocks sit at grid point t: the feature and output blocks at block row t, the
    weights always whole. -/
theorem linIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the feature block at point t is the feature array's entry (5000 t + p, k). -/
theorem linRows0 (c : Dev nD) (t : Fin cfg0.N) (p : Fin 5000) (k : Fin 128) (r : Fin 100000)
    (hr : r.val = t.val * 5000 + p.val) :
    (Gen.iblk0 V c 0 t : Vec Ideal S5000x128 .f32) (ix2 p k)
      = (V c (Pipeline.arrRef spec0 0) : S100000x128.Idx → EReal) (ix2 r k) := by
  obtain ⟨e00, e01, -, -, -, -⟩ := linIdx0 t
  have h : ((cfg0.win 0).blk t).view.emb (ix2 p k) = (ix2 r k : S100000x128.Idx) := by
    funext a
    apply Fin.ext
    match a with
    | ⟨0, _⟩ => show win0_0.index t (0 : Fin 2) * 5000 + 1 * p.val = r.val; rw [e00, hr]; omega
    | ⟨1, _⟩ => show win0_0.index t (1 : Fin 2) * 128 + 1 * k.val = k.val; rw [e01]; omega
  unfold Gen.iblk0
  rw [View.read_apply]
  exact congrArg (V c (Pipeline.arrRef spec0 0) : S100000x128.Idx → EReal) h

/-- The weight block at any point is the whole weight array. -/
theorem linWts0 (c : Dev nD) (t : Fin cfg0.N) (k : Fin 128) (q : Fin 128) :
    (Gen.iblk0 V c 1 t : Vec Ideal S128x128 .f32) (ix2 k q)
      = (V c (Pipeline.arrRef spec0 1) : S128x128.Idx → EReal) (ix2 k q) := by
  obtain ⟨-, -, e10, e11, -, -⟩ := linIdx0 t
  have h : ((cfg0.win 1).blk t).view.emb (ix2 k q) = (ix2 k q : S128x128.Idx) := by
    funext a
    apply Fin.ext
    match a with
    | ⟨0, _⟩ => show win0_1.index t (0 : Fin 2) * 128 + 1 * k.val = k.val; rw [e10]; omega
    | ⟨1, _⟩ => show win0_1.index t (1 : Fin 2) * 128 + 1 * q.val = q.val; rw [e11]; omega
  unfold Gen.iblk0
  rw [View.read_apply]
  exact congrArg (V c (Pipeline.arrRef spec0 1) : S128x128.Idx → EReal) h

/-- What point t writes back is block t of the product array. -/
theorem linFlushed0 (c : Dev nD) (t : Fin cfg0.N) :
    (Gen.dat0 (F := Ideal) V c).flushed 2 t
      = ((cfg0.win 2).blk t).view.read (Elt Ideal)
          (Cert.Gcn.lin (V c (Pipeline.arrRef spec0 0)) (V c (Pipeline.arrRef spec0 1))) := by
  show (cfg0.win 2).cut (grid0.coords t) ((Gen.dat0 (F := Ideal) V c).after 2 t) = _
  rw [Gen.after0_2]
  unfold Gen.out0_2
  rw [View.canon_unit_zero zeroOff0]
  simp only [View.ld_unit_zero (S := S5000x128) zeroOff0, View.ld_unit_zero (S := S128x128) zeroOff0]
  have hN : cfg0.N = 20 := Gen.N_0
  have ht : t.val < cfg0.N := t.isLt
  obtain ⟨-, -, -, -, e20, e21⟩ := linIdx0 t
  funext j
  obtain ⟨p, q, rfl⟩ : ∃ (p : Fin 5000) (q : Fin 128), j = ix2 p q := ⟨j 0, j 1, eq_ix2 j⟩
  have hemb : ((cfg0.win 2).blk t).view.emb (ix2 p q)
      = (ix2 (⟨t.val * 5000 + p.val, by have := p.isLt; omega⟩ : Fin 100000) q : S100000x128.Idx) := by
    funext a
    apply Fin.ext
    match a with
    | ⟨0, _⟩ => show win0_2.index t (0 : Fin 2) * 5000 + 1 * p.val = t.val * 5000 + p.val; rw [e20]; omega
    | ⟨1, _⟩ => show win0_2.index t (1 : Fin 2) * 128 + 1 * q.val = q.val; rw [e21]; omega
  show Gen.k0_pay1 (F := Ideal) (Gen.iblk0 V c 0 t) (Gen.iblk0 V c 1 t) (ix2 p q)
    = Cert.Gcn.lin (V c (Pipeline.arrRef spec0 0)) (V c (Pipeline.arrRef spec0 1)) (((cfg0.win 2).blk t).view.emb (ix2 p q))
  refine (linPay0_apply (Gen.iblk0 V c 0 t) (Gen.iblk0 V c 1 t) p q).trans ?_
  refine Eq.trans ?_ (congrArg (Cert.Gcn.lin (V c (Pipeline.arrRef spec0 0)) (V c (Pipeline.arrRef spec0 1))) hemb.symm)
  refine Eq.trans ?_ (Cert.Gcn.lin_apply _ _ _ _).symm
  unfold Cert.Gcn.linAt
  refine Finset.sum_congr rfl fun k _ => ?_
  rw [linRows0 V c t p k ⟨t.val * 5000 + p.val, by have := p.isLt; omega⟩ rfl, linWts0 V c t k q]

/-- An index of the output array is in point t's block iff each coordinate is in the block's range on its axis. -/
theorem linMem0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v5).slice (win0_2.rect t)).set ↔ _
  rw [View.set_slice_whole, Rect.mem_set_unit]
  exact Iff.rfl

/-- The region's output array after its last point: features times weights, every entry. -/
theorem lin0 (c : Dev nD) :
    (Gen.dat0 (F := Ideal) V c).arrAt 2 cfg0.N
      = Cert.Gcn.lin (V c (Pipeline.arrRef spec0 0)) (V c (Pipeline.arrRef spec0 1)) :=
  (Gen.dat0 (F := Ideal) V c).arrAt_eq_of_cover 2 _ (fun t _ => linFlushed0 V c t) (fun i => by
    have hi0 : (i 0).val < 100000 := (i 0).isLt
    have hi1 : (i 1).val < 128 := (i 1).isLt
    have hN : cfg0.N = 20 := Gen.N_0
    obtain ⟨-, -, -, -, e20, e21⟩ := linIdx0 (⟨(i 0).val / 5000, by omega⟩ : Fin cfg0.N)
    refine ⟨⟨(i 0).val / 5000, by omega⟩, Gen.flush0_2 _, ?_⟩
    rw [linMem0]
    intro a
    match a with
    | ⟨0, _⟩ =>
      show win0_2.index _ (0 : Fin 2) * 5000 ≤ (i 0).val ∧ (i 0).val < win0_2.index _ (0 : Fin 2) * 5000 + 5000
      rw [e20]
      show (i 0).val / 5000 * 5000 ≤ (i 0).val ∧ (i 0).val < (i 0).val / 5000 * 5000 + 5000
      omega
    | ⟨1, _⟩ =>
      show win0_2.index _ (1 : Fin 2) * 128 ≤ (i 1).val ∧ (i 1).val < win0_2.index _ (1 : Fin 2) * 128 + 128
      rw [e21]
      omega)

end Cert.KernelIdeal.RegVal

end
-- ==== Proof.RegLin3.lean ====
/-
  One linear layer of the network as a whole-array function: the region multiplies every block of 5000 feature
  rows by the (pre-transposed) 128 x 128 weight matrix into a zero accumulator, and writes the product block
  back over the same rows of the output.  Rounding the operands to a narrower format is the identity on the
  extended reals, so entry (r, j) of the output array is the plain sum over k of x(r, k) * wt(k, j): row r lies
  in block r / 5000, at row r % 5000 of that block, and the twenty blocks tile the 100000 rows.
-/
import proofs.«173880_j87316685127958_1_alg».proof.Proof.Gen.KernelIdeal.Frame
import proofs.«173880_j87316685127958_1_alg».proof.Proof.Spec
import proofs.«173880_j87316685127958_1_alg».proof.Proof.LibMatSum
import Idealize.ShloMosaic.Lib.Pipeline.Value
import Idealize.ShloMosaic.Lib.ValueIdx

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zeroOff3 : (![0, 0] : Fin 2 → Nat) = fun _ => 0 := funext fun a => by fin_cases a <;> rfl

/-- The product block at entry (p, q): the sum over k of the row block's (p, k) times the weights' (k, q). -/
theorem linPay3_apply (x0 : Vec Ideal S5000x128 .f32) (x1 : Vec Ideal S128x128 .f32) (p : Fin 5000) (q : Fin 128) :
    Gen.k3_pay1 (F := Ideal) x0 x1 (ix2 p q) = ∑ k : Fin 128, x0 (ix2 p k) * x1 (ix2 k q) := by
  unfold Gen.k3_pay1
  simp only [shapeCast_self]
  exact MatSum.matmul_zero_entry dot_S5000x128_S128x128_S5000x128_1_0_0_1_n_n_wf none _ _ p q

/-- Where the three windows' blocks sit at grid point t: the feature and output blocks at block row t, the
    weights always whole. -/
theorem linIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, k) of the feature block at point t is the feature array's entry (5000 t + p, k). -/
theorem linRows3 (c : Dev nD) (t : Fin cfg3.N) (p : Fin 5000) (k : Fin 128) (r : Fin 100000)
    (hr : r.val = t.val * 5000 + p.val) :
    (Gen.iblk3 V c 0 t : Vec Ideal S5000x128 .f32) (ix2 p k)
      = (V c (Pipeline.arrRef spec3 0) : S100000x128.Idx → EReal) (ix2 r k) := by
  obtain ⟨e00, e01, -, -, -, -⟩ := linIdx3 t
  have h : ((cfg3.win 0).blk t).view.emb (ix2 p k) = (ix2 r k : S100000x128.Idx) := by
    funext a
    apply Fin.ext
    match a with
    | ⟨0, _⟩ => show win3_0.index t (0 : Fin 2) * 5000 + 1 * p.val = r.val; rw [e00, hr]; omega
    | ⟨1, _⟩ => show win3_0.index t (1 : Fin 2) * 128 + 1 * k.val = k.val; rw [e01]; omega
  unfold Gen.iblk3
  rw [View.read_apply]
  exact congrArg (V c (Pipeline.arrRef spec3 0) : S100000x128.Idx → EReal) h

/-- The weight block at any point is the whole weight array. -/
theorem linWts3 (c : Dev nD) (t : Fin cfg3.N) (k : Fin 128) (q : Fin 128) :
    (Gen.iblk3 V c 1 t : Vec Ideal S128x128 .f32) (ix2 k q)
      = (V c (Pipeline.arrRef spec3 1) : S128x128.Idx → EReal) (ix2 k q) := by
  obtain ⟨-, -, e10, e11, -, -⟩ := linIdx3 t
  have h : ((cfg3.win 1).blk t).view.emb (ix2 k q) = (ix2 k q : S128x128.Idx) := by
    funext a
    apply Fin.ext
    match a with
    | ⟨0, _⟩ => show win3_1.index t (0 : Fin 2) * 128 + 1 * k.val = k.val; rw [e10]; omega
    | ⟨1, _⟩ => show win3_1.index t (1 : Fin 2) * 128 + 1 * q.val = q.val; rw [e11]; omega
  unfold Gen.iblk3
  rw [View.read_apply]
  exact congrArg (V c (Pipeline.arrRef spec3 1) : S128x128.Idx → EReal) h

/-- What point t writes back is block t of the product array. -/
theorem linFlushed3 (c : Dev nD) (t : Fin cfg3.N) :
    (Gen.dat3 (F := Ideal) V c).flushed 2 t
      = ((cfg3.win 2).blk t).view.read (Elt Ideal)
          (Cert.Gcn.lin (V c (Pipeline.arrRef spec3 0)) (V c (Pipeline.arrRef spec3 1))) := by
  show (cfg3.win 2).cut (grid3.coords t) ((Gen.dat3 (F := Ideal) V c).after 2 t) = _
  rw [Gen.after3_2]
  unfold Gen.out3_2
  rw [View.canon_unit_zero zeroOff3]
  simp only [View.ld_unit_zero (S := S5000x128) zeroOff3, View.ld_unit_zero (S := S128x128) zeroOff3]
  have hN : cfg3.N = 20 := Gen.N_3
  have ht : t.val < cfg3.N := t.isLt
  obtain ⟨-, -, -, -, e20, e21⟩ := linIdx3 t
  funext j
  obtain ⟨p, q, rfl⟩ : ∃ (p : Fin 5000) (q : Fin 128), j = ix2 p q := ⟨j 0, j 1, eq_ix2 j⟩
  have hemb : ((cfg3.win 2).blk t).view.emb (ix2 p q)
      = (ix2 (⟨t.val * 5000 + p.val, by have := p.isLt; omega⟩ : Fin 100000) q : S100000x128.Idx) := by
    funext a
    apply Fin.ext
    match a with
    | ⟨0, _⟩ => show win3_2.index t (0 : Fin 2) * 5000 + 1 * p.val = t.val * 5000 + p.val; rw [e20]; omega
    | ⟨1, _⟩ => show win3_2.index t (1 : Fin 2) * 128 + 1 * q.val = q.val; rw [e21]; omega
  show Gen.k3_pay1 (F := Ideal) (Gen.iblk3 V c 0 t) (Gen.iblk3 V c 1 t) (ix2 p q)
    = Cert.Gcn.lin (V c (Pipeline.arrRef spec3 0)) (V c (Pipeline.arrRef spec3 1)) (((cfg3.win 2).blk t).view.emb (ix2 p q))
  refine (linPay3_apply (Gen.iblk3 V c 0 t) (Gen.iblk3 V c 1 t) p q).trans ?_
  refine Eq.trans ?_ (congrArg (Cert.Gcn.lin (V c (Pipeline.arrRef spec3 0)) (V c (Pipeline.arrRef spec3 1))) hemb.symm)
  refine Eq.trans ?_ (Cert.Gcn.lin_apply _ _ _ _).symm
  unfold Cert.Gcn.linAt
  refine Finset.sum_congr rfl fun k _ => ?_
  rw [linRows3 V c t p k ⟨t.val * 5000 + p.val, by have := p.isLt; omega⟩ rfl, linWts3 V c t k q]

/-- An index of the output array is in point t's block iff each coordinate is in the block's range on its axis. -/
theorem linMem3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v60).slice (win3_2.rect t)).set ↔ _
  rw [View.set_slice_whole, Rect.mem_set_unit]
  exact Iff.rfl

/-- The region's output array after its last point: features times weights, every entry. -/
theorem lin3 (c : Dev nD) :
    (Gen.dat3 (F := Ideal) V c).arrAt 2 cfg3.N
      = Cert.Gcn.lin (V c (Pipeline.arrRef spec3 0)) (V c (Pipeline.arrRef spec3 1)) :=
  (Gen.dat3 (F := Ideal) V c).arrAt_eq_of_cover 2 _ (fun t _ => linFlushed3 V c t) (fun i => by
    have hi0 : (i 0).val < 100000 := (i 0).isLt
    have hi1 : (i 1).val < 128 := (i 1).isLt
    have hN : cfg3.N = 20 := Gen.N_3
    obtain ⟨-, -, -, -, e20, e21⟩ := linIdx3 (⟨(i 0).val / 5000, by omega⟩ : Fin cfg3.N)
    refine ⟨⟨(i 0).val / 5000, by omega⟩, Gen.flush3_2 _, ?_⟩
    rw [linMem3]
    intro a
    match a with
    | ⟨0, _⟩ =>
      show win3_2.index _ (0 : Fin 2) * 5000 ≤ (i 0).val ∧ (i 0).val < win3_2.index _ (0 : Fin 2) * 5000 + 5000
      rw [e20]
      show (i 0).val / 5000 * 5000 ≤ (i 0).val ∧ (i 0).val < (i 0).val / 5000 * 5000 + 5000
      omega
    | ⟨1, _⟩ =>
      show win3_2.index _ (1 : Fin 2) * 128 ≤ (i 1).val ∧ (i 1).val < win3_2.index _ (1 : Fin 2) * 128 + 128
      rw [e21]
      omega)

end Cert.KernelIdeal.RegVal

end
-- ==== Proof.RegLin6.lean ====
/-
  One linear layer of the network as a whole-array function: the region multiplies every block of 5000 feature
  rows by the (pre-transposed) 128 x 128 weight matrix into a zero accumulator, and writes the product block
  back over the same rows of the output.  Rounding the operands to a narrower format is the identity on the
  extended reals, so entry (r, j) of the output array is the plain sum over k of x(r, k) * wt(k, j): row r lies
  in block r / 5000, at row r % 5000 of that block, and the twenty blocks tile the 100000 rows.
-/
import proofs.«173880_j87316685127958_1_alg».proof.Proof.Gen.KernelIdeal.Frame
import proofs.«173880_j87316685127958_1_alg».proof.Proof.Spec
import proofs.«173880_j87316685127958_1_alg».proof.Proof.LibMatSum
import Idealize.ShloMosaic.Lib.Pipeline.Value
import Idealize.ShloMosaic.Lib.ValueIdx

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zeroOff6 : (![0, 0] : Fin 2 → Nat) = fun _ => 0 := funext fun a => by fin_cases a <;> rfl

/-- The product block at entry (p, q): the sum over k of the row block's (p, k) times the weights' (k, q). -/
theorem linPay6_apply (x0 : Vec Ideal S5000x128 .f32) (x1 : Vec Ideal S128x128 .f32) (p : Fin 5000) (q : Fin 128) :
    Gen.k6_pay1 (F := Ideal) x0 x1 (ix2 p q) = ∑ k : Fin 128, x0 (ix2 p k) * x1 (ix2 k q) := by
  unfold Gen.k6_pay1
  simp only [shapeCast_self]
  exact MatSum.matmul_zero_entry dot_S5000x128_S128x128_S5000x128_1_0_0_1_n_n_wf none _ _ p q

/-- Where the three windows' blocks sit at grid point t: the feature and output blocks at block row t, the
    weights always whole. -/
theorem linIdx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Entry (p, k) of the feature block at point t is the feature array's entry (5000 t + p, k). -/
theorem linRows6 (c : Dev nD) (t : Fin cfg6.N) (p : Fin 5000) (k : Fin 128) (r : Fin 100000)
    (hr : r.val = t.val * 5000 + p.val) :
    (Gen.iblk6 V c 0 t : Vec Ideal S5000x128 .f32) (ix2 p k)
      = (V c (Pipeline.arrRef spec6 0) : S100000x128.Idx → EReal) (ix2 r k) := by
  obtain ⟨e00, e01, -, -, -, -⟩ := linIdx6 t
  have h : ((cfg6.win 0).blk t).view.emb (ix2 p k) = (ix2 r k : S100000x128.Idx) := by
    funext a
    apply Fin.ext
    match a with
    | ⟨0, _⟩ => show win6_0.index t (0 : Fin 2) * 5000 + 1 * p.val = r.val; rw [e00, hr]; omega
    | ⟨1, _⟩ => show win6_0.index t (1 : Fin 2) * 128 + 1 * k.val = k.val; rw [e01]; omega
  unfold Gen.iblk6
  rw [View.read_apply]
  exact congrArg (V c (Pipeline.arrRef spec6 0) : S100000x128.Idx → EReal) h

/-- The weight block at any point is the whole weight array. -/
theorem linWts6 (c : Dev nD) (t : Fin cfg6.N) (k : Fin 128) (q : Fin 128) :
    (Gen.iblk6 V c 1 t : Vec Ideal S128x128 .f32) (ix2 k q)
      = (V c (Pipeline.arrRef spec6 1) : S128x128.Idx → EReal) (ix2 k q) := by
  obtain ⟨-, -, e10, e11, -, -⟩ := linIdx6 t
  have h : ((cfg6.win 1).blk t).view.emb (ix2 k q) = (ix2 k q : S128x128.Idx) := by
    funext a
    apply Fin.ext
    match a with
    | ⟨0, _⟩ => show win6_1.index t (0 : Fin 2) * 128 + 1 * k.val = k.val; rw [e10]; omega
    | ⟨1, _⟩ => show win6_1.index t (1 : Fin 2) * 128 + 1 * q.val = q.val; rw [e11]; omega
  unfold Gen.iblk6
  rw [View.read_apply]
  exact congrArg (V c (Pipeline.arrRef spec6 1) : S128x128.Idx → EReal) h

/-- What point t writes back is block t of the product array. -/
theorem linFlushed6 (c : Dev nD) (t : Fin cfg6.N) :
    (Gen.dat6 (F := Ideal) V c).flushed 2 t
      = ((cfg6.win 2).blk t).view.read (Elt Ideal)
          (Cert.Gcn.lin (V c (Pipeline.arrRef spec6 0)) (V c (Pipeline.arrRef spec6 1))) := by
  show (cfg6.win 2).cut (grid6.coords t) ((Gen.dat6 (F := Ideal) V c).after 2 t) = _
  rw [Gen.after6_2]
  unfold Gen.out6_2
  rw [View.canon_unit_zero zeroOff6]
  simp only [View.ld_unit_zero (S := S5000x128) zeroOff6, View.ld_unit_zero (S := S128x128) zeroOff6]
  have hN : cfg6.N = 20 := Gen.N_6
  have ht : t.val < cfg6.N := t.isLt
  obtain ⟨-, -, -, -, e20, e21⟩ := linIdx6 t
  funext j
  obtain ⟨p, q, rfl⟩ : ∃ (p : Fin 5000) (q : Fin 128), j = ix2 p q := ⟨j 0, j 1, eq_ix2 j⟩
  have hemb : ((cfg6.win 2).blk t).view.emb (ix2 p q)
      = (ix2 (⟨t.val * 5000 + p.val, by have := p.isLt; omega⟩ : Fin 100000) q : S100000x128.Idx) := by
    funext a
    apply Fin.ext
    match a with
    | ⟨0, _⟩ => show win6_2.index t (0 : Fin 2) * 5000 + 1 * p.val = t.val * 5000 + p.val; rw [e20]; omega
    | ⟨1, _⟩ => show win6_2.index t (1 : Fin 2) * 128 + 1 * q.val = q.val; rw [e21]; omega
  show Gen.k6_pay1 (F := Ideal) (Gen.iblk6 V c 0 t) (Gen.iblk6 V c 1 t) (ix2 p q)
    = Cert.Gcn.lin (V c (Pipeline.arrRef spec6 0)) (V c (Pipeline.arrRef spec6 1)) (((cfg6.win 2).blk t).view.emb (ix2 p q))
  refine (linPay6_apply (Gen.iblk6 V c 0 t) (Gen.iblk6 V c 1 t) p q).trans ?_
  refine Eq.trans ?_ (congrArg (Cert.Gcn.lin (V c (Pipeline.arrRef spec6 0)) (V c (Pipeline.arrRef spec6 1))) hemb.symm)
  refine Eq.trans ?_ (Cert.Gcn.lin_apply _ _ _ _).symm
  unfold Cert.Gcn.linAt
  refine Finset.sum_congr rfl fun k _ => ?_
  rw [linRows6 V c t p k ⟨t.val * 5000 + p.val, by have := p.isLt; omega⟩ rfl, linWts6 V c t k q]

/-- An index of the output array is in point t's block iff each coordinate is in the block's range on its axis. -/
theorem linMem6 (t : Fin cfg6.N) (i : S100000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v115).slice (win6_2.rect t)).set ↔ _
  rw [View.set_slice_whole, Rect.mem_set_unit]
  exact Iff.rfl

/-- The region's output array after its last point: features times weights, every entry. -/
theorem lin6 (c : Dev nD) :
    (Gen.dat6 (F := Ideal) V c).arrAt 2 cfg6.N
      = Cert.Gcn.lin (V c (Pipeline.arrRef spec6 0)) (V c (Pipeline.arrRef spec6 1)) :=
  (Gen.dat6 (F := Ideal) V c).arrAt_eq_of_cover 2 _ (fun t _ => linFlushed6 V c t) (fun i => by
    have hi0 : (i 0).val < 100000 := (i 0).isLt
    have hi1 : (i 1).val < 128 := (i 1).isLt
    have hN : cfg6.N = 20 := Gen.N_6
    obtain ⟨-, -, -, -, e20, e21⟩ := linIdx6 (⟨(i 0).val / 5000, by omega⟩ : Fin cfg6.N)
    refine ⟨⟨(i 0).val / 5000, by omega⟩, Gen.flush6_2 _, ?_⟩
    rw [linMem6]
    intro a
    match a with
    | ⟨0, _⟩ =>
      show win6_2.index _ (0 : Fin 2) * 5000 ≤ (i 0).val ∧ (i 0).val < win6_2.index _ (0 : Fin 2) * 5000 + 5000
      rw [e20]
      show (i 0).val / 5000 * 5000 ≤ (i 0).val ∧ (i 0).val < (i 0).val / 5000 * 5000 + 5000
      omega
    | ⟨1, _⟩ =>
      show win6_2.index _ (1 : Fin 2) * 128 ≤ (i 1).val ∧ (i 1).val < win6_2.index _ (1 : Fin 2) * 128 + 128
      rw [e21]
      omega)

end Cert.KernelIdeal.RegVal

end
-- ==== Proof.RegBn2.lean ====
/-
  The batch-normalisation step of the network as a whole-array function: the region takes every block of 5000
  feature rows together with four rows of 128 channel values (mean, variance, scale, shift), and writes
  max ((h - mean) * (var + eps)^(-1/2) * scale + shift) 0 back over the same rows of the output, the four rows
  repeated down the block.  Entry (r, j) of the output array therefore depends on h(r, j) and on column j of
  the four rows only: row r lies in block r / 5000, and the twenty blocks tile the 100000 rows.
-/
import proofs.«173880_j87316685127958_1_alg».proof.Proof.Gen.KernelIdeal.Frame
import proofs.«173880_j87316685127958_1_alg».proof.Proof.Spec
import Idealize.ShloMosaic.Lib.Pipeline.Value
import Idealize.ShloMosaic.Lib.ValueIdx
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem bnZeroOff2 : (![0, 0] : Fin 2 → Nat) = fun _ => 0 := funext fun a => by fin_cases a <;> rfl

/-- The reciprocal square root of an array, entry by entry. -/
theorem bnRsqrt2_apply {s : Shape} (a : FVec Ideal s .f32) (i : s.Idx) : rsqrt a i = Ideal.rsqrt (a i) := rfl

/-- The normalised block at entry (p, q), from the row block's (p, q) and column q of the four rows. -/
theorem bnPay2_apply (x0 : Vec Ideal S5000x128 .f32) (mu va g be : Vec Ideal S1x128 .f32) (p : Fin 5000) (q : Fin 128) :
    Gen.k2_pay1 (F := Ideal) x0 mu va g be (ix2 p q)
      = max ((x0 (ix2 p q) - mu (ix2 (0 : Fin 1) q)) * Ideal.rsqrt (va (ix2 (0 : Fin 1) q) + Cert.Gcn.eps)
          * g (ix2 (0 : Fin 1) q) + be (ix2 (0 : Fin 1) q)) 0 := by
  unfold Gen.k2_pay1
  simp only [shapeCast_self]
  simp only [maximumf_apply, addf_apply, mulf_apply, subf_apply, bnRsqrt2_apply, broadcast_apply,
    broadcastTo_1b_ab_apply]
  refine congrArg₂ max ?_ Ideal.ofBits_zero_f32
  rfl

/-- Where the windows' blocks sit at grid point t: the feature and output blocks at block row t, the four rows
    always whole. -/
theorem bnIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry (p, q) of the feature block at point t is the feature array's entry (5000 t + p, q). -/
theorem bnRows2 (c : Dev nD) (t : Fin cfg2.N) (p : Fin 5000) (q : Fin 128) (r : Fin 100000)
    (hr : r.val = t.val * 5000 + p.val) :
    (Gen.iblk2 V c 0 t : Vec Ideal S5000x128 .f32) (ix2 p q)
      = (V c (Pipeline.arrRef spec2 0) : S100000x128.Idx → EReal) (ix2 r q) := by
  obtain ⟨e00, e01, -⟩ := bnIdx2 t
  have h : ((cfg2.win 0).blk t).view.emb (ix2 p q) = (ix2 r q : S100000x128.Idx) := by
    funext a
    apply Fin.ext
    match a with
    | ⟨0, _⟩ => show win2_0.index t (0 : Fin 2) * 5000 + 1 * p.val = r.val; rw [e00, hr]; omega
    | ⟨1, _⟩ => show win2_0.index t (1 : Fin 2) * 128 + 1 * q.val = q.val; rw [e01]; omega
  unfold Gen.iblk2
  rw [View.read_apply]
  exact congrArg (V c (Pipeline.arrRef spec2 0) : S100000x128.Idx → EReal) h

/-- Window 1's block at any point is its whole row. -/
theorem bnRow2_1 (c : Dev nD) (t : Fin cfg2.N) (z : Fin 1) (q : Fin 128) :
    (Gen.iblk2 V c 1 t : Vec Ideal S1x128 .f32) (ix2 z q)
      = (V c (Pipeline.arrRef spec2 1) : S1x128.Idx → EReal) (ix2 z q) := by
  obtain ⟨-, -, ea, eb, -⟩ := bnIdx2 t
  have h : ((cfg2.win 1).blk t).view.emb (ix2 z q) = (ix2 z q : S1x128.Idx) := by
    funext a
    apply Fin.ext
    match a with
    | ⟨0, _⟩ => show win2_1.index t (0 : Fin 2) * 1 + 1 * z.val = z.val; rw [ea]; omega
    | ⟨1, _⟩ => show win2_1.index t (1 : Fin 2) * 128 + 1 * q.val = q.val; rw [eb]; omega
  unfold Gen.iblk2
  rw [View.read_apply]
  exact congrArg (V c (Pipeline.arrRef spec2 1) : S1x128.Idx → EReal) h

/-- Window 2's block at any point is its whole row. -/
theorem bnRow2_2 (c : Dev nD) (t : Fin cfg2.N) (z : Fin 1) (q : Fin 128) :
    (Gen.iblk2 V c 2 t : Vec Ideal S1x128 .f32) (ix2 z q)
      = (V c (Pipeline.arrRef spec2 2) : S1x128.Idx → EReal) (ix2 z q) := by
  obtain ⟨-, -, -, -, ea, eb, -⟩ := bnIdx2 t
  have h : ((cfg2.win 2).blk t).view.emb (ix2 z q) = (ix2 z q : S1x128.Idx) := by
    funext a
    apply Fin.ext
    match a with
    | ⟨0, _⟩ => show win2_2.index t (0 : Fin 2) * 1 + 1 * z.val = z.val; rw [ea]; omega
    | ⟨1, _⟩ => show win2_2.index t (1 : Fin 2) * 128 + 1 * q.val = q.val; rw [eb]; omega
  unfold Gen.iblk2
  rw [View.read_apply]
  exact congrArg (V c (Pipeline.arrRef spec2 2) : S1x128.Idx → EReal) h

/-- Window 3's block at any point is its whole row. -/
theorem bnRow2_3 (c : Dev nD) (t : Fin cfg2.N) (z : Fin 1) (q : Fin 128) :
    (Gen.iblk2 V c 3 t : Vec Ideal S1x128 .f32) (ix2 z q)
      = (V c (Pipeline.arrRef spec2 3) : S1x128.Idx → EReal) (ix2 z q) := by
  obtain ⟨-, -, -, -, -, -, ea, eb, -⟩ := bnIdx2 t
  have h : ((cfg2.win 3).blk t).view.emb (ix2 z q) = (ix2 z q : S1x128.Idx) := by
    funext a
    apply Fin.ext
    match a with
    | ⟨0, _⟩ => show win2_3.index t (0 : Fin 2) * 1 + 1 * z.val = z.val; rw [ea]; omega
    | ⟨1, _⟩ => show win2_3.index t (1 : Fin 2) * 128 + 1 * q.val = q.val; rw [eb]; omega
  unfold Gen.iblk2
  rw [View.read_apply]
  exact congrArg (V c (Pipeline.arrRef spec2 3) : S1x128.Idx → EReal) h

/-- Window 4's block at any point is its whole row. -/
theorem bnRow2_4 (c : Dev nD) (t : Fin cfg2.N) (z : Fin 1) (q : Fin 128) :
    (Gen.iblk2 V c 4 t : Vec Ideal S1x128 .f32) (ix2 z q)
      = (V c (Pipeline.arrRef spec2 4) : S1x128.Idx → EReal) (ix2 z q) := by
  obtain ⟨-, -, -, -, -, -, -, -, ea, eb, -⟩ := bnIdx2 t
  have h : ((cfg2.win 4).blk t).view.emb (ix2 z q) = (ix2 z q : S1x128.Idx) := by
    funext a
    apply Fin.ext
    match a with
    | ⟨0, _⟩ => show win2_4.index t (0 : Fin 2) * 1 + 1 * z.val = z.val; rw [ea]; omega
    | ⟨1, _⟩ => show win2_4.index t (1 : Fin 2) * 128 + 1 * q.val = q.val; rw [eb]; omega
  unfold Gen.iblk2
  rw [View.read_apply]
  exact congrArg (V c (Pipeline.arrRef spec2 4) : S1x128.Idx → EReal) h

set_option maxHeartbeats 1000000 in
/-- What point t writes back is block t of the normalised array. -/
theorem bnFlushed2 (c : Dev nD) (t : Fin cfg2.N) :
    (Gen.dat2 (F := Ideal) V c).flushed 5 t
      = ((cfg2.win 5).blk t).view.read (Elt Ideal)
          (Cert.Gcn.bn (V c (Pipeline.arrRef spec2 0)) (V c (Pipeline.arrRef spec2 1)) (V c (Pipeline.arrRef spec2 2))
            (V c (Pipeline.arrRef spec2 3)) (V c (Pipeline.arrRef spec2 4))) := by
  show (cfg2.win 5).cut (grid2.coords t) ((Gen.dat2 (F := Ideal) V c).after 5 t) = _
  rw [Gen.after2_5]
  unfold Gen.out2_5
  rw [View.canon_unit_zero bnZeroOff2]
  simp only [View.ld_unit_zero (S := S5000x128) bnZeroOff2, View.ld_unit_zero (S := S1x128) bnZeroOff2]
  have hN : cfg2.N = 20 := Gen.N_2
  have ht : t.val < cfg2.N := t.isLt
  obtain ⟨-, -, -, -, -, -, -, -, -, -, e50, e51⟩ := bnIdx2 t
  funext j
  obtain ⟨p, q, rfl⟩ : ∃ (p : Fin 5000) (q : Fin 128), j = ix2 p q := ⟨j 0, j 1, eq_ix2 j⟩
  have hemb : ((cfg2.win 5).blk t).view.emb (ix2 p q)
      = (ix2 (⟨t.val * 5000 + p.val, by have := p.isLt; omega⟩ : Fin 100000) q : S100000x128.Idx) := by
    funext a
    apply Fin.ext
    match a with
    | ⟨0, _⟩ => show win2_5.index t (0 : Fin 2) * 5000 + 1 * p.val = t.val * 5000 + p.val; rw [e50]; omega
    | ⟨1, _⟩ => show win2_5.index t (1 : Fin 2) * 128 + 1 * q.val = q.val; rw [e51]; omega
  show Gen.k2_pay1 (F := Ideal) (Gen.iblk2 V c 0 t) (Gen.iblk2 V c 1 t) (Gen.iblk2 V c 2 t) (Gen.iblk2 V c 3 t)
      (Gen.iblk2 V c 4 t) (ix2 p q)
    = Cert.Gcn.bn (V c (Pipeline.arrRef spec2 0)) (V c (Pipeline.arrRef spec2 1)) (V c (Pipeline.arrRef spec2 2))
        (V c (Pipeline.arrRef spec2 3)) (V c (Pipeline.arrRef spec2 4)) (((cfg2.win 5).blk t).view.emb (ix2 p q))
  refine (bnPay2_apply (Gen.iblk2 V c 0 t) (Gen.iblk2 V c 1 t) (Gen.iblk2 V c 2 t) (Gen.iblk2 V c 3 t)
    (Gen.iblk2 V c 4 t) p q).trans ?_
  refine Eq.trans ?_ (congrArg (Cert.Gcn.bn (V c (Pipeline.arrRef spec2 0)) (V c (Pipeline.arrRef spec2 1))
    (V c (Pipeline.arrRef spec2 2)) (V c (Pipeline.arrRef spec2 3)) (V c (Pipeline.arrRef spec2 4))) hemb.symm)
  refine Eq.trans ?_ (Cert.Gcn.bn_apply _ _ _ _ _ _ _).symm
  unfold Cert.Gcn.bnAt
  rw [bnRows2 V c t p q ⟨t.val * 5000 + p.val, by have := p.isLt; omega⟩ rfl, bnRow2_1 V c t 0 q, bnRow2_2 V c t 0 q,
    bnRow2_3 V c t 0 q, bnRow2_4 V c t 0 q]

/-- An index of the output array is in point t's block iff each coordinate is in the block's range on its axis. -/
theorem bnMem2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v58).slice (win2_5.rect t)).set ↔ _
  rw [View.set_slice_whole, Rect.mem_set_unit]
  exact Iff.rfl

/-- The region's output array after its last point: the normalised, rectified features, every entry. -/
theorem bn2 (c : Dev nD) :
    (Gen.dat2 (F := Ideal) V c).arrAt 5 cfg2.N
      = Cert.Gcn.bn (V c (Pipeline.arrRef spec2 0)) (V c (Pipeline.arrRef spec2 1)) (V c (Pipeline.arrRef spec2 2))
          (V c (Pipeline.arrRef spec2 3)) (V c (Pipeline.arrRef spec2 4)) :=
  (Gen.dat2 (F := Ideal) V c).arrAt_eq_of_cover 5 _ (fun t _ => bnFlushed2 V c t) (fun i => by
    have hi0 : (i 0).val < 100000 := (i 0).isLt
    have hi1 : (i 1).val < 128 := (i 1).isLt
    have hN : cfg2.N = 20 := Gen.N_2
    obtain ⟨-, -, -, -, -, -, -, -, -, -, e50, e51⟩ := bnIdx2 (⟨(i 0).val / 5000, by omega⟩ : Fin cfg2.N)
    refine ⟨⟨(i 0).val / 5000, by omega⟩, Gen.flush2_5 _, ?_⟩
    rw [bnMem2]
    intro a
    match a with
    | ⟨0, _⟩ =>
      show win2_5.index _ (0 : Fin 2) * 5000 ≤ (i 0).val ∧ (i 0).val < win2_5.index _ (0 : Fin 2) * 5000 + 5000
      rw [e50]
      show (i 0).val / 5000 * 5000 ≤ (i 0).val ∧ (i 0).val < (i 0).val / 5000 * 5000 + 5000
      omega
    | ⟨1, _⟩ =>
      show win2_5.index _ (1 : Fin 2) * 128 ≤ (i 1).val ∧ (i 1).val < win2_5.index _ (1 : Fin 2) * 128 + 128
      rw [e51]
      omega)

end Cert.KernelIdeal.RegVal

end
-- ==== Proof.RegBn5.lean ====
/-
  The batch-normalisation step of the network as a whole-array function: the region takes every block of 5000
  feature rows together with four rows of 128 channel values (mean, variance, scale, shift), and writes
  max ((h - mean) * (var + eps)^(-1/2) * scale + shift) 0 back over the same rows of the output, the four rows
  repeated down the block.  Entry (r, j) of the output array therefore depends on h(r, j) and on column j of
  the four rows only: row r lies in block r / 5000, and the twenty blocks tile the 100000 rows.
-/
import proofs.«173880_j87316685127958_1_alg».proof.Proof.Gen.KernelIdeal.Frame
import proofs.«173880_j87316685127958_1_alg».proof.Proof.Spec
import Idealize.ShloMosaic.Lib.Pipeline.Value
import Idealize.ShloMosaic.Lib.ValueIdx
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem bnZeroOff5 : (![0, 0] : Fin 2 → Nat) = fun _ => 0 := funext fun a => by fin_cases a <;> rfl

/-- The reciprocal square root of an array, entry by entry. -/
theorem bnRsqrt5_apply {s : Shape} (a : FVec Ideal s .f32) (i : s.Idx) : rsqrt a i = Ideal.rsqrt (a i) := rfl

/-- The normalised block at entry (p, q), from the row block's (p, q) and column q of the four rows. -/
theorem bnPay5_apply (x0 : Vec Ideal S5000x128 .f32) (mu va g be : Vec Ideal S1x128 .f32) (p : Fin 5000) (q : Fin 128) :
    Gen.k5_pay1 (F := Ideal) x0 mu va g be (ix2 p q)
      = max ((x0 (ix2 p q) - mu (ix2 (0 : Fin 1) q)) * Ideal.rsqrt (va (ix2 (0 : Fin 1) q) + Cert.Gcn.eps)
          * g (ix2 (0 : Fin 1) q) + be (ix2 (0 : Fin 1) q)) 0 := by
  unfold Gen.k5_pay1
  simp only [shapeCast_self]
  simp only [maximumf_apply, addf_apply, mulf_apply, subf_apply, bnRsqrt5_apply, broadcast_apply,
    broadcastTo_1b_ab_apply]
  refine congrArg₂ max ?_ Ideal.ofBits_zero_f32
  rfl

/-- Where the windows' blocks sit at grid point t: the feature and output blocks at block row t, the four rows
    always whole. -/
theorem bnIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Entry (p, q) of the feature block at point t is the feature array's entry (5000 t + p, q). -/
theorem bnRows5 (c : Dev nD) (t : Fin cfg5.N) (p : Fin 5000) (q : Fin 128) (r : Fin 100000)
    (hr : r.val = t.val * 5000 + p.val) :
    (Gen.iblk5 V c 0 t : Vec Ideal S5000x128 .f32) (ix2 p q)
      = (V c (Pipeline.arrRef spec5 0) : S100000x128.Idx → EReal) (ix2 r q) := by
  obtain ⟨e00, e01, -⟩ := bnIdx5 t
  have h : ((cfg5.win 0).blk t).view.emb (ix2 p q) = (ix2 r q : S100000x128.Idx) := by
    funext a
    apply Fin.ext
    match a with
    | ⟨0, _⟩ => show win5_0.index t (0 : Fin 2) * 5000 + 1 * p.val = r.val; rw [e00, hr]; omega
    | ⟨1, _⟩ => show win5_0.index t (1 : Fin 2) * 128 + 1 * q.val = q.val; rw [e01]; omega
  unfold Gen.iblk5
  rw [View.read_apply]
  exact congrArg (V c (Pipeline.arrRef spec5 0) : S100000x128.Idx → EReal) h

/-- Window 1's block at any point is its whole row. -/
theorem bnRow5_1 (c : Dev nD) (t : Fin cfg5.N) (z : Fin 1) (q : Fin 128) :
    (Gen.iblk5 V c 1 t : Vec Ideal S1x128 .f32) (ix2 z q)
      = (V c (Pipeline.arrRef spec5 1) : S1x128.Idx → EReal) (ix2 z q) := by
  obtain ⟨-, -, ea, eb, -⟩ := bnIdx5 t
  have h : ((cfg5.win 1).blk t).view.emb (ix2 z q) = (ix2 z q : S1x128.Idx) := by
    funext a
    apply Fin.ext
    match a with
    | ⟨0, _⟩ => show win5_1.index t (0 : Fin 2) * 1 + 1 * z.val = z.val; rw [ea]; omega
    | ⟨1, _⟩ => show win5_1.index t (1 : Fin 2) * 128 + 1 * q.val = q.val; rw [eb]; omega
  unfold Gen.iblk5
  rw [View.read_apply]
  exact congrArg (V c (Pipeline.arrRef spec5 1) : S1x128.Idx → EReal) h

/-- Window 2's block at any point is its whole row. -/
theorem bnRow5_2 (c : Dev nD) (t : Fin cfg5.N) (z : Fin 1) (q : Fin 128) :
    (Gen.iblk5 V c 2 t : Vec Ideal S1x128 .f32) (ix2 z q)
      = (V c (Pipeline.arrRef spec5 2) : S1x128.Idx → EReal) (ix2 z q) := by
  obtain ⟨-, -, -, -, ea, eb, -⟩ := bnIdx5 t
  have h : ((cfg5.win 2).blk t).view.emb (ix2 z q) = (ix2 z q : S1x128.Idx) := by
    funext a
    apply Fin.ext
    match a with
    | ⟨0, _⟩ => show win5_2.index t (0 : Fin 2) * 1 + 1 * z.val = z.val; rw [ea]; omega
    | ⟨1, _⟩ => show win5_2.index t (1 : Fin 2) * 128 + 1 * q.val = q.val; rw [eb]; omega
  unfold Gen.iblk5
  rw [View.read_apply]
  exact congrArg (V c (Pipeline.arrRef spec5 2) : S1x128.Idx → EReal) h

/-- Window 3's block at any point is its whole row. -/
theorem bnRow5_3 (c : Dev nD) (t : Fin cfg5.N) (z : Fin 1) (q : Fin 128) :
    (Gen.iblk5 V c 3 t : Vec Ideal S1x128 .f32) (ix2 z q)
      = (V c (Pipeline.arrRef spec5 3) : S1x128.Idx → EReal) (ix2 z q) := by
  obtain ⟨-, -, -, -, -, -, ea, eb, -⟩ := bnIdx5 t
  have h : ((cfg5.win 3).blk t).view.emb (ix2 z q) = (ix2 z q : S1x128.Idx) := by
    funext a
    apply Fin.ext
    match a with
    | ⟨0, _⟩ => show win5_3.index t (0 : Fin 2) * 1 + 1 * z.val = z.val; rw [ea]; omega
    | ⟨1, _⟩ => show win5_3.index t (1 : Fin 2) * 128 + 1 * q.val = q.val; rw [eb]; omega
  unfold Gen.iblk5
  rw [View.read_apply]
  exact congrArg (V c (Pipeline.arrRef spec5 3) : S1x128.Idx → EReal) h

/-- Window 4's block at any point is its whole row. -/
theorem bnRow5_4 (c : Dev nD) (t : Fin cfg5.N) (z : Fin 1) (q : Fin 128) :
    (Gen.iblk5 V c 4 t : Vec Ideal S1x128 .f32) (ix2 z q)
      = (V c (Pipeline.arrRef spec5 4) : S1x128.Idx → EReal) (ix2 z q) := by
  obtain ⟨-, -, -, -, -, -, -, -, ea, eb, -⟩ := bnIdx5 t
  have h : ((cfg5.win 4).blk t).view.emb (ix2 z q) = (ix2 z q : S1x128.Idx) := by
    funext a
    apply Fin.ext
    match a with
    | ⟨0, _⟩ => show win5_4.index t (0 : Fin 2) * 1 + 1 * z.val = z.val; rw [ea]; omega
    | ⟨1, _⟩ => show win5_4.index t (1 : Fin 2) * 128 + 1 * q.val = q.val; rw [eb]; omega
  unfold Gen.iblk5
  rw [View.read_apply]
  exact congrArg (V c (Pipeline.arrRef spec5 4) : S1x128.Idx → EReal) h

set_option maxHeartbeats 1000000 in
/-- What point t writes back is block t of the normalised array. -/
theorem bnFlushed5 (c : Dev nD) (t : Fin cfg5.N) :
    (Gen.dat5 (F := Ideal) V c).flushed 5 t
      = ((cfg5.win 5).blk t).view.read (Elt Ideal)
          (Cert.Gcn.bn (V c (Pipeline.arrRef spec5 0)) (V c (Pipeline.arrRef spec5 1)) (V c (Pipeline.arrRef spec5 2))
            (V c (Pipeline.arrRef spec5 3)) (V c (Pipeline.arrRef spec5 4))) := by
  show (cfg5.win 5).cut (grid5.coords t) ((Gen.dat5 (F := Ideal) V c).after 5 t) = _
  rw [Gen.after5_5]
  unfold Gen.out5_5
  rw [View.canon_unit_zero bnZeroOff5]
  simp only [View.ld_unit_zero (S := S5000x128) bnZeroOff5, View.ld_unit_zero (S := S1x128) bnZeroOff5]
  have hN : cfg5.N = 20 := Gen.N_5
  have ht : t.val < cfg5.N := t.isLt
  obtain ⟨-, -, -, -, -, -, -, -, -, -, e50, e51⟩ := bnIdx5 t
  funext j
  obtain ⟨p, q, rfl⟩ : ∃ (p : Fin 5000) (q : Fin 128), j = ix2 p q := ⟨j 0, j 1, eq_ix2 j⟩
  have hemb : ((cfg5.win 5).blk t).view.emb (ix2 p q)
      = (ix2 (⟨t.val * 5000 + p.val, by have := p.isLt; omega⟩ : Fin 100000) q : S100000x128.Idx) := by
    funext a
    apply Fin.ext
    match a with
    | ⟨0, _⟩ => show win5_5.index t (0 : Fin 2) * 5000 + 1 * p.val = t.val * 5000 + p.val; rw [e50]; omega
    | ⟨1, _⟩ => show win5_5.index t (1 : Fin 2) * 128 + 1 * q.val = q.val; rw [e51]; omega
  show Gen.k5_pay1 (F := Ideal) (Gen.iblk5 V c 0 t) (Gen.iblk5 V c 1 t) (Gen.iblk5 V c 2 t) (Gen.iblk5 V c 3 t)
      (Gen.iblk5 V c 4 t) (ix2 p q)
    = Cert.Gcn.bn (V c (Pipeline.arrRef spec5 0)) (V c (Pipeline.arrRef spec5 1)) (V c (Pipeline.arrRef spec5 2))
        (V c (Pipeline.arrRef spec5 3)) (V c (Pipeline.arrRef spec5 4)) (((cfg5.win 5).blk t).view.emb (ix2 p q))
  refine (bnPay5_apply (Gen.iblk5 V c 0 t) (Gen.iblk5 V c 1 t) (Gen.iblk5 V c 2 t) (Gen.iblk5 V c 3 t)
    (Gen.iblk5 V c 4 t) p q).trans ?_
  refine Eq.trans ?_ (congrArg (Cert.Gcn.bn (V c (Pipeline.arrRef spec5 0)) (V c (Pipeline.arrRef spec5 1))
    (V c (Pipeline.arrRef spec5 2)) (V c (Pipeline.arrRef spec5 3)) (V c (Pipeline.arrRef spec5 4))) hemb.symm)
  refine Eq.trans ?_ (Cert.Gcn.bn_apply _ _ _ _ _ _ _).symm
  unfold Cert.Gcn.bnAt
  rw [bnRows5 V c t p q ⟨t.val * 5000 + p.val, by have := p.isLt; omega⟩ rfl, bnRow5_1 V c t 0 q, bnRow5_2 V c t 0 q,
    bnRow5_3 V c t 0 q, bnRow5_4 V c t 0 q]

/-- An index of the output array is in point t's block iff each coordinate is in the block's range on its axis. -/
theorem bnMem5 (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v113).slice (win5_5.rect t)).set ↔ _
  rw [View.set_slice_whole, Rect.mem_set_unit]
  exact Iff.rfl

/-- The region's output array after its last point: the normalised, rectified features, every entry. -/
theorem bn5 (c : Dev nD) :
    (Gen.dat5 (F := Ideal) V c).arrAt 5 cfg5.N
      = Cert.Gcn.bn (V c (Pipeline.arrRef spec5 0)) (V c (Pipeline.arrRef spec5 1)) (V c (Pipeline.arrRef spec5 2))
          (V c (Pipeline.arrRef spec5 3)) (V c (Pipeline.arrRef spec5 4)) :=
  (Gen.dat5 (F := Ideal) V c).arrAt_eq_of_cover 5 _ (fun t _ => bnFlushed5 V c t) (fun i => by
    have hi0 : (i 0).val < 100000 := (i 0).isLt
    have hi1 : (i 1).val < 128 := (i 1).isLt
    have hN : cfg5.N = 20 := Gen.N_5
    obtain ⟨-, -, -, -, -, -, -, -, -, -, e50, e51⟩ := bnIdx5 (⟨(i 0).val / 5000, by omega⟩ : Fin cfg5.N)
    refine ⟨⟨(i 0).val / 5000, by omega⟩, Gen.flush5_5 _, ?_⟩
    rw [bnMem5]
    intro a
    match a with
    | ⟨0, _⟩ =>
      show win5_5.index _ (0 : Fin 2) * 5000 ≤ (i 0).val ∧ (i 0).val < win5_5.index _ (0 : Fin 2) * 5000 + 5000
      rw [e50]
      show (i 0).val / 5000 * 5000 ≤ (i 0).val ∧ (i 0).val < (i 0).val / 5000 * 5000 + 5000
      omega
    | ⟨1, _⟩ =>
      show win5_5.index _ (1 : Fin 2) * 128 ≤ (i 1).val ∧ (i 1).val < win5_5.index _ (1 : Fin 2) * 128 + 128
      rw [e51]
      omega)

end Cert.KernelIdeal.RegVal

end
-- ==== Proof.LibBlockSum.lean ====
/-
  Sums of a function on the first N naturals, taken block by block.

  For f : Fin N → M in a commutative additive monoid, `ext0 f` continues f by zero to all naturals.  Then
    * the sum of `ext0 f` over the naturals below N is the sum of f over Fin N (`sum_range_ext0`);
    * the sum below b·(t+1) is the sum below b·t plus the sum over the next block of b naturals, the k-th of
      which is b·t + k (`sum_range_block_succ`), and the sum below b·1 is the sum over the first block
      (`sum_range_block_one`).
  Together: a running total that starts at the first block's sum and grows by one block's sum per step holds,
  after n steps, the sum of f over the first b·n indices, and after N / b steps the sum of f over all of Fin N.
-/
import Mathlib.Algebra.BigOperators.Fin

open scoped BigOperators

namespace BlockSum

variable {M : Type*} [AddCommMonoid M]

/-- f continued by zero beyond N. -/
def ext0 {N : ℕ} (f : Fin N → M) (r : ℕ) : M := if h : r < N then f ⟨r, h⟩ else 0

theorem ext0_of_lt {N : ℕ} (f : Fin N → M) (r : ℕ) (h : r < N) : ext0 f r = f ⟨r, h⟩ := dif_pos h

/-- Below N the continuation sums to the sum of f. -/
theorem sum_range_ext0 {N : ℕ} (f : Fin N → M) : ∑ r ∈ Finset.range N, ext0 f r = ∑ r : Fin N, f r := by
  rw [Finset.sum_range]
  exact Finset.sum_congr rfl fun r _ => ext0_of_lt f r.val r.isLt

/-- One more block: the sum below b·(t+1) is the sum below b·t plus the block's sum. -/
theorem sum_range_block_succ (g : ℕ → M) (b t : ℕ) :
    ∑ r ∈ Finset.range (b * (t + 1)), g r = ∑ r ∈ Finset.range (b * t), g r + ∑ k : Fin b, g (b * t + k.val) := by
  rw [Nat.mul_succ, Finset.sum_range_add]
  exact congrArg _ (Finset.sum_range fun x => g (b * t + x))

/-- The first block: the sum below b·1 is the sum over the block's b naturals. -/
theorem sum_range_block_one (g : ℕ → M) (b : ℕ) :
    ∑ r ∈ Finset.range (b * (0 + 1)), g r = ∑ k : Fin b, g (b * 0 + k.val) := by
  rw [sum_range_block_succ, Nat.mul_zero, Finset.range_zero, Finset.sum_empty, zero_add]

end BlockSum
-- ==== Proof.StatsShared.lean ====
/-
  Column sums of a 100000 x 128 feature matrix, row block by row block.

  * `off00`        : the offsets (0, 0) are the zero offsets;
  * `lift_ix`, `colred_apply` : summing a 5000 x 128 block over its rows leaves, at channel j, the sum over the
                     5000 rows k of the block's entry (k, j);
  * `colOf`, `sqOf` : channel j of a feature matrix read down its 100000 rows (and the squares of those entries),
                     continued by zero past the last row, so that partial sums over the first n rows are sums
                     over the naturals below n (`BlockSum`).
-/
import proofs.«173880_j87316685127958_1_alg».proof.Proof.Spec
import proofs.«173880_j87316685127958_1_alg».proof.Proof.LibBlockSum
import Idealize.ShloMosaic.PureOps.Ideal.Laws
import Idealize.ShloMosaic.Lib.ValueIdx

noncomputable section

open scoped BigOperators

namespace Cert.Gcn

open Idealize.ShloMosaic Idealize.ShloMosaic.ValueIdx

theorem off00 : (![0, 0] : Fin 2 → Nat) = fun _ => 0 :=
  funext fun a => by match a with | ⟨0, _⟩ => rfl | ⟨1, _⟩ => rfl

/-- The reduced index j with row k put back is (k, j). -/
theorem lift_ix (h : Shape.Reduces ⟨2, ![5000, 128]⟩ [0] ⟨1, ![128]⟩) (j : Fin 128) (k : Fin 5000) :
    h.lift (ix1 j) k = ix2 k j := by
  funext d; apply Fin.ext
  match d with
  | ⟨0, _⟩ => rfl
  | ⟨1, _⟩ => rfl

/-- The sum of a 5000 x 128 block over its rows, at channel j: the sum of the block's column j. -/
theorem colred_apply (v : FVec Ideal ⟨2, ![5000, 128]⟩ .f32) (h : Shape.Reduces ⟨2, ![5000, 128]⟩ [0] ⟨1, ![128]⟩)
    (hφ : FKind.Formats .f32) (hacc : (0x00000000#32 : BitVec 32) = FKind.add.neutral .f32 hφ) (j : Fin 128) :
    multiReduction (F := Ideal) .add [0] ⟨1, ![128]⟩ v 0x00000000#32 h hφ hacc (ix1 j) = ∑ k : Fin 5000, v (ix2 k j) := by
  refine (Ideal.multiReduction_add_single v 0x00000000#32 h hφ hacc (ix1 j)).trans ?_
  exact Finset.sum_congr rfl fun k _ => congrArg v (lift_ix h j k)

/-- Channel j of the features down the rows, continued by zero. -/
def colOf (A : FVec Ideal SN .f32) (j : Fin 128) : ℕ → EReal :=
  BlockSum.ext0 fun r : Fin 100000 => A (ix2 r j)

/-- The squares of channel j of the features down the rows, continued by zero. -/
def sqOf (A : FVec Ideal SN .f32) (j : Fin 128) : ℕ → EReal :=
  BlockSum.ext0 fun r : Fin 100000 => A (ix2 r j) * A (ix2 r j)

end Cert.Gcn

end
-- ==== Proof.RegStats1.lean ====
/-
  The value of the first batch-norm statistics region: what its two result arrays hold when it ends.

  The region reads a 100000 x 128 matrix h (its first operand, as the region finds it) in 20 row blocks of 5000 rows.  It keeps two rows of 128 channels:
  at the first block both are set to zero, and at every block the first grows, at channel j, by the block's column
  sum  Σ_k h(5000·t + k, j),  the second by the block's column sum of squares.  Hence after block n the first row
  holds  Σ_{r < 5000·(n+1)} h(r, j)  and the second  Σ_{r < 5000·(n+1)} h(r, j)²  (induction on n; only the
  associativity of + on the extended reals and 0 + x = x are used, so nothing need be finite), and after the last
  block they hold the sums over all 100000 rows.  Both rows are written back once, after the last block, and the
  block written is the whole 1 x 128 array.

    stats1_sum : the first result array is `Cert.Gcn.colSum` of the matrix h the region found;
    stats1_sq  : the second is `Cert.Gcn.colSqSum` of them.
-/
import proofs.«173880_j87316685127958_1_alg».proof.Proof.Gen.KernelIdeal.Frame
import proofs.«173880_j87316685127958_1_alg».proof.Proof.Spec
import proofs.«173880_j87316685127958_1_alg».proof.Proof.LibBlockSum
import proofs.«173880_j87316685127958_1_alg».proof.Proof.StatsShared
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.RegVal

open Cert.KernelIdeal Cert.KernelIdeal.Gen

variable {F : FTy → Type} [FloatOps F]

/-! ## What each case of the body leaves: the payloads of the blocks -/

/-- A later point (not the first): the sums row becomes the payload of the rows block and the row it held. -/
theorem out1_B_1_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero Cert.Gcn.off00]
  simp only [View.readAt_eq_ld, h1.read_unread, h2.read_unread, View.ld_unit_zero (S := S5000x128) Cert.Gcn.off00,
    View.ld_unit_zero (S := S1x128) Cert.Gcn.off00]

/-- A later point: the squares row likewise. -/
theorem out1_B_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero Cert.Gcn.off00]
  simp only [View.readAt_eq_ld, h1.read_unread, h3.read_unread, View.ld_unit_zero (S := S5000x128) Cert.Gcn.off00,
    View.ld_unit_zero (S := S1x128) Cert.Gcn.off00]

/-- The first point: the sums row is zeroed, read back, and then becomes the payload of the rows block and the zero row. -/
theorem out1_A_1_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) Cert.Gcn.off00, View.readCov_unit_zero (S := S1x128) _ Cert.Gcn.off00]
  simp only [View.readAt_eq_ld, h1.read_unread, View.ld_unit_zero (S := S5000x128) Cert.Gcn.off00]

/-- The first point: the squares row likewise. -/
theorem out1_A_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) Cert.Gcn.off00, View.readCov_unit_zero (S := S1x128) _ Cert.Gcn.off00]
  simp only [View.readAt_eq_ld, h1.read_unread, View.ld_unit_zero (S := S5000x128) Cert.Gcn.off00]

/-! ## The payloads at an entry, over the extended reals -/

/-- The zero rows the first point stores. -/
theorem k1_pay1_apply (i : S1x128.Idx) : k1_pay1 (F := Ideal) i = (0 : EReal) := Ideal.ofBits_zero_f32
theorem k1_pay2_apply (i : S1x128.Idx) : k1_pay2 (F := Ideal) i = (0 : EReal) := Ideal.ofBits_zero_f32

/-- The new sums row, at channel j: the row it held plus the block's column sum. -/
theorem k1_pay4_apply (x : Vec Ideal S5000x128 .f32) (xo : Vec Ideal S1x128 .f32) (a : Fin 1) (j : Fin 128) :
    k1_pay4 (F := Ideal) x xo (ix2 a j) = xo (ix2 a j) + ∑ k : Fin 5000, x (ix2 k j) := by
  unfold k1_pay4 k1_pay3
  dsimp only
  refine (addf_apply _ _ (ix2 a j)).trans ?_
  refine congrArg₂ (· + ·) ?_ ?_
  · exact congrFun (shapeCast_self xo shapeCasts_S1x128_S1x128) (ix2 a j)
  · refine (shapeCast_a_1a_apply _ shapeCasts_S128_S1x128 a j).trans ?_
    refine (Cert.Gcn.colred_apply _ reduces_S5000x128_S128 _ _ j).trans ?_
    exact Finset.sum_congr rfl fun k _ => congrFun (shapeCast_self x shapeCasts_S5000x128_S5000x128) (ix2 k j)

/-- The new squares row, at channel j: the row it held plus the block's column sum of squares. -/
theorem k1_pay5_apply (x : Vec Ideal S5000x128 .f32) (xo : Vec Ideal S1x128 .f32) (a : Fin 1) (j : Fin 128) :
    k1_pay5 (F := Ideal) x xo (ix2 a j) = xo (ix2 a j) + ∑ k : Fin 5000, x (ix2 k j) * x (ix2 k j) := by
  unfold k1_pay5 k1_pay3
  dsimp only
  refine (addf_apply _ _ (ix2 a j)).trans ?_
  refine congrArg₂ (· + ·) ?_ ?_
  · exact congrFun (shapeCast_self xo shapeCasts_S1x128_S1x128) (ix2 a j)
  · refine (shapeCast_a_1a_apply _ shapeCasts_S128_S1x128 a j).trans ?_
    refine (Cert.Gcn.colred_apply _ reduces_S5000x128_S128 _ _ j).trans ?_
    refine Finset.sum_congr rfl fun k _ => ?_
    refine (mulf_apply _ _ (ix2 k j)).trans ?_
    exact congrArg (fun e => e * e) (congrFun (shapeCast_self x shapeCasts_S5000x128_S5000x128) (ix2 k j))

/-! ## The rows block at a point -/

variable (V : (c : Dev nD) → (b : Ref sig .tc) → Buf (Elt Ideal) ((c : Thread nD τ).loc b))

/-- The matrix h: the region's first operand as the region finds it. -/
abbrev feat1 (c : Dev nD) : FVec Ideal Cert.Gcn.SN .f32 := V c (Pipeline.arrRef spec1 0)

/-- Block t of h, as the rows window reads it, at its literal shape. -/
abbrev blk1 (c : Dev nD) (t : Fin cfg1.N) : FVec Ideal S5000x128 .f32 := iblk1 (F := Ideal) V c 0 t

/-- Block t of h is block (t, 0). -/
theorem idx1_0 : ∀ t : Fin cfg1.N, win1_0.index t 0 = t.val ∧ win1_0.index t 1 = 0 :=
  (by decide +kernel : ∀ t : Fin grid1.N, win1_0.index t 0 = t.val ∧ win1_0.index t 1 = 0)

/-- Entry (k, j) of block t is entry (5000·t + k, j) of h. -/
theorem iblk1_apply (c : Dev nD) (t : Fin cfg1.N) (k : Fin 5000) (j : Fin 128) (hr : 5000 * t.val + k.val < 100000) :
    blk1 V c t (ix2 k j) = feat1 V c (ix2 ⟨5000 * t.val + k.val, hr⟩ j) := by
  unfold blk1 iblk1
  rw [View.read_apply]
  show V c (Pipeline.arrRef spec1 0) _ = V c (Pipeline.arrRef spec1 0) _
  refine congrArg (V c (Pipeline.arrRef spec1 0)) ?_
  funext a
  apply Fin.ext
  match a with
  | ⟨0, _⟩ => show win1_0.index t 0 * 5000 + 1 * k.val = 5000 * t.val + k.val; rw [(idx1_0 t).1]; omega
  | ⟨1, _⟩ => show win1_0.index t 1 * 128 + 1 * j.val = j.val; rw [(idx1_0 t).2]; omega

/-- Block t's column sum is the sum of the channel over rows 5000·t, …, 5000·t + 4999. -/
theorem blockcol1 (c : Dev nD) (t : Fin cfg1.N) (j : Fin 128) :
    ∑ k : Fin 5000, blk1 V c t (ix2 k j)
      = ∑ k : Fin 5000, Cert.Gcn.colOf (feat1 V c) j (5000 * t.val + k.val) := by
  have hN : t.val < 20 := lt_of_lt_of_eq t.isLt (show cfg1.N = 20 from N_1)
  refine Finset.sum_congr rfl fun k _ => ?_
  have hr : 5000 * t.val + k.val < 100000 := by have := k.isLt; omega
  exact (iblk1_apply V c t k j hr).trans (BlockSum.ext0_of_lt (fun r : Fin 100000 => feat1 V c (ix2 r j)) _ hr).symm

theorem blocksq1 (c : Dev nD) (t : Fin cfg1.N) (j : Fin 128) :
    ∑ k : Fin 5000, blk1 V c t (ix2 k j) * blk1 V c t (ix2 k j)
      = ∑ k : Fin 5000, Cert.Gcn.sqOf (feat1 V c) j (5000 * t.val + k.val) := by
  have hN : t.val < 20 := lt_of_lt_of_eq t.isLt (show cfg1.N = 20 from N_1)
  refine Finset.sum_congr rfl fun k _ => ?_
  have hr : 5000 * t.val + k.val < 100000 := by have := k.isLt; omega
  exact (congrArg (fun e => e * e) (iblk1_apply V c t k j hr)).trans
    (BlockSum.ext0_of_lt (fun r : Fin 100000 => feat1 V c (ix2 r j) * feat1 V c (ix2 r j)) _ hr).symm

/-! ## The running sums -/

/-- At the first point the rows hold the first block's column sums (zero plus them). -/
theorem caseA1 (c : Dev nD) (t : Fin cfg1.N) (h0 : t.val % 20 = 0) (a : Fin 1) (j : Fin 128) :
    (outsAt1 (F := Ideal) V c t.val t.isLt).1 (ix2 a j)
        = ∑ k : Fin 5000, blk1 V c t (ix2 k j)
      ∧ (outsAt1 (F := Ideal) V c t.val t.isLt).2 (ix2 a j)
        = ∑ k : Fin 5000, blk1 V c t (ix2 k j) * blk1 V c t (ix2 k j) := by
  rw [outsAt1_A V c t h0]
  dsimp only
  refine ⟨?_, ?_⟩
  · refine (congrFun (out1_A_1_eq (F := Ideal) c (grid1.coords t) (ms1_0 t) (hs1_0 t) (ms1_1 t) (hs1_1 t) (ms1_2 t) (hs1_2 t) ((hcond1_0 t).mpr h0) (iblk1 V c 0 t)) (ix2 a j)).trans ?_
    refine (k1_pay4_apply (blk1 V c t) (k1_pay1 (F := Ideal)) a j).trans ?_
    rw [k1_pay1_apply, zero_add]
  · refine (congrFun (out1_A_2_eq (F := Ideal) c (grid1.coords t) (ms1_0 t) (hs1_0 t) (ms1_1 t) (hs1_1 t) (ms1_2 t) (hs1_2 t) ((hcond1_0 t).mpr h0) (iblk1 V c 0 t)) (ix2 a j)).trans ?_
    refine (k1_pay5_apply (blk1 V c t) (k1_pay2 (F := Ideal)) a j).trans ?_
    rw [k1_pay2_apply, zero_add]

/-- At a later point each row grows by the block's column sum. -/
theorem caseB1 (c : Dev nD) (t : Fin cfg1.N) (h0 : ¬t.val % 20 = 0) (a : Fin 1) (j : Fin 128) :
    (outsAt1 (F := Ideal) V c t.val t.isLt).1 (ix2 a j)
        = (outsAt1 (F := Ideal) V c (t.val - 1) (Nat.lt_of_le_of_lt (Nat.sub_le _ _) t.isLt)).1 (ix2 a j)
          + ∑ k : Fin 5000, blk1 V c t (ix2 k j)
      ∧ (outsAt1 (F := Ideal) V c t.val t.isLt).2 (ix2 a j)
        = (outsAt1 (F := Ideal) V c (t.val - 1) (Nat.lt_of_le_of_lt (Nat.sub_le _ _) t.isLt)).2 (ix2 a j)
          + ∑ k : Fin 5000, blk1 V c t (ix2 k j) * blk1 V c t (ix2 k j) := by
  rw [outsAt1_B V c t h0]
  dsimp only
  refine ⟨?_, ?_⟩
  · refine (congrFun (out1_B_1_eq (F := Ideal) c (grid1.coords t) (ms1_0 t) (hs1_0 t) (ms1_1 t) (hs1_1 t) (ms1_2 t) (hs1_2 t) (fun h => h0 ((hcond1_0 t).mp h)) (iblk1 V c 0 t)
      (outsAt1 V c (t.val - 1) (Nat.lt_of_le_of_lt (Nat.sub_le _ _) t.isLt)).1 (outsAt1 V c (t.val - 1) (Nat.lt_of_le_of_lt (Nat.sub_le _ _) t.isLt)).2) (ix2 a j)).trans ?_
    exact k1_pay4_apply (blk1 V c t) (outsAt1 V c (t.val - 1) (Nat.lt_of_le_of_lt (Nat.sub_le _ _) t.isLt)).1 a j
  · refine (congrFun (out1_B_2_eq (F := Ideal) c (grid1.coords t) (ms1_0 t) (hs1_0 t) (ms1_1 t) (hs1_1 t) (ms1_2 t) (hs1_2 t) (fun h => h0 ((hcond1_0 t).mp h)) (iblk1 V c 0 t)
      (outsAt1 V c (t.val - 1) (Nat.lt_of_le_of_lt (Nat.sub_le _ _) t.isLt)).1 (outsAt1 V c (t.val - 1) (Nat.lt_of_le_of_lt (Nat.sub_le _ _) t.isLt)).2) (ix2 a j)).trans ?_
    exact k1_pay5_apply (blk1 V c t) (outsAt1 V c (t.val - 1) (Nat.lt_of_le_of_lt (Nat.sub_le _ _) t.isLt)).2 a j

/-- After point n the rows hold, at channel j, the channel's sum (and sum of squares) over the first 5000·(n+1) rows:
    by induction on the point; addition of extended reals needs no finiteness here. -/
theorem outsAt1_eq (c : Dev nD) : ∀ (n : ℕ) (hn : n < cfg1.N) (a : Fin 1) (j : Fin 128),
    (outsAt1 (F := Ideal) V c n hn).1 (ix2 a j) = ∑ r ∈ Finset.range (5000 * (n + 1)), Cert.Gcn.colOf (feat1 V c) j r
      ∧ (outsAt1 (F := Ideal) V c n hn).2 (ix2 a j) = ∑ r ∈ Finset.range (5000 * (n + 1)), Cert.Gcn.sqOf (feat1 V c) j r
  | 0, hn, a, j => by
    obtain ⟨e1, e2⟩ := caseA1 V c ⟨0, hn⟩ rfl a j
    refine ⟨e1.trans ?_, e2.trans ?_⟩
    · rw [BlockSum.sum_range_block_one]; exact blockcol1 V c ⟨0, hn⟩ j
    · rw [BlockSum.sum_range_block_one]; exact blocksq1 V c ⟨0, hn⟩ j
  | n + 1, hn, a, j => by
    have hN : cfg1.N = 20 := N_1
    have hB : ¬(⟨n + 1, hn⟩ : Fin cfg1.N).val % 20 = 0 := by dsimp only; omega
    obtain ⟨e1, e2⟩ := caseB1 V c ⟨n + 1, hn⟩ hB a j
    obtain ⟨i1, i2⟩ := outsAt1_eq c n (Nat.lt_of_succ_lt hn) a j
    refine ⟨e1.trans ?_, e2.trans ?_⟩
    · rw [BlockSum.sum_range_block_succ]
      exact congrArg₂ (· + ·) i1 (blockcol1 V c ⟨n + 1, hn⟩ j)
    · rw [BlockSum.sum_range_block_succ]
      exact congrArg₂ (· + ·) i2 (blocksq1 V c ⟨n + 1, hn⟩ j)

/-! ## The arrays after the run -/

theorem last1 : (19 : ℕ) < cfg1.N := by rw [show cfg1.N = 20 from N_1]; decide

/-- After the last point the sums row holds every channel's sum over all 100000 rows. -/
theorem sums1_last (c : Dev nD) : (outsAt1 (F := Ideal) V c 19 last1).1 = Cert.Gcn.colSum (feat1 V c) := by
  funext i
  obtain ⟨a, j, rfl⟩ : ∃ (a : Fin 1) (j : Fin 128), i = ix2 a j := ⟨i 0, i 1, eq_ix2 i⟩
  refine ((outsAt1_eq V c 19 last1 a j).1).trans ?_
  exact BlockSum.sum_range_ext0 (fun r : Fin 100000 => feat1 V c (ix2 r j))

/-- After the last point the squares row holds every channel's sum of squares over all 100000 rows. -/
theorem sqs1_last (c : Dev nD) : (outsAt1 (F := Ideal) V c 19 last1).2 = Cert.Gcn.colSqSum (feat1 V c) := by
  funext i
  obtain ⟨a, j, rfl⟩ : ∃ (a : Fin 1) (j : Fin 128), i = ix2 a j := ⟨i 0, i 1, eq_ix2 i⟩
  refine ((outsAt1_eq V c 19 last1 a j).2).trans ?_
  exact BlockSum.sum_range_ext0 (fun r : Fin 100000 => feat1 V c (ix2 r j) * feat1 V c (ix2 r j))

/-- The one write-back of the sums row, after the last point: its block is the whole 1x128 array. -/
theorem flushed1_1_eq (c : Dev nD) (t : Fin cfg1.N) (hf : (cfg1.win 1).flush t = true) :
    (dat1 (F := Ideal) V c).flushed 1 t = ((cfg1.win 1).blk t).view.read (Elt Ideal) (Cert.Gcn.colSum (feat1 V c)) := by
  have hN : cfg1.N = 20 := N_1
  have h19 : t.val = 19 := by have := (flush1_1 t).mp hf; have := t.isLt; omega
  obtain rfl : t = ⟨19, last1⟩ := Fin.ext h19
  show (cfg1.win 1).cut (grid1.coords ⟨19, last1⟩) ((dat1 V c).after 1 ⟨19, last1⟩) = _
  rw [after1_1]
  show (cfg1.win 1).cut (grid1.coords ⟨19, last1⟩) (outsAt1 V c 19 last1).1 = _
  rw [sums1_last]
  have hz' : (fun a => win1_1.index ⟨19, last1⟩ a * main_v49_0.ty.shape.size a) = fun _ => 0 := funext fun a => by fin_cases a <;> decide
  exact (Memref.read_access_unit_zero (Elt Ideal) main_v49_0 hz' (fun a => by rw [congrFun hz' a]; simp) (Cert.Gcn.colSum (feat1 V c))).symm

theorem flushed1_2_eq (c : Dev nD) (t : Fin cfg1.N) (hf : (cfg1.win 2).flush t = true) :
    (dat1 (F := Ideal) V c).flushed 2 t = ((cfg1.win 2).blk t).view.read (Elt Ideal) (Cert.Gcn.colSqSum (feat1 V c)) := by
  have hN : cfg1.N = 20 := N_1
  have h19 : t.val = 19 := by have := (flush1_2 t).mp hf; have := t.isLt; omega
  obtain rfl : t = ⟨19, last1⟩ := Fin.ext h19
  show (cfg1.win 2).cut (grid1.coords ⟨19, last1⟩) ((dat1 V c).after 2 ⟨19, last1⟩) = _
  rw [after1_2]
  show (cfg1.win 2).cut (grid1.coords ⟨19, last1⟩) (outsAt1 V c 19 last1).2 = _
  rw [sqs1_last]
  have hz' : (fun a => win1_2.index ⟨19, last1⟩ a * main_v49_1.ty.shape.size a) = fun _ => 0 := funext fun a => by fin_cases a <;> decide
  exact (Memref.read_access_unit_zero (Elt Ideal) main_v49_1 hz' (fun a => by rw [congrFun hz' a]; simp) (Cert.Gcn.colSqSum (feat1 V c))).symm

/-- The sums array after the region: every channel's sum over all 100000 rows of the matrix h the region found. -/
theorem stats1_sum (c : Dev nD) :
    (dat1 (F := Ideal) V c).arrAt 1 cfg1.N = Cert.Gcn.colSum (V c (Pipeline.arrRef spec1 0)) :=
  (dat1 V c).arrAt_eq_of_cover 1 (Cert.Gcn.colSum (feat1 V c)) (flushed1_1_eq V c) fun i =>
    ⟨⟨19, last1⟩, (flush1_1 ⟨19, last1⟩).mpr rfl, by
      show i ∈ ((View.whole main_v49_0).slice (win1_1.rect ⟨19, last1⟩)).set
      rw [View.set_slice_whole, Rect.mem_set_unit]
      intro a
      have h0 : (i 0 : Nat) < 1 := (i 0).isLt
      have h1 : (i 1 : Nat) < 128 := (i 1).isLt
      match a with
      | ⟨0, _⟩ => show win1_1.index ⟨19, last1⟩ 0 * win1_1.size 0 ≤ (i 0 : Nat) ∧ (i 0 : Nat) < win1_1.index ⟨19, last1⟩ 0 * win1_1.size 0 + win1_1.xsize (grid1.coords ⟨19, last1⟩) 0
                  rw [show win1_1.index ⟨19, last1⟩ 0 * win1_1.size 0 = 0 from by decide +kernel, show win1_1.xsize (grid1.coords ⟨19, last1⟩) 0 = 1 from by decide +kernel]; omega
      | ⟨1, _⟩ => show win1_1.index ⟨19, last1⟩ 1 * win1_1.size 1 ≤ (i 1 : Nat) ∧ (i 1 : Nat) < win1_1.index ⟨19, last1⟩ 1 * win1_1.size 1 + win1_1.xsize (grid1.coords ⟨19, last1⟩) 1
                  rw [show win1_1.index ⟨19, last1⟩ 1 * win1_1.size 1 = 0 from by decide +kernel, show win1_1.xsize (grid1.coords ⟨19, last1⟩) 1 = 128 from by decide +kernel]; omega⟩

/-- The squares array after the region: every channel's sum of squares over all 100000 rows of h. -/
theorem stats1_sq (c : Dev nD) :
    (dat1 (F := Ideal) V c).arrAt 2 cfg1.N = Cert.Gcn.colSqSum (V c (Pipeline.arrRef spec1 0)) :=
  (dat1 V c).arrAt_eq_of_cover 2 (Cert.Gcn.colSqSum (feat1 V c)) (flushed1_2_eq V c) fun i =>
    ⟨⟨19, last1⟩, (flush1_2 ⟨19, last1⟩).mpr rfl, by
      show i ∈ ((View.whole main_v49_1).slice (win1_2.rect ⟨19, last1⟩)).set
      rw [View.set_slice_whole, Rect.mem_set_unit]
      intro a
      have h0 : (i 0 : Nat) < 1 := (i 0).isLt
      have h1 : (i 1 : Nat) < 128 := (i 1).isLt
      match a with
      | ⟨0, _⟩ => show win1_2.index ⟨19, last1⟩ 0 * win1_2.size 0 ≤ (i 0 : Nat) ∧ (i 0 : Nat) < win1_2.index ⟨19, last1⟩ 0 * win1_2.size 0 + win1_2.xsize (grid1.coords ⟨19, last1⟩) 0
                  rw [show win1_2.index ⟨19, last1⟩ 0 * win1_2.size 0 = 0 from by decide +kernel, show win1_2.xsize (grid1.coords ⟨19, last1⟩) 0 = 1 from by decide +kernel]; omega
      | ⟨1, _⟩ => show win1_2.index ⟨19, last1⟩ 1 * win1_2.size 1 ≤ (i 1 : Nat) ∧ (i 1 : Nat) < win1_2.index ⟨19, last1⟩ 1 * win1_2.size 1 + win1_2.xsize (grid1.coords ⟨19, last1⟩) 1
                  rw [show win1_2.index ⟨19, last1⟩ 1 * win1_2.size 1 = 0 from by decide +kernel, show win1_2.xsize (grid1.coords ⟨19, last1⟩) 1 = 128 from by decide +kernel]; omega⟩

end Cert.KernelIdeal.RegVal

end
-- ==== Proof.RegStats4.lean ====
/-
  The value of the second batch-norm statistics region: what its two result arrays hold when it ends.

  The region reads a 100000 x 128 matrix h (its first operand, as the region finds it) in 20 row blocks of 5000 rows.  It keeps two rows of 128 channels:
  at the first block both are set to zero, and at every block the first grows, at channel j, by the block's column
  sum  Σ_k h(5000·t + k, j),  the second by the block's column sum of squares.  Hence after block n the first row
  holds  Σ_{r < 5000·(n+1)} h(r, j)  and the second  Σ_{r < 5000·(n+1)} h(r, j)²  (induction on n; only the
  associativity of + on the extended reals and 0 + x = x are used, so nothing need be finite), and after the last
  block they hold the sums over all 100000 rows.  Both rows are written back once, after the last block, and the
  block written is the whole 1 x 128 array.

    stats4_sum : the first result array is `Cert.Gcn.colSum` of the matrix h the region found;
    stats4_sq  : the second is `Cert.Gcn.colSqSum` of them.
-/
import proofs.«173880_j87316685127958_1_alg».proof.Proof.Gen.KernelIdeal.Frame
import proofs.«173880_j87316685127958_1_alg».proof.Proof.Spec
import proofs.«173880_j87316685127958_1_alg».proof.Proof.LibBlockSum
import proofs.«173880_j87316685127958_1_alg».proof.Proof.StatsShared
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.RegVal

open Cert.KernelIdeal Cert.KernelIdeal.Gen

variable {F : FTy → Type} [FloatOps F]

/-! ## What each case of the body leaves: the payloads of the blocks -/

/-- A later point (not the first): the sums row becomes the payload of the rows block and the row it held. -/
theorem out4_B_1_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero Cert.Gcn.off00]
  simp only [View.readAt_eq_ld, h1.read_unread, h2.read_unread, View.ld_unit_zero (S := S5000x128) Cert.Gcn.off00,
    View.ld_unit_zero (S := S1x128) Cert.Gcn.off00]

/-- A later point: the squares row likewise. -/
theorem out4_B_2_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero Cert.Gcn.off00]
  simp only [View.readAt_eq_ld, h1.read_unread, h3.read_unread, View.ld_unit_zero (S := S5000x128) Cert.Gcn.off00,
    View.ld_unit_zero (S := S1x128) Cert.Gcn.off00]

/-- The first point: the sums row is zeroed, read back, and then becomes the payload of the rows block and the zero row. -/
theorem out4_A_1_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) Cert.Gcn.off00, View.readCov_unit_zero (S := S1x128) _ Cert.Gcn.off00]
  simp only [View.readAt_eq_ld, h1.read_unread, View.ld_unit_zero (S := S5000x128) Cert.Gcn.off00]

/-- The first point: the squares row likewise. -/
theorem out4_A_2_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) Cert.Gcn.off00, View.readCov_unit_zero (S := S1x128) _ Cert.Gcn.off00]
  simp only [View.readAt_eq_ld, h1.read_unread, View.ld_unit_zero (S := S5000x128) Cert.Gcn.off00]

/-! ## The payloads at an entry, over the extended reals -/

/-- The zero rows the first point stores. -/
theorem k4_pay1_apply (i : S1x128.Idx) : k4_pay1 (F := Ideal) i = (0 : EReal) := Ideal.ofBits_zero_f32
theorem k4_pay2_apply (i : S1x128.Idx) : k4_pay2 (F := Ideal) i = (0 : EReal) := Ideal.ofBits_zero_f32

/-- The new sums row, at channel j: the row it held plus the block's column sum. -/
theorem k4_pay4_apply (x : Vec Ideal S5000x128 .f32) (xo : Vec Ideal S1x128 .f32) (a : Fin 1) (j : Fin 128) :
    k4_pay4 (F := Ideal) x xo (ix2 a j) = xo (ix2 a j) + ∑ k : Fin 5000, x (ix2 k j) := by
  unfold k4_pay4 k4_pay3
  dsimp only
  refine (addf_apply _ _ (ix2 a j)).trans ?_
  refine congrArg₂ (· + ·) ?_ ?_
  · exact congrFun (shapeCast_self xo shapeCasts_S1x128_S1x128) (ix2 a j)
  · refine (shapeCast_a_1a_apply _ shapeCasts_S128_S1x128 a j).trans ?_
    refine (Cert.Gcn.colred_apply _ reduces_S5000x128_S128 _ _ j).trans ?_
    exact Finset.sum_congr rfl fun k _ => congrFun (shapeCast_self x shapeCasts_S5000x128_S5000x128) (ix2 k j)

/-- The new squares row, at channel j: the row it held plus the block's column sum of squares. -/
theorem k4_pay5_apply (x : Vec Ideal S5000x128 .f32) (xo : Vec Ideal S1x128 .f32) (a : Fin 1) (j : Fin 128) :
    k4_pay5 (F := Ideal) x xo (ix2 a j) = xo (ix2 a j) + ∑ k : Fin 5000, x (ix2 k j) * x (ix2 k j) := by
  unfold k4_pay5 k4_pay3
  dsimp only
  refine (addf_apply _ _ (ix2 a j)).trans ?_
  refine congrArg₂ (· + ·) ?_ ?_
  · exact congrFun (shapeCast_self xo shapeCasts_S1x128_S1x128) (ix2 a j)
  · refine (shapeCast_a_1a_apply _ shapeCasts_S128_S1x128 a j).trans ?_
    refine (Cert.Gcn.colred_apply _ reduces_S5000x128_S128 _ _ j).trans ?_
    refine Finset.sum_congr rfl fun k _ => ?_
    refine (mulf_apply _ _ (ix2 k j)).trans ?_
    exact congrArg (fun e => e * e) (congrFun (shapeCast_self x shapeCasts_S5000x128_S5000x128) (ix2 k j))

/-! ## The rows block at a point -/

variable (V : (c : Dev nD) → (b : Ref sig .tc) → Buf (Elt Ideal) ((c : Thread nD τ).loc b))

/-- The matrix h: the region's first operand as the region finds it. -/
abbrev feat4 (c : Dev nD) : FVec Ideal Cert.Gcn.SN .f32 := V c (Pipeline.arrRef spec4 0)

/-- Block t of h, as the rows window reads it, at its literal shape. -/
abbrev blk4 (c : Dev nD) (t : Fin cfg4.N) : FVec Ideal S5000x128 .f32 := iblk4 (F := Ideal) V c 0 t

/-- Block t of h is block (t, 0). -/
theorem idx4_0 : ∀ t : Fin cfg4.N, win4_0.index t 0 = t.val ∧ win4_0.index t 1 = 0 :=
  (by decide +kernel : ∀ t : Fin grid4.N, win4_0.index t 0 = t.val ∧ win4_0.index t 1 = 0)

/-- Entry (k, j) of block t is entry (5000·t + k, j) of h. -/
theorem iblk4_apply (c : Dev nD) (t : Fin cfg4.N) (k : Fin 5000) (j : Fin 128) (hr : 5000 * t.val + k.val < 100000) :
    blk4 V c t (ix2 k j) = feat4 V c (ix2 ⟨5000 * t.val + k.val, hr⟩ j) := by
  unfold blk4 iblk4
  rw [View.read_apply]
  show V c (Pipeline.arrRef spec4 0) _ = V c (Pipeline.arrRef spec4 0) _
  refine congrArg (V c (Pipeline.arrRef spec4 0)) ?_
  funext a
  apply Fin.ext
  match a with
  | ⟨0, _⟩ => show win4_0.index t 0 * 5000 + 1 * k.val = 5000 * t.val + k.val; rw [(idx4_0 t).1]; omega
  | ⟨1, _⟩ => show win4_0.index t 1 * 128 + 1 * j.val = j.val; rw [(idx4_0 t).2]; omega

/-- Block t's column sum is the sum of the channel over rows 5000·t, …, 5000·t + 4999. -/
theorem blockcol4 (c : Dev nD) (t : Fin cfg4.N) (j : Fin 128) :
    ∑ k : Fin 5000, blk4 V c t (ix2 k j)
      = ∑ k : Fin 5000, Cert.Gcn.colOf (feat4 V c) j (5000 * t.val + k.val) := by
  have hN : t.val < 20 := lt_of_lt_of_eq t.isLt (show cfg4.N = 20 from N_4)
  refine Finset.sum_congr rfl fun k _ => ?_
  have hr : 5000 * t.val + k.val < 100000 := by have := k.isLt; omega
  exact (iblk4_apply V c t k j hr).trans (BlockSum.ext0_of_lt (fun r : Fin 100000 => feat4 V c (ix2 r j)) _ hr).symm

theorem blocksq4 (c : Dev nD) (t : Fin cfg4.N) (j : Fin 128) :
    ∑ k : Fin 5000, blk4 V c t (ix2 k j) * blk4 V c t (ix2 k j)
      = ∑ k : Fin 5000, Cert.Gcn.sqOf (feat4 V c) j (5000 * t.val + k.val) := by
  have hN : t.val < 20 := lt_of_lt_of_eq t.isLt (show cfg4.N = 20 from N_4)
  refine Finset.sum_congr rfl fun k _ => ?_
  have hr : 5000 * t.val + k.val < 100000 := by have := k.isLt; omega
  exact (congrArg (fun e => e * e) (iblk4_apply V c t k j hr)).trans
    (BlockSum.ext0_of_lt (fun r : Fin 100000 => feat4 V c (ix2 r j) * feat4 V c (ix2 r j)) _ hr).symm

/-! ## The running sums -/

/-- At the first point the rows hold the first block's column sums (zero plus them). -/
theorem caseA4 (c : Dev nD) (t : Fin cfg4.N) (h0 : t.val % 20 = 0) (a : Fin 1) (j : Fin 128) :
    (outsAt4 (F := Ideal) V c t.val t.isLt).1 (ix2 a j)
        = ∑ k : Fin 5000, blk4 V c t (ix2 k j)
      ∧ (outsAt4 (F := Ideal) V c t.val t.isLt).2 (ix2 a j)
        = ∑ k : Fin 5000, blk4 V c t (ix2 k j) * blk4 V c t (ix2 k j) := by
  rw [outsAt4_A V c t h0]
  dsimp only
  refine ⟨?_, ?_⟩
  · refine (congrFun (out4_A_1_eq (F := Ideal) c (grid4.coords t) (ms4_0 t) (hs4_0 t) (ms4_1 t) (hs4_1 t) (ms4_2 t) (hs4_2 t) ((hcond4_0 t).mpr h0) (iblk4 V c 0 t)) (ix2 a j)).trans ?_
    refine (k4_pay4_apply (blk4 V c t) (k4_pay1 (F := Ideal)) a j).trans ?_
    rw [k4_pay1_apply, zero_add]
  · refine (congrFun (out4_A_2_eq (F := Ideal) c (grid4.coords t) (ms4_0 t) (hs4_0 t) (ms4_1 t) (hs4_1 t) (ms4_2 t) (hs4_2 t) ((hcond4_0 t).mpr h0) (iblk4 V c 0 t)) (ix2 a j)).trans ?_
    refine (k4_pay5_apply (blk4 V c t) (k4_pay2 (F := Ideal)) a j).trans ?_
    rw [k4_pay2_apply, zero_add]

/-- At a later point each row grows by the block's column sum. -/
theorem caseB4 (c : Dev nD) (t : Fin cfg4.N) (h0 : ¬t.val % 20 = 0) (a : Fin 1) (j : Fin 128) :
    (outsAt4 (F := Ideal) V c t.val t.isLt).1 (ix2 a j)
        = (outsAt4 (F := Ideal) V c (t.val - 1) (Nat.lt_of_le_of_lt (Nat.sub_le _ _) t.isLt)).1 (ix2 a j)
          + ∑ k : Fin 5000, blk4 V c t (ix2 k j)
      ∧ (outsAt4 (F := Ideal) V c t.val t.isLt).2 (ix2 a j)
        = (outsAt4 (F := Ideal) V c (t.val - 1) (Nat.lt_of_le_of_lt (Nat.sub_le _ _) t.isLt)).2 (ix2 a j)
          + ∑ k : Fin 5000, blk4 V c t (ix2 k j) * blk4 V c t (ix2 k j) := by
  rw [outsAt4_B V c t h0]
  dsimp only
  refine ⟨?_, ?_⟩
  · refine (congrFun (out4_B_1_eq (F := Ideal) c (grid4.coords t) (ms4_0 t) (hs4_0 t) (ms4_1 t) (hs4_1 t) (ms4_2 t) (hs4_2 t) (fun h => h0 ((hcond4_0 t).mp h)) (iblk4 V c 0 t)
      (outsAt4 V c (t.val - 1) (Nat.lt_of_le_of_lt (Nat.sub_le _ _) t.isLt)).1 (outsAt4 V c (t.val - 1) (Nat.lt_of_le_of_lt (Nat.sub_le _ _) t.isLt)).2) (ix2 a j)).trans ?_
    exact k4_pay4_apply (blk4 V c t) (outsAt4 V c (t.val - 1) (Nat.lt_of_le_of_lt (Nat.sub_le _ _) t.isLt)).1 a j
  · refine (congrFun (out4_B_2_eq (F := Ideal) c (grid4.coords t) (ms4_0 t) (hs4_0 t) (ms4_1 t) (hs4_1 t) (ms4_2 t) (hs4_2 t) (fun h => h0 ((hcond4_0 t).mp h)) (iblk4 V c 0 t)
      (outsAt4 V c (t.val - 1) (Nat.lt_of_le_of_lt (Nat.sub_le _ _) t.isLt)).1 (outsAt4 V c (t.val - 1) (Nat.lt_of_le_of_lt (Nat.sub_le _ _) t.isLt)).2) (ix2 a j)).trans ?_
    exact k4_pay5_apply (blk4 V c t) (outsAt4 V c (t.val - 1) (Nat.lt_of_le_of_lt (Nat.sub_le _ _) t.isLt)).2 a j

/-- After point n the rows hold, at channel j, the channel's sum (and sum of squares) over the first 5000·(n+1) rows:
    by induction on the point; addition of extended reals needs no finiteness here. -/
theorem outsAt4_eq (c : Dev nD) : ∀ (n : ℕ) (hn : n < cfg4.N) (a : Fin 1) (j : Fin 128),
    (outsAt4 (F := Ideal) V c n hn).1 (ix2 a j) = ∑ r ∈ Finset.range (5000 * (n + 1)), Cert.Gcn.colOf (feat4 V c) j r
      ∧ (outsAt4 (F := Ideal) V c n hn).2 (ix2 a j) = ∑ r ∈ Finset.range (5000 * (n + 1)), Cert.Gcn.sqOf (feat4 V c) j r
  | 0, hn, a, j => by
    obtain ⟨e1, e2⟩ := caseA4 V c ⟨0, hn⟩ rfl a j
    refine ⟨e1.trans ?_, e2.trans ?_⟩
    · rw [BlockSum.sum_range_block_one]; exact blockcol4 V c ⟨0, hn⟩ j
    · rw [BlockSum.sum_range_block_one]; exact blocksq4 V c ⟨0, hn⟩ j
  | n + 1, hn, a, j => by
    have hN : cfg4.N = 20 := N_4
    have hB : ¬(⟨n + 1, hn⟩ : Fin cfg4.N).val % 20 = 0 := by dsimp only; omega
    obtain ⟨e1, e2⟩ := caseB4 V c ⟨n + 1, hn⟩ hB a j
    obtain ⟨i1, i2⟩ := outsAt4_eq c n (Nat.lt_of_succ_lt hn) a j
    refine ⟨e1.trans ?_, e2.trans ?_⟩
    · rw [BlockSum.sum_range_block_succ]
      exact congrArg₂ (· + ·) i1 (blockcol4 V c ⟨n + 1, hn⟩ j)
    · rw [BlockSum.sum_range_block_succ]
      exact congrArg₂ (· + ·) i2 (blocksq4 V c ⟨n + 1, hn⟩ j)

/-! ## The arrays after the run -/

theorem last4 : (19 : ℕ) < cfg4.N := by rw [show cfg4.N = 20 from N_4]; decide

/-- After the last point the sums row holds every channel's sum over all 100000 rows. -/
theorem sums4_last (c : Dev nD) : (outsAt4 (F := Ideal) V c 19 last4).1 = Cert.Gcn.colSum (feat4 V c) := by
  funext i
  obtain ⟨a, j, rfl⟩ : ∃ (a : Fin 1) (j : Fin 128), i = ix2 a j := ⟨i 0, i 1, eq_ix2 i⟩
  refine ((outsAt4_eq V c 19 last4 a j).1).trans ?_
  exact BlockSum.sum_range_ext0 (fun r : Fin 100000 => feat4 V c (ix2 r j))

/-- After the last point the squares row holds every channel's sum of squares over all 100000 rows. -/
theorem sqs4_last (c : Dev nD) : (outsAt4 (F := Ideal) V c 19 last4).2 = Cert.Gcn.colSqSum (feat4 V c) := by
  funext i
  obtain ⟨a, j, rfl⟩ : ∃ (a : Fin 1) (j : Fin 128), i = ix2 a j := ⟨i 0, i 1, eq_ix2 i⟩
  refine ((outsAt4_eq V c 19 last4 a j).2).trans ?_
  exact BlockSum.sum_range_ext0 (fun r : Fin 100000 => feat4 V c (ix2 r j) * feat4 V c (ix2 r j))

/-- The one write-back of the sums row, after the last point: its block is the whole 1x128 array. -/
theorem flushed4_1_eq (c : Dev nD) (t : Fin cfg4.N) (hf : (cfg4.win 1).flush t = true) :
    (dat4 (F := Ideal) V c).flushed 1 t = ((cfg4.win 1).blk t).view.read (Elt Ideal) (Cert.Gcn.colSum (feat4 V c)) := by
  have hN : cfg4.N = 20 := N_4
  have h19 : t.val = 19 := by have := (flush4_1 t).mp hf; have := t.isLt; omega
  obtain rfl : t = ⟨19, last4⟩ := Fin.ext h19
  show (cfg4.win 1).cut (grid4.coords ⟨19, last4⟩) ((dat4 V c).after 1 ⟨19, last4⟩) = _
  rw [after4_1]
  show (cfg4.win 1).cut (grid4.coords ⟨19, last4⟩) (outsAt4 V c 19 last4).1 = _
  rw [sums4_last]
  have hz' : (fun a => win4_1.index ⟨19, last4⟩ a * main_v104_0.ty.shape.size a) = fun _ => 0 := funext fun a => by fin_cases a <;> decide
  exact (Memref.read_access_unit_zero (Elt Ideal) main_v104_0 hz' (fun a => by rw [congrFun hz' a]; simp) (Cert.Gcn.colSum (feat4 V c))).symm

theorem flushed4_2_eq (c : Dev nD) (t : Fin cfg4.N) (hf : (cfg4.win 2).flush t = true) :
    (dat4 (F := Ideal) V c).flushed 2 t = ((cfg4.win 2).blk t).view.read (Elt Ideal) (Cert.Gcn.colSqSum (feat4 V c)) := by
  have hN : cfg4.N = 20 := N_4
  have h19 : t.val = 19 := by have := (flush4_2 t).mp hf; have := t.isLt; omega
  obtain rfl : t = ⟨19, last4⟩ := Fin.ext h19
  show (cfg4.win 2).cut (grid4.coords ⟨19, last4⟩) ((dat4 V c).after 2 ⟨19, last4⟩) = _
  rw [after4_2]
  show (cfg4.win 2).cut (grid4.coords ⟨19, last4⟩) (outsAt4 V c 19 last4).2 = _
  rw [sqs4_last]
  have hz' : (fun a => win4_2.index ⟨19, last4⟩ a * main_v104_1.ty.shape.size a) = fun _ => 0 := funext fun a => by fin_cases a <;> decide
  exact (Memref.read_access_unit_zero (Elt Ideal) main_v104_1 hz' (fun a => by rw [congrFun hz' a]; simp) (Cert.Gcn.colSqSum (feat4 V c))).symm

/-- The sums array after the region: every channel's sum over all 100000 rows of the matrix h the region found. -/
theorem stats4_sum (c : Dev nD) :
    (dat4 (F := Ideal) V c).arrAt 1 cfg4.N = Cert.Gcn.colSum (V c (Pipeline.arrRef spec4 0)) :=
  (dat4 V c).arrAt_eq_of_cover 1 (Cert.Gcn.colSum (feat4 V c)) (flushed4_1_eq V c) fun i =>
    ⟨⟨19, last4⟩, (flush4_1 ⟨19, last4⟩).mpr rfl, by
      show i ∈ ((View.whole main_v104_0).slice (win4_1.rect ⟨19, last4⟩)).set
      rw [View.set_slice_whole, Rect.mem_set_unit]
      intro a
      have h0 : (i 0 : Nat) < 1 := (i 0).isLt
      have h1 : (i 1 : Nat) < 128 := (i 1).isLt
      match a with
      | ⟨0, _⟩ => show win4_1.index ⟨19, last4⟩ 0 * win4_1.size 0 ≤ (i 0 : Nat) ∧ (i 0 : Nat) < win4_1.index ⟨19, last4⟩ 0 * win4_1.size 0 + win4_1.xsize (grid4.coords ⟨19, last4⟩) 0
                  rw [show win4_1.index ⟨19, last4⟩ 0 * win4_1.size 0 = 0 from by decide +kernel, show win4_1.xsize (grid4.coords ⟨19, last4⟩) 0 = 1 from by decide +kernel]; omega
      | ⟨1, _⟩ => show win4_1.index ⟨19, last4⟩ 1 * win4_1.size 1 ≤ (i 1 : Nat) ∧ (i 1 : Nat) < win4_1.index ⟨19, last4⟩ 1 * win4_1.size 1 + win4_1.xsize (grid4.coords ⟨19, last4⟩) 1
                  rw [show win4_1.index ⟨19, last4⟩ 1 * win4_1.size 1 = 0 from by decide +kernel, show win4_1.xsize (grid4.coords ⟨19, last4⟩) 1 = 128 from by decide +kernel]; omega⟩

/-- The squares array after the region: every channel's sum of squares over all 100000 rows of h. -/
theorem stats4_sq (c : Dev nD) :
    (dat4 (F := Ideal) V c).arrAt 2 cfg4.N = Cert.Gcn.colSqSum (V c (Pipeline.arrRef spec4 0)) :=
  (dat4 V c).arrAt_eq_of_cover 2 (Cert.Gcn.colSqSum (feat4 V c)) (flushed4_2_eq V c) fun i =>
    ⟨⟨19, last4⟩, (flush4_2 ⟨19, last4⟩).mpr rfl, by
      show i ∈ ((View.whole main_v104_1).slice (win4_2.rect ⟨19, last4⟩)).set
      rw [View.set_slice_whole, Rect.mem_set_unit]
      intro a
      have h0 : (i 0 : Nat) < 1 := (i 0).isLt
      have h1 : (i 1 : Nat) < 128 := (i 1).isLt
      match a with
      | ⟨0, _⟩ => show win4_2.index ⟨19, last4⟩ 0 * win4_2.size 0 ≤ (i 0 : Nat) ∧ (i 0 : Nat) < win4_2.index ⟨19, last4⟩ 0 * win4_2.size 0 + win4_2.xsize (grid4.coords ⟨19, last4⟩) 0
                  rw [show win4_2.index ⟨19, last4⟩ 0 * win4_2.size 0 = 0 from by decide +kernel, show win4_2.xsize (grid4.coords ⟨19, last4⟩) 0 = 1 from by decide +kernel]; omega
      | ⟨1, _⟩ => show win4_2.index ⟨19, last4⟩ 1 * win4_2.size 1 ≤ (i 1 : Nat) ∧ (i 1 : Nat) < win4_2.index ⟨19, last4⟩ 1 * win4_2.size 1 + win4_2.xsize (grid4.coords ⟨19, last4⟩) 1
                  rw [show win4_2.index ⟨19, last4⟩ 1 * win4_2.size 1 = 0 from by decide +kernel, show win4_2.xsize (grid4.coords ⟨19, last4⟩) 1 = 128 from by decide +kernel]; omega⟩

end Cert.KernelIdeal.RegVal

end
-- ==== Proof.KRead.lean ====
/-
  The idealized kernel's result array as a function of the argument arrays: the contents of each segment boundary
  of @main read back, stretch by stretch and region by region, to the launch memory. A host stretch's result is its
  operations' composed term of the buffers it reads; a region's output array is the layer function the region
  computes (matrix product, channel sums, normalisation) of its input arrays; a buffer that a stretch does not
  write and a region does not own keeps its contents.
-/
import proofs.«173880_j87316685127958_1_alg».proof.Proof.Gen.KernelIdeal.Frame
import proofs.«173880_j87316685127958_1_alg».proof.Proof.KKeep
import proofs.«173880_j87316685127958_1_alg».proof.Proof.Layer
import proofs.«173880_j87316685127958_1_alg».proof.Proof.RegLin0
import proofs.«173880_j87316685127958_1_alg».proof.Proof.RegLin3
import proofs.«173880_j87316685127958_1_alg».proof.Proof.RegLin6
import proofs.«173880_j87316685127958_1_alg».proof.Proof.RegBn2
import proofs.«173880_j87316685127958_1_alg».proof.Proof.RegBn5
import proofs.«173880_j87316685127958_1_alg».proof.Proof.RegStats1
import proofs.«173880_j87316685127958_1_alg».proof.Proof.RegStats4
import Idealize.ShloMosaic.Lib.StableHlo.Run
import Idealize.ShloMosaic.PureOps.Ideal

set_option maxRecDepth 16384

noncomputable section

namespace Cert.KernelIdeal.Read

open Cert.KernelIdeal Cert.KernelIdeal.Gen

open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

open Cert.KernelIdeal.Layer Cert.KernelIdeal.RegVal

/-! ## Buffers carried unchanged across boundaries -/

theorem keep_v1_2_1 (c : Dev nD) : W2 m ρ c (Proc.devRef .tc main_v1) = W1 m ρ c (Proc.devRef .tc main_v1) :=
  calc W2 m ρ c (Proc.devRef .tc main_v1)
    _ = W1 m ρ c (Proc.devRef .tc main_v1) := (W2_of_ne m ρ c main_v1 (by decide))

theorem keep_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := (W2_of_ne m ρ c main_v3 (by decide))

theorem keep_v1_8_1 (c : Dev nD) : W8 m ρ c (Proc.devRef .tc main_v1) = W1 m ρ c (Proc.devRef .tc main_v1) :=
  calc W8 m ρ c (Proc.devRef .tc main_v1)
    _ = W7 m ρ c (Proc.devRef .tc main_v1) := (W8_of_ne m ρ c main_v1 (by decide))
    _ = W6 m ρ c (Proc.devRef .tc main_v1) := (StableHlo.after_of_writes_sub hostOps3 (W6 m ρ c) hostOps3_wr (by decide))
    _ = W5 m ρ c (Proc.devRef .tc main_v1) := (W6_of_ne m ρ c main_v1 (by decide))
    _ = W4 m ρ c (Proc.devRef .tc main_v1) := (StableHlo.after_of_writes_sub hostOps2 (W4 m ρ c) hostOps2_wr (by decide))
    _ = W3 m ρ c (Proc.devRef .tc main_v1) := (W4_of_ne m ρ c main_v1 (by decide))
    _ = W2 m ρ c (Proc.devRef .tc main_v1) := (StableHlo.after_of_writes_sub hostOps1 (W2 m ρ c) hostOps1_wr (by decide))
    _ = W1 m ρ c (Proc.devRef .tc main_v1) := (W2_of_ne m ρ c main_v1 (by decide))

theorem keep_v3_8_1 (c : Dev nD) : W8 m ρ c (Proc.devRef .tc main_v3) = W1 m ρ c (Proc.devRef .tc main_v3) :=
  calc W8 m ρ c (Proc.devRef .tc main_v3)
    _ = W7 m ρ c (Proc.devRef .tc main_v3) := (W8_of_ne m ρ c main_v3 (by decide))
    _ = W6 m ρ c (Proc.devRef .tc main_v3) := (StableHlo.after_of_writes_sub hostOps3 (W6 m ρ c) hostOps3_wr (by decide))
    _ = W5 m ρ c (Proc.devRef .tc main_v3) := (W6_of_ne m ρ c main_v3 (by decide))
    _ = W4 m ρ c (Proc.devRef .tc main_v3) := (StableHlo.after_of_writes_sub hostOps2 (W4 m ρ c) hostOps2_wr (by decide))
    _ = W3 m ρ c (Proc.devRef .tc main_v3) := (W4_of_ne m ρ c main_v3 (by decide))
    _ = W2 m ρ c (Proc.devRef .tc main_v3) := (StableHlo.after_of_writes_sub hostOps1 (W2 m ρ c) hostOps1_wr (by decide))
    _ = W1 m ρ c (Proc.devRef .tc main_v3) := (W2_of_ne m ρ c main_v3 (by decide))

theorem keep_v1_14_1 (c : Dev nD) : W14 m ρ c (Proc.devRef .tc main_v1) = W1 m ρ c (Proc.devRef .tc main_v1) :=
  calc W14 m ρ c (Proc.devRef .tc main_v1)
    _ = W13 m ρ c (Proc.devRef .tc main_v1) := (W14_of_ne m ρ c main_v1 (by decide))
    _ = W12 m ρ c (Proc.devRef .tc main_v1) := (StableHlo.after_of_writes_sub hostOps6 (W12 m ρ c) hostOps6_wr (by decide))
    _ = W11 m ρ c (Proc.devRef .tc main_v1) := (W12_of_ne m ρ c main_v1 (by decide))
    _ = W10 m ρ c (Proc.devRef .tc main_v1) := (StableHlo.after_of_writes_sub hostOps5 (W10 m ρ c) hostOps5_wr (by decide))
    _ = W9 m ρ c (Proc.devRef .tc main_v1) := (W10_of_ne m ρ c main_v1 (by decide))
    _ = W8 m ρ c (Proc.devRef .tc main_v1) := (StableHlo.after_of_writes_sub hostOps4 (W8 m ρ c) hostOps4_wr (by decide))
    _ = W7 m ρ c (Proc.devRef .tc main_v1) := (W8_of_ne m ρ c main_v1 (by decide))
    _ = W6 m ρ c (Proc.devRef .tc main_v1) := (StableHlo.after_of_writes_sub hostOps3 (W6 m ρ c) hostOps3_wr (by decide))
    _ = W5 m ρ c (Proc.devRef .tc main_v1) := (W6_of_ne m ρ c main_v1 (by decide))
    _ = W4 m ρ c (Proc.devRef .tc main_v1) := (StableHlo.after_of_writes_sub hostOps2 (W4 m ρ c) hostOps2_wr (by decide))
    _ = W3 m ρ c (Proc.devRef .tc main_v1) := (W4_of_ne m ρ c main_v1 (by decide))
    _ = W2 m ρ c (Proc.devRef .tc main_v1) := (StableHlo.after_of_writes_sub hostOps1 (W2 m ρ c) hostOps1_wr (by decide))
    _ = W1 m ρ c (Proc.devRef .tc main_v1) := (W2_of_ne m ρ c main_v1 (by decide))

theorem keep_v3_14_1 (c : Dev nD) : W14 m ρ c (Proc.devRef .tc main_v3) = W1 m ρ c (Proc.devRef .tc main_v3) :=
  calc W14 m ρ c (Proc.devRef .tc main_v3)
    _ = W13 m ρ c (Proc.devRef .tc main_v3) := (W14_of_ne m ρ c main_v3 (by decide))
    _ = W12 m ρ c (Proc.devRef .tc main_v3) := (StableHlo.after_of_writes_sub hostOps6 (W12 m ρ c) hostOps6_wr (by decide))
    _ = W11 m ρ c (Proc.devRef .tc main_v3) := (W12_of_ne m ρ c main_v3 (by decide))
    _ = W10 m ρ c (Proc.devRef .tc main_v3) := (StableHlo.after_of_writes_sub hostOps5 (W10 m ρ c) hostOps5_wr (by decide))
    _ = W9 m ρ c (Proc.devRef .tc main_v3) := (W10_of_ne m ρ c main_v3 (by decide))
    _ = W8 m ρ c (Proc.devRef .tc main_v3) := (StableHlo.after_of_writes_sub hostOps4 (W8 m ρ c) hostOps4_wr (by decide))
    _ = W7 m ρ c (Proc.devRef .tc main_v3) := (W8_of_ne m ρ c main_v3 (by decide))
    _ = W6 m ρ c (Proc.devRef .tc main_v3) := (StableHlo.after_of_writes_sub hostOps3 (W6 m ρ c) hostOps3_wr (by decide))
    _ = W5 m ρ c (Proc.devRef .tc main_v3) := (W6_of_ne m ρ c main_v3 (by decide))
    _ = W4 m ρ c (Proc.devRef .tc main_v3) := (StableHlo.after_of_writes_sub hostOps2 (W4 m ρ c) hostOps2_wr (by decide))
    _ = W3 m ρ c (Proc.devRef .tc main_v3) := (W4_of_ne m ρ c main_v3 (by decide))
    _ = W2 m ρ c (Proc.devRef .tc main_v3) := (StableHlo.after_of_writes_sub hostOps1 (W2 m ρ c) hostOps1_wr (by decide))
    _ = W1 m ρ c (Proc.devRef .tc main_v3) := (W2_of_ne m ρ c main_v3 (by decide))

theorem keep_arg0_1_0 (c : Dev nD) : W1 m ρ c (Proc.devRef .tc main_arg0) = m ((c : Thread nD τ).loc main_arg0) :=
  calc W1 m ρ c (Proc.devRef .tc main_arg0)
    _ = W0 m ρ c (Proc.devRef .tc main_arg0) := (StableHlo.after_of_writes_sub hostOps0 (W0 m ρ c) hostOps0_wr (by decide))
    _ = m ((c : Thread nD τ).loc main_arg0) := rfl

theorem keep_arg3_2_0 (c : Dev nD) : W2 m ρ c (Proc.devRef .tc main_arg3) = m ((c : Thread nD τ).loc main_arg3) :=
  calc W2 m ρ c (Proc.devRef .tc main_arg3)
    _ = W1 m ρ c (Proc.devRef .tc main_arg3) := (W2_of_ne m ρ c main_arg3 (by decide))
    _ = W0 m ρ c (Proc.devRef .tc main_arg3) := (StableHlo.after_of_writes_sub hostOps0 (W0 m ρ c) hostOps0_wr (by decide))
    _ = m ((c : Thread nD τ).loc main_arg3) := rfl

theorem keep_arg4_4_0 (c : Dev nD) : W4 m ρ c (Proc.devRef .tc main_arg4) = m ((c : Thread nD τ).loc main_arg4) :=
  calc W4 m ρ c (Proc.devRef .tc main_arg4)
    _ = W3 m ρ c (Proc.devRef .tc main_arg4) := (W4_of_ne m ρ c main_arg4 (by decide))
    _ = W2 m ρ c (Proc.devRef .tc main_arg4) := (StableHlo.after_of_writes_sub hostOps1 (W2 m ρ c) hostOps1_wr (by decide))
    _ = W1 m ρ c (Proc.devRef .tc main_arg4) := (W2_of_ne m ρ c main_arg4 (by decide))
    _ = W0 m ρ c (Proc.devRef .tc main_arg4) := (StableHlo.after_of_writes_sub hostOps0 (W0 m ρ c) hostOps0_wr (by decide))
    _ = m ((c : Thread nD τ).loc main_arg4) := rfl

theorem keep_arg5_4_0 (c : Dev nD) : W4 m ρ c (Proc.devRef .tc main_arg5) = m ((c : Thread nD τ).loc main_arg5) :=
  calc W4 m ρ c (Proc.devRef .tc main_arg5)
    _ = W3 m ρ c (Proc.devRef .tc main_arg5) := (W4_of_ne m ρ c main_arg5 (by decide))
    _ = W2 m ρ c (Proc.devRef .tc main_arg5) := (StableHlo.after_of_writes_sub hostOps1 (W2 m ρ c) hostOps1_wr (by decide))
    _ = W1 m ρ c (Proc.devRef .tc main_arg5) := (W2_of_ne m ρ c main_arg5 (by decide))
    _ = W0 m ρ c (Proc.devRef .tc main_arg5) := (StableHlo.after_of_writes_sub hostOps0 (W0 m ρ c) hostOps0_wr (by decide))
    _ = m ((c : Thread nD τ).loc main_arg5) := rfl

theorem keep_arg6_6_0 (c : Dev nD) : W6 m ρ c (Proc.devRef .tc main_arg6) = m ((c : Thread nD τ).loc main_arg6) :=
  calc W6 m ρ c (Proc.devRef .tc main_arg6)
    _ = W5 m ρ c (Proc.devRef .tc main_arg6) := (W6_of_ne m ρ c main_arg6 (by decide))
    _ = W4 m ρ c (Proc.devRef .tc main_arg6) := (StableHlo.after_of_writes_sub hostOps2 (W4 m ρ c) hostOps2_wr (by decide))
    _ = W3 m ρ c (Proc.devRef .tc main_arg6) := (W4_of_ne m ρ c main_arg6 (by decide))
    _ = W2 m ρ c (Proc.devRef .tc main_arg6) := (StableHlo.after_of_writes_sub hostOps1 (W2 m ρ c) hostOps1_wr (by decide))
    _ = W1 m ρ c (Proc.devRef .tc main_arg6) := (W2_of_ne m ρ c main_arg6 (by decide))
    _ = W0 m ρ c (Proc.devRef .tc main_arg6) := (StableHlo.after_of_writes_sub hostOps0 (W0 m ρ c) hostOps0_wr (by decide))
    _ = m ((c : Thread nD τ).loc main_arg6) := rfl

theorem keep_arg7_8_0 (c : Dev nD) : W8 m ρ c (Proc.devRef .tc main_arg7) = m ((c : Thread nD τ).loc main_arg7) :=
  calc W8 m ρ c (Proc.devRef .tc main_arg7)
    _ = W7 m ρ c (Proc.devRef .tc main_arg7) := (W8_of_ne m ρ c main_arg7 (by decide))
    _ = W6 m ρ c (Proc.devRef .tc main_arg7) := (StableHlo.after_of_writes_sub hostOps3 (W6 m ρ c) hostOps3_wr (by decide))
    _ = W5 m ρ c (Proc.devRef .tc main_arg7) := (W6_of_ne m ρ c main_arg7 (by decide))
    _ = W4 m ρ c (Proc.devRef .tc main_arg7) := (StableHlo.after_of_writes_sub hostOps2 (W4 m ρ c) hostOps2_wr (by decide))
    _ = W3 m ρ c (Proc.devRef .tc main_arg7) := (W4_of_ne m ρ c main_arg7 (by decide))
    _ = W2 m ρ c (Proc.devRef .tc main_arg7) := (StableHlo.after_of_writes_sub hostOps1 (W2 m ρ c) hostOps1_wr (by decide))
    _ = W1 m ρ c (Proc.devRef .tc main_arg7) := (W2_of_ne m ρ c main_arg7 (by decide))
    _ = W0 m ρ c (Proc.devRef .tc main_arg7) := (StableHlo.after_of_writes_sub hostOps0 (W0 m ρ c) hostOps0_wr (by decide))
    _ = m ((c : Thread nD τ).loc main_arg7) := rfl

theorem keep_arg8_10_0 (c : Dev nD) : W10 m ρ c (Proc.devRef .tc main_arg8) = m ((c : Thread nD τ).loc main_arg8) :=
  calc W10 m ρ c (Proc.devRef .tc main_arg8)
    _ = W9 m ρ c (Proc.devRef .tc main_arg8) := (W10_of_ne m ρ c main_arg8 (by decide))
    _ = W8 m ρ c (Proc.devRef .tc main_arg8) := (StableHlo.after_of_writes_sub hostOps4 (W8 m ρ c) hostOps4_wr (by decide))
    _ = W7 m ρ c (Proc.devRef .tc main_arg8) := (W8_of_ne m ρ c main_arg8 (by decide))
    _ = W6 m ρ c (Proc.devRef .tc main_arg8) := (StableHlo.after_of_writes_sub hostOps3 (W6 m ρ c) hostOps3_wr (by decide))
    _ = W5 m ρ c (Proc.devRef .tc main_arg8) := (W6_of_ne m ρ c main_arg8 (by decide))
    _ = W4 m ρ c (Proc.devRef .tc main_arg8) := (StableHlo.after_of_writes_sub hostOps2 (W4 m ρ c) hostOps2_wr (by decide))
    _ = W3 m ρ c (Proc.devRef .tc main_arg8) := (W4_of_ne m ρ c main_arg8 (by decide))
    _ = W2 m ρ c (Proc.devRef .tc main_arg8) := (StableHlo.after_of_writes_sub hostOps1 (W2 m ρ c) hostOps1_wr (by decide))
    _ = W1 m ρ c (Proc.devRef .tc main_arg8) := (W2_of_ne m ρ c main_arg8 (by decide))
    _ = W0 m ρ c (Proc.devRef .tc main_arg8) := (StableHlo.after_of_writes_sub hostOps0 (W0 m ρ c) hostOps0_wr (by decide))
    _ = m ((c : Thread nD τ).loc main_arg8) := rfl

theorem keep_arg9_10_0 (c : Dev nD) : W10 m ρ c (Proc.devRef .tc main_arg9) = m ((c : Thread nD τ).loc main_arg9) :=
  calc W10 m ρ c (Proc.devRef .tc main_arg9)
    _ = W9 m ρ c (Proc.devRef .tc main_arg9) := (W10_of_ne m ρ c main_arg9 (by decide))
    _ = W8 m ρ c (Proc.devRef .tc main_arg9) := (StableHlo.after_of_writes_sub hostOps4 (W8 m ρ c) hostOps4_wr (by decide))
    _ = W7 m ρ c (Proc.devRef .tc main_arg9) := (W8_of_ne m ρ c main_arg9 (by decide))
    _ = W6 m ρ c (Proc.devRef .tc main_arg9) := (StableHlo.after_of_writes_sub hostOps3 (W6 m ρ c) hostOps3_wr (by decide))
    _ = W5 m ρ c (Proc.devRef .tc main_arg9) := (W6_of_ne m ρ c main_arg9 (by decide))
    _ = W4 m ρ c (Proc.devRef .tc main_arg9) := (StableHlo.after_of_writes_sub hostOps2 (W4 m ρ c) hostOps2_wr (by decide))
    _ = W3 m ρ c (Proc.devRef .tc main_arg9) := (W4_of_ne m ρ c main_arg9 (by decide))
    _ = W2 m ρ c (Proc.devRef .tc main_arg9) := (StableHlo.after_of_writes_sub hostOps1 (W2 m ρ c) hostOps1_wr (by decide))
    _ = W1 m ρ c (Proc.devRef .tc main_arg9) := (W2_of_ne m ρ c main_arg9 (by decide))
    _ = W0 m ρ c (Proc.devRef .tc main_arg9) := (StableHlo.after_of_writes_sub hostOps0 (W0 m ρ c) hostOps0_wr (by decide))
    _ = m ((c : Thread nD τ).loc main_arg9) := rfl

theorem keep_arg10_12_0 (c : Dev nD) : W12 m ρ c (Proc.devRef .tc main_arg10) = m ((c : Thread nD τ).loc main_arg10) :=
  calc W12 m ρ c (Proc.devRef .tc main_arg10)
    _ = W11 m ρ c (Proc.devRef .tc main_arg10) := (W12_of_ne m ρ c main_arg10 (by decide))
    _ = W10 m ρ c (Proc.devRef .tc main_arg10) := (StableHlo.after_of_writes_sub hostOps5 (W10 m ρ c) hostOps5_wr (by decide))
    _ = W9 m ρ c (Proc.devRef .tc main_arg10) := (W10_of_ne m ρ c main_arg10 (by decide))
    _ = W8 m ρ c (Proc.devRef .tc main_arg10) := (StableHlo.after_of_writes_sub hostOps4 (W8 m ρ c) hostOps4_wr (by decide))
    _ = W7 m ρ c (Proc.devRef .tc main_arg10) := (W8_of_ne m ρ c main_arg10 (by decide))
    _ = W6 m ρ c (Proc.devRef .tc main_arg10) := (StableHlo.after_of_writes_sub hostOps3 (W6 m ρ c) hostOps3_wr (by decide))
    _ = W5 m ρ c (Proc.devRef .tc main_arg10) := (W6_of_ne m ρ c main_arg10 (by decide))
    _ = W4 m ρ c (Proc.devRef .tc main_arg10) := (StableHlo.after_of_writes_sub hostOps2 (W4 m ρ c) hostOps2_wr (by decide))
    _ = W3 m ρ c (Proc.devRef .tc main_arg10) := (W4_of_ne m ρ c main_arg10 (by decide))
    _ = W2 m ρ c (Proc.devRef .tc main_arg10) := (StableHlo.after_of_writes_sub hostOps1 (W2 m ρ c) hostOps1_wr (by decide))
    _ = W1 m ρ c (Proc.devRef .tc main_arg10) := (W2_of_ne m ρ c main_arg10 (by decide))
    _ = W0 m ρ c (Proc.devRef .tc main_arg10) := (StableHlo.after_of_writes_sub hostOps0 (W0 m ρ c) hostOps0_wr (by decide))
    _ = m ((c : Thread nD τ).loc main_arg10) := rfl

theorem keep_arg11_14_0 (c : Dev nD) : W14 m ρ c (Proc.devRef .tc main_arg11) = m ((c : Thread nD τ).loc main_arg11) :=
  calc W14 m ρ c (Proc.devRef .tc main_arg11)
    _ = W13 m ρ c (Proc.devRef .tc main_arg11) := (W14_of_ne m ρ c main_arg11 (by decide))
    _ = W12 m ρ c (Proc.devRef .tc main_arg11) := (StableHlo.after_of_writes_sub hostOps6 (W12 m ρ c) hostOps6_wr (by decide))
    _ = W11 m ρ c (Proc.devRef .tc main_arg11) := (W12_of_ne m ρ c main_arg11 (by decide))
    _ = W10 m ρ c (Proc.devRef .tc main_arg11) := (StableHlo.after_of_writes_sub hostOps5 (W10 m ρ c) hostOps5_wr (by decide))
    _ = W9 m ρ c (Proc.devRef .tc main_arg11) := (W10_of_ne m ρ c main_arg11 (by decide))
    _ = W8 m ρ c (Proc.devRef .tc main_arg11) := (StableHlo.after_of_writes_sub hostOps4 (W8 m ρ c) hostOps4_wr (by decide))
    _ = W7 m ρ c (Proc.devRef .tc main_arg11) := (W8_of_ne m ρ c main_arg11 (by decide))
    _ = W6 m ρ c (Proc.devRef .tc main_arg11) := (StableHlo.after_of_writes_sub hostOps3 (W6 m ρ c) hostOps3_wr (by decide))
    _ = W5 m ρ c (Proc.devRef .tc main_arg11) := (W6_of_ne m ρ c main_arg11 (by decide))
    _ = W4 m ρ c (Proc.devRef .tc main_arg11) := (StableHlo.after_of_writes_sub hostOps2 (W4 m ρ c) hostOps2_wr (by decide))
    _ = W3 m ρ c (Proc.devRef .tc main_arg11) := (W4_of_ne m ρ c main_arg11 (by decide))
    _ = W2 m ρ c (Proc.devRef .tc main_arg11) := (StableHlo.after_of_writes_sub hostOps1 (W2 m ρ c) hostOps1_wr (by decide))
    _ = W1 m ρ c (Proc.devRef .tc main_arg11) := (W2_of_ne m ρ c main_arg11 (by decide))
    _ = W0 m ρ c (Proc.devRef .tc main_arg11) := (StableHlo.after_of_writes_sub hostOps0 (W0 m ρ c) hostOps0_wr (by decide))
    _ = m ((c : Thread nD τ).loc main_arg11) := rfl

theorem keep_v48_5_3 (c : Dev nD) : W5 m ρ c (Proc.devRef .tc main_v48) = W3 m ρ c (Proc.devRef .tc main_v48) :=
  calc W5 m ρ c (Proc.devRef .tc main_v48)
    _ = W4 m ρ c (Proc.devRef .tc main_v48) := (StableHlo.after_of_writes_sub hostOps2 (W4 m ρ c) hostOps2_wr (by decide))
    _ = W3 m ρ c (Proc.devRef .tc main_v48) := ((W4_arr m ρ c 0).trans (((dat1 (V3 m ρ) c).arrAt_in 0 rfl _).trans (A_eq1 (V3 m ρ) c 0)))

theorem keep_v58_7_6 (c : Dev nD) : W7 m ρ c (Proc.devRef .tc main_v58) = W6 m ρ c (Proc.devRef .tc main_v58) :=
  calc W7 m ρ c (Proc.devRef .tc main_v58)
    _ = W6 m ρ c (Proc.devRef .tc main_v58) := (StableHlo.after_of_writes_sub hostOps3 (W6 m ρ c) hostOps3_wr (by decide))

theorem keep_v103_11_9 (c : Dev nD) : W11 m ρ c (Proc.devRef .tc main_v103) = W9 m ρ c (Proc.devRef .tc main_v103) :=
  calc W11 m ρ c (Proc.devRef .tc main_v103)
    _ = W10 m ρ c (Proc.devRef .tc main_v103) := (StableHlo.after_of_writes_sub hostOps5 (W10 m ρ c) hostOps5_wr (by decide))
    _ = W9 m ρ c (Proc.devRef .tc main_v103) := ((W10_arr m ρ c 0).trans (((dat4 (V9 m ρ) c).arrAt_in 0 rfl _).trans (A_eq4 (V9 m ρ) c 0)))

theorem keep_v113_13_12 (c : Dev nD) : W13 m ρ c (Proc.devRef .tc main_v113) = W12 m ρ c (Proc.devRef .tc main_v113) :=
  calc W13 m ρ c (Proc.devRef .tc main_v113)
    _ = W12 m ρ c (Proc.devRef .tc main_v113) := (StableHlo.after_of_writes_sub hostOps6 (W12 m ρ c) hostOps6_wr (by decide))

/-! ## The edge rows and the first weights (boundary 1) -/

theorem rd1_v1 (c : Dev nD) : W1 m ρ c (Proc.devRef .tc main_v1) = srcOf (m ((c : Thread nD τ).loc main_arg1)) := by
  dsimp only [W1]; after_results; rfl
theorem rd1_v3 (c : Dev nD) : W1 m ρ c (Proc.devRef .tc main_v3) = dstOf (m ((c : Thread nD τ).loc main_arg1)) := by
  dsimp only [W1]; after_results; rfl
theorem rd1_v4 (c : Dev nD) : W1 m ρ c (Proc.devRef .tc main_v4) = tr (m ((c : Thread nD τ).loc main_arg2)) := by
  dsimp only [W1]; after_results; rfl

/-! ## Layer 1 -/

theorem rd2 (c : Dev nD) : W2 m ρ c (Proc.devRef .tc main_v5) = Cert.Gcn.lin (W1 m ρ c (Proc.devRef .tc main_arg0)) (W1 m ρ c (Proc.devRef .tc main_v4)) :=
  (W2_arr m ρ c 2).trans (lin0 (V1 m ρ) c)
theorem rd3 (c : Dev nD) : W3 m ρ c (Proc.devRef .tc main_v48)
    = convTail (W2 m ρ c (Proc.devRef .tc main_v5)) (W2 m ρ c (Proc.devRef .tc main_v1)) (W2 m ρ c (Proc.devRef .tc main_v3)) (W2 m ρ c (Proc.devRef .tc main_arg3)) := by
  dsimp only [W3]; after_results_simp; rfl
theorem rd4s (c : Dev nD) : W4 m ρ c (Proc.devRef .tc main_v49_0) = Cert.Gcn.colSum (W3 m ρ c (Proc.devRef .tc main_v48)) :=
  (W4_arr m ρ c 1).trans (stats1_sum (V3 m ρ) c)
theorem rd4q (c : Dev nD) : W4 m ρ c (Proc.devRef .tc main_v49_1) = Cert.Gcn.colSqSum (W3 m ρ c (Proc.devRef .tc main_v48)) :=
  (W4_arr m ρ c 2).trans (stats1_sq (V3 m ρ) c)
theorem rd5m (c : Dev nD) : W5 m ρ c (Proc.devRef .tc main_v51) = meanRow (W4 m ρ c (Proc.devRef .tc main_v49_0)) := by
  dsimp only [W5]; after_results; rfl
theorem rd5v (c : Dev nD) : W5 m ρ c (Proc.devRef .tc main_v55) = varRow (W4 m ρ c (Proc.devRef .tc main_v49_0)) (W4 m ρ c (Proc.devRef .tc main_v49_1)) := by
  dsimp only [W5]; after_results; rfl
theorem rd5g (c : Dev nD) : W5 m ρ c (Proc.devRef .tc main_v56) = rowOf (W4 m ρ c (Proc.devRef .tc main_arg4)) := by
  dsimp only [W5]; after_results; rfl
theorem rd5b (c : Dev nD) : W5 m ρ c (Proc.devRef .tc main_v57) = rowOf (W4 m ρ c (Proc.devRef .tc main_arg5)) := by
  dsimp only [W5]; after_results; rfl
theorem rd6 (c : Dev nD) : W6 m ρ c (Proc.devRef .tc main_v58)
    = Cert.Gcn.bn (W5 m ρ c (Proc.devRef .tc main_v48)) (W5 m ρ c (Proc.devRef .tc main_v51)) (W5 m ρ c (Proc.devRef .tc main_v55)) (W5 m ρ c (Proc.devRef .tc main_v56)) (W5 m ρ c (Proc.devRef .tc main_v57)) :=
  (W6_arr m ρ c 5).trans (bn2 (V5 m ρ) c)

/-! ## Layer 2 -/

theorem rd7 (c : Dev nD) : W7 m ρ c (Proc.devRef .tc main_v59) = tr (W6 m ρ c (Proc.devRef .tc main_arg6)) := by
  dsimp only [W7]; after_results; rfl
theorem rd8 (c : Dev nD) : W8 m ρ c (Proc.devRef .tc main_v60) = Cert.Gcn.lin (W7 m ρ c (Proc.devRef .tc main_v58)) (W7 m ρ c (Proc.devRef .tc main_v59)) :=
  (W8_arr m ρ c 2).trans (lin3 (V7 m ρ) c)
theorem rd9 (c : Dev nD) : W9 m ρ c (Proc.devRef .tc main_v103)
    = convTail (W8 m ρ c (Proc.devRef .tc main_v60)) (W8 m ρ c (Proc.devRef .tc main_v1)) (W8 m ρ c (Proc.devRef .tc main_v3)) (W8 m ρ c (Proc.devRef .tc main_arg7)) := by
  dsimp only [W9]; after_results_simp; rfl
theorem rd10s (c : Dev nD) : W10 m ρ c (Proc.devRef .tc main_v104_0) = Cert.Gcn.colSum (W9 m ρ c (Proc.devRef .tc main_v103)) :=
  (W10_arr m ρ c 1).trans (stats4_sum (V9 m ρ) c)
theorem rd10q (c : Dev nD) : W10 m ρ c (Proc.devRef .tc main_v104_1) = Cert.Gcn.colSqSum (W9 m ρ c (Proc.devRef .tc main_v103)) :=
  (W10_arr m ρ c 2).trans (stats4_sq (V9 m ρ) c)
theorem rd11m (c : Dev nD) : W11 m ρ c (Proc.devRef .tc main_v106) = meanRow (W10 m ρ c (Proc.devRef .tc main_v104_0)) := by
  dsimp only [W11]; after_results; rfl
theorem rd11v (c : Dev nD) : W11 m ρ c (Proc.devRef .tc main_v110) = varRow (W10 m ρ c (Proc.devRef .tc main_v104_0)) (W10 m ρ c (Proc.devRef .tc main_v104_1)) := by
  dsimp only [W11]; after_results; rfl
theorem rd11g (c : Dev nD) : W11 m ρ c (Proc.devRef .tc main_v111) = rowOf (W10 m ρ c (Proc.devRef .tc main_arg8)) := by
  dsimp only [W11]; after_results; rfl
theorem rd11b (c : Dev nD) : W11 m ρ c (Proc.devRef .tc main_v112) = rowOf (W10 m ρ c (Proc.devRef .tc main_arg9)) := by
  dsimp only [W11]; after_results; rfl
theorem rd12 (c : Dev nD) : W12 m ρ c (Proc.devRef .tc main_v113)
    = Cert.Gcn.bn (W11 m ρ c (Proc.devRef .tc main_v103)) (W11 m ρ c (Proc.devRef .tc main_v106)) (W11 m ρ c (Proc.devRef .tc main_v110)) (W11 m ρ c (Proc.devRef .tc main_v111)) (W11 m ρ c (Proc.devRef .tc main_v112)) :=
  (W12_arr m ρ c 5).trans (bn5 (V11 m ρ) c)

/-! ## Layer 3 -/

theorem rd13 (c : Dev nD) : W13 m ρ c (Proc.devRef .tc main_v114) = tr (W12 m ρ c (Proc.devRef .tc main_arg10)) := by
  dsimp only [W13]; after_results; rfl
theorem rd14 (c : Dev nD) : W14 m ρ c (Proc.devRef .tc main_v115) = Cert.Gcn.lin (W13 m ρ c (Proc.devRef .tc main_v113)) (W13 m ρ c (Proc.devRef .tc main_v114)) :=
  (W14_arr m ρ c 2).trans (lin6 (V13 m ρ) c)
theorem rd15 (c : Dev nD) : W15 m ρ c (Proc.devRef .tc main_v158)
    = convTail (W14 m ρ c (Proc.devRef .tc main_v115)) (W14 m ρ c (Proc.devRef .tc main_v1)) (W14 m ρ c (Proc.devRef .tc main_v3)) (W14 m ρ c (Proc.devRef .tc main_arg11)) := by
  dsimp only [W15]; after_results_simp; rfl

/-! ## The result -/

/-- The result array after the run is the network of the argument arrays. -/
theorem result_eq (c : Dev nD) : W15 m ρ c (Proc.devRef .tc main_v158)
    = net (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) := by
  rw [rd15, rd14, rd13, keep_v113_13_12, rd12, keep_v103_11_9, rd11m, rd11v, rd11g, rd11b, rd10s, rd10q,
    rd9, rd8, rd7, keep_v58_7_6, rd6, keep_v48_5_3, rd5m, rd5v, rd5g, rd5b, rd4s, rd4q, rd3, rd2, rd1_v4,
    keep_v1_14_1, keep_v3_14_1, keep_v1_8_1, keep_v3_8_1, keep_v1_2_1, keep_v3_2_1, rd1_v1, rd1_v3,
    keep_arg0_1_0, keep_arg3_2_0, keep_arg4_4_0, keep_arg5_4_0, keep_arg6_6_0, keep_arg7_8_0, keep_arg8_10_0, keep_arg9_10_0,
    keep_arg10_12_0, keep_arg11_14_0]
  rfl

end Cert.KernelIdeal.Read

end
-- ==== Proof.RefRun.lean ====
import proofs.«173880_j87316685127958_1_alg».proof.Proof.Gen.ReferenceIdeal
import Idealize.ShloMosaic.Lib.StableHlo.Run
import Idealize.ShloMosaic.Lib.Pipeline.Frame

/-!
# The reference's run, read as a list of operations

The reference is a three-layer graph convolution network on 100000 nodes with 128 channels: three times
`A · (x · Wᵀ) + b` with the symmetrically normalised adjacency `A` of the edge table plus self loops, and between them a
column normalisation (mean and variance over the nodes) followed by the positive part. Its variance and its positive part are
outlined functions; here every call is replaced by the callee's operations over that call's own buffers, so that the whole
program is one straight line of 263 operations. The line is cut into named stretches (one per layer and per
normalisation), the program is shown equal to the line run in order, and the run is read back: every weakly fair execution
terminates with each buffer at the line's fold over the launch contents, the twelve arguments unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stretches -/

/-- The two rows of the edge table, each as a vector: the source index `%1` and the target index `%3` of every edge. -/
abbrev edges : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- The first graph convolution: the weight transposed, `x · Wᵀ`, the degrees counted over the target index, their inverse square roots, the normalised sum over the edges scattered to the targets, the self term and the bias (`%4` … `%48`). -/
abbrev layer1 : List (HloOp τ sig (Elt F)) :=
  [ unary main_arg2 main_v4 ((transpose S128x128 [1, 0] · transposes_S128x128_S128x128_1_0) : (⟨S128x128, .f32⟩ : BufTy).Contents (Elt F) → (⟨S128x128, .f32⟩ : BufTy).Contents (Elt F)),
    binary main_arg0 main_v4 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst (constant S_ .f32 0x3F800000#32),
    unary main_cst main_v6 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v7 (broadcastInDim S100000 ![] bcast_S_S100000 : (⟨S_, .f32⟩ : BufTy).Contents (Elt F) → (⟨S100000, .f32⟩ : BufTy).Contents (Elt F)),
    unary main_v3 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v10 (broadcastInDim S100000 ![] bcast_S_S100000 : (⟨S_, .f32⟩ : BufTy).Contents (Elt F) → (⟨S100000, .f32⟩ : BufTy).Contents (Elt F)),
    binary main_v9 main_v10 main_v11 (addf : (⟨S100000, .f32⟩ : BufTy).Contents (Elt F) → (⟨S100000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    nullary main_c (constantI S_ 32 0#32),
    unary main_c main_v13 (broadcastInDim S1600000 ![] bcast_S_S1600000 : (⟨S_, .i32⟩ : BufTy).Contents (Elt F) → (⟨S1600000, .i32⟩ : BufTy).Contents (Elt F)),
    binary main_v1 main_v13 main_v14 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v15 (broadcastInDim S1600000 ![] bcast_S_S1600000 : (⟨S_, .i32⟩ : BufTy).Contents (Elt F) → (⟨S1600000, .i32⟩ : BufTy).Contents (Elt F)),
    binary main_v1 main_v15 main_v16 (addi : (⟨S1600000, .i32⟩ : BufTy).Contents (Elt F) → (⟨S1600000, .i32⟩ : BufTy).Contents (Elt F) → (⟨S1600000, .i32⟩ : BufTy).Contents (Elt F)),
    ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v17 main_v18 (broadcastInDim S1600000x1 ![0] bcast_S1600000_S1600000x1_0 : (⟨S1600000, .i32⟩ : BufTy).Contents (Elt F) → (⟨S1600000x1, .i32⟩ : BufTy).Contents (Elt F)),
    binary main_v12 main_v18 main_v19 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v20 (broadcastInDim S1600000 ![] bcast_S_S1600000 : (⟨S_, .i32⟩ : BufTy).Contents (Elt F) → (⟨S1600000, .i32⟩ : BufTy).Contents (Elt F)),
    binary main_v3 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v22 (broadcastInDim S1600000 ![] bcast_S_S1600000 : (⟨S_, .i32⟩ : BufTy).Contents (Elt F) → (⟨S1600000, .i32⟩ : BufTy).Contents (Elt F)),
    binary main_v3 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_v3 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v12 main_v25 main_v26 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v19 main_v26 main_v27 (mulf : (⟨S1600000, .f32⟩ : BufTy).Contents (Elt F) → (⟨S1600000, .f32⟩ : BufTy).Contents (Elt F) → (⟨S1600000, .f32⟩ : BufTy).Contents (Elt F)),
    nullary main_c_5 (constantI S_ 32 0#32),
    unary main_c_5 main_v28 (broadcastInDim S1600000 ![] bcast_S_S1600000 : (⟨S_, .i32⟩ : BufTy).Contents (Elt F) → (⟨S1600000, .i32⟩ : BufTy).Contents (Elt F)),
    binary main_v1 main_v28 main_v29 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v30 (broadcastInDim S1600000 ![] bcast_S_S1600000 : (⟨S_, .i32⟩ : BufTy).Contents (Elt F) → (⟨S1600000, .i32⟩ : BufTy).Contents (Elt F)),
    binary main_v1 main_v30 main_v31 (addi : (⟨S1600000, .i32⟩ : BufTy).Contents (Elt F) → (⟨S1600000, .i32⟩ : BufTy).Contents (Elt F) → (⟨S1600000, .i32⟩ : BufTy).Contents (Elt F)),
    ternary main_v29 main_v31 main_v1 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v32 main_v33 (broadcastInDim S1600000x1 ![0] bcast_S1600000_S1600000x1_0 : (⟨S1600000, .i32⟩ : BufTy).Contents (Elt F) → (⟨S1600000x1, .i32⟩ : BufTy).Contents (Elt F)),
    binary main_v5 main_v33 main_v34 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v27 main_v35 (broadcastInDim S1600000x1 ![0] bcast_S1600000_S1600000x1_0 : (⟨S1600000, .f32⟩ : BufTy).Contents (Elt F) → (⟨S1600000x1, .f32⟩ : BufTy).Contents (Elt F)),
    unary main_v35 main_v36 (broadcastInDim S1600000x128 ![0, 1] bcast_S1600000x1_S1600000x128_0_1 : (⟨S1600000x1, .f32⟩ : BufTy).Contents (Elt F) → (⟨S1600000x128, .f32⟩ : BufTy).Contents (Elt F)),
    binary main_v34 main_v36 main_v37 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v38 (broadcastInDim S100000x128 ![] bcast_S_S100000x128 : (⟨S_, .f32⟩ : BufTy).Contents (Elt F) → (⟨S100000x128, .f32⟩ : BufTy).Contents (Elt F)),
    unary main_v3 main_v39 (broadcastInDim S1600000x1 ![0] bcast_S1600000_S1600000x1_0 : (⟨S1600000, .i32⟩ : BufTy).Contents (Elt F) → (⟨S1600000x1, .i32⟩ : BufTy).Contents (Elt F)),
    ternary main_v38 main_v39 main_v37 main_v40 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v12 main_v12 main_v41 (mulf : (⟨S100000, .f32⟩ : BufTy).Contents (Elt F) → (⟨S100000, .f32⟩ : BufTy).Contents (Elt F) → (⟨S100000, .f32⟩ : BufTy).Contents (Elt F)),
    unary main_v41 main_v42 (broadcastInDim S100000x1 ![0] bcast_S100000_S100000x1_0 : (⟨S100000, .f32⟩ : BufTy).Contents (Elt F) → (⟨S100000x1, .f32⟩ : BufTy).Contents (Elt F)),
    unary main_v42 main_v43 (broadcastInDim S100000x128 ![0, 1] bcast_S100000x1_S100000x128_0_1 : (⟨S100000x1, .f32⟩ : BufTy).Contents (Elt F) → (⟨S100000x128, .f32⟩ : BufTy).Contents (Elt F)),
    binary main_v5 main_v43 main_v44 (mulf : (⟨S100000x128, .f32⟩ : BufTy).Contents (Elt F) → (⟨S100000x128, .f32⟩ : BufTy).Contents (Elt F) → (⟨S100000x128, .f32⟩ : BufTy).Contents (Elt F)),
    binary main_v40 main_v44 main_v45 (addf : (⟨S100000x128, .f32⟩ : BufTy).Contents (Elt F) → (⟨S100000x128, .f32⟩ : BufTy).Contents (Elt F) → (⟨S100000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- The zero the first column sum starts from. -/
abbrev bn1a : List (HloOp τ sig (Elt F)) :=
  [ nullary main_cst_8 (constant S_ .f32 0x00000000#32) ]

/-- The first normalisation: the column mean, the column variance (the outlined variance, its own mean and its guarded quotient inlined), the scaling by the inverse root and by the two learned vectors, then the positive part (`%49` … `%68`). -/
abbrev bn1b : List (HloOp τ sig (Elt F)) :=
  [ binary main_v48 main_cst_8 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v50 (broadcastInDim S128 ![] bcast_S_S128 : (⟨S_, .f32⟩ : BufTy).Contents (Elt F) → (⟨S128, .f32⟩ : BufTy).Contents (Elt F)),
    binary main_v49 main_v50 main_v51 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary main_call0.cst (constant S_ .f32 0x00000000#32),
    TRef.binary (TRef.of (T := ⟨S100000x128, .f32⟩) main_v48) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (TRef.of (T := ⟨S100000x128, .f32⟩) main_v48) main_call0.v4 main_call0.v5 subf,
    TRef.binary main_call0.v5 main_call0.v5 main_call0.v6 mulf,
    TRef.unary (TRef.of (T := ⟨S_, .i32⟩) main_c_10) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v51 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v48 main_v54 main_v55 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v56 (broadcastInDim S128 ![] bcast_S_S128 : (⟨S_, .f32⟩ : BufTy).Contents (Elt F) → (⟨S128, .f32⟩ : BufTy).Contents (Elt F)),
    binary main_v52 main_v56 main_v57 (addf : (⟨S128, .f32⟩ : BufTy).Contents (Elt F) → (⟨S128, .f32⟩ : BufTy).Contents (Elt F) → (⟨S128, .f32⟩ : BufTy).Contents (Elt F)),
    unary main_v57 main_v58 (Host.rsqrt : (⟨S128, .f32⟩ : BufTy).Contents (Elt F) → (⟨S128, .f32⟩ : BufTy).Contents (Elt F)),
    unary main_v58 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v55 main_v60 main_v61 (mulf : (⟨S100000x128, .f32⟩ : BufTy).Contents (Elt F) → (⟨S100000x128, .f32⟩ : BufTy).Contents (Elt F) → (⟨S100000x128, .f32⟩ : BufTy).Contents (Elt F)),
    unary main_arg4 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (mulf : (⟨S100000x128, .f32⟩ : BufTy).Contents (Elt F) → (⟨S100000x128, .f32⟩ : BufTy).Contents (Elt F) → (⟨S100000x128, .f32⟩ : BufTy).Contents (Elt F)),
    unary main_arg5 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v64 main_v66 main_v67 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (TRef.of (T := ⟨S100000x128, .f32⟩) main_v67) main_call1.v0 main_call1.v1 maximumf ]

/-- The second graph convolution, up to the source index's wrap-around sum for its row gather (`%69` … `%96`). -/
abbrev layer2a : List (HloOp τ sig (Elt F)) :=
  [ unary main_arg6 main_v69 ((transpose S128x128 [1, 0] · transposes_S128x128_S128x128_1_0) : (⟨S128x128, .f32⟩ : BufTy).Contents (Elt F) → (⟨S128x128, .f32⟩ : BufTy).Contents (Elt F)),
    binary main_v68 main_v69 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_12 (constant S_ .f32 0x3F800000#32),
    unary main_cst_12 main_v71 (broadcastInDim S1600000 ![] bcast_S_S1600000 : (⟨S_, .f32⟩ : BufTy).Contents (Elt F) → (⟨S1600000, .f32⟩ : BufTy).Contents (Elt F)),
    nullary main_cst_13 (constant S_ .f32 0x00000000#32),
    unary main_cst_13 main_v72 (broadcastInDim S100000 ![] bcast_S_S100000 : (⟨S_, .f32⟩ : BufTy).Contents (Elt F) → (⟨S100000, .f32⟩ : BufTy).Contents (Elt F)),
    unary main_v3 main_v73 (broadcastInDim S1600000x1 ![0] bcast_S1600000_S1600000x1_0 : (⟨S1600000, .i32⟩ : BufTy).Contents (Elt F) → (⟨S1600000x1, .i32⟩ : BufTy).Contents (Elt F)),
    ternary main_v72 main_v73 main_v71 main_v74 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_14 (constant S_ .f32 0x3F800000#32),
    unary main_cst_14 main_v75 (broadcastInDim S100000 ![] bcast_S_S100000 : (⟨S_, .f32⟩ : BufTy).Contents (Elt F) → (⟨S100000, .f32⟩ : BufTy).Contents (Elt F)),
    binary main_v74 main_v75 main_v76 (addf : (⟨S100000, .f32⟩ : BufTy).Contents (Elt F) → (⟨S100000, .f32⟩ : BufTy).Contents (Elt F) → (⟨S100000, .f32⟩ : BufTy).Contents (Elt F)),
    unary main_v76 main_v77 (Host.rsqrt : (⟨S100000, .f32⟩ : BufTy).Contents (Elt F) → (⟨S100000, .f32⟩ : BufTy).Contents (Elt F)),
    nullary main_c_15 (constantI S_ 32 0#32),
    unary main_c_15 main_v78 (broadcastInDim S1600000 ![] bcast_S_S1600000 : (⟨S_, .i32⟩ : BufTy).Contents (Elt F) → (⟨S1600000, .i32⟩ : BufTy).Contents (Elt F)),
    binary main_v1 main_v78 main_v79 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v80 (broadcastInDim S1600000 ![] bcast_S_S1600000 : (⟨S_, .i32⟩ : BufTy).Contents (Elt F) → (⟨S1600000, .i32⟩ : BufTy).Contents (Elt F)),
    binary main_v1 main_v80 main_v81 (addi : (⟨S1600000, .i32⟩ : BufTy).Contents (Elt F) → (⟨S1600000, .i32⟩ : BufTy).Contents (Elt F) → (⟨S1600000, .i32⟩ : BufTy).Contents (Elt F)),
    ternary main_v79 main_v81 main_v1 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v82 main_v83 (broadcastInDim S1600000x1 ![0] bcast_S1600000_S1600000x1_0 : (⟨S1600000, .i32⟩ : BufTy).Contents (Elt F) → (⟨S1600000x1, .i32⟩ : BufTy).Contents (Elt F)),
    binary main_v77 main_v83 main_v84 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_17 (constantI S_ 32 0#32),
    unary main_c_17 main_v85 (broadcastInDim S1600000 ![] bcast_S_S1600000 : (⟨S_, .i32⟩ : BufTy).Contents (Elt F) → (⟨S1600000, .i32⟩ : BufTy).Contents (Elt F)),
    binary main_v3 main_v85 main_v86 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v87 (broadcastInDim S1600000 ![] bcast_S_S1600000 : (⟨S_, .i32⟩ : BufTy).Contents (Elt F) → (⟨S1600000, .i32⟩ : BufTy).Contents (Elt F)),
    binary main_v3 main_v87 main_v88 (addi : (⟨S1600000, .i32⟩ : BufTy).Contents (Elt F) → (⟨S1600000, .i32⟩ : BufTy).Contents (Elt F) → (⟨S1600000, .i32⟩ : BufTy).Contents (Elt F)),
    ternary main_v86 main_v88 main_v3 main_v89 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v89 main_v90 (broadcastInDim S1600000x1 ![0] bcast_S1600000_S1600000x1_0 : (⟨S1600000, .i32⟩ : BufTy).Contents (Elt F) → (⟨S1600000x1, .i32⟩ : BufTy).Contents (Elt F)),
    binary main_v77 main_v90 main_v91 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v84 main_v91 main_v92 (mulf : (⟨S1600000, .f32⟩ : BufTy).Contents (Elt F) → (⟨S1600000, .f32⟩ : BufTy).Contents (Elt F) → (⟨S1600000, .f32⟩ : BufTy).Contents (Elt F)),
    nullary main_c_19 (constantI S_ 32 0#32),
    unary main_c_19 main_v93 (broadcastInDim S1600000 ![] bcast_S_S1600000 : (⟨S_, .i32⟩ : BufTy).Contents (Elt F) → (⟨S1600000, .i32⟩ : BufTy).Contents (Elt F)),
    binary main_v1 main_v93 main_v94 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v95 (broadcastInDim S1600000 ![] bcast_S_S1600000 : (⟨S_, .i32⟩ : BufTy).Contents (Elt F) → (⟨S1600000, .i32⟩ : BufTy).Contents (Elt F)),
    binary main_v1 main_v95 main_v96 (addi : (⟨S1600000, .i32⟩ : BufTy).Contents (Elt F) → (⟨S1600000, .i32⟩ : BufTy).Contents (Elt F) → (⟨S1600000, .i32⟩ : BufTy).Contents (Elt F)) ]

/-- The second graph convolution, from that select to the bias (`%97` … `%113`). -/
abbrev layer2b : List (HloOp τ sig (Elt F)) :=
  [ ternary main_v94 main_v96 main_v1 main_v97 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v97 main_v98 (broadcastInDim S1600000x1 ![0] bcast_S1600000_S1600000x1_0 : (⟨S1600000, .i32⟩ : BufTy).Contents (Elt F) → (⟨S1600000x1, .i32⟩ : BufTy).Contents (Elt F)),
    binary main_v70 main_v98 main_v99 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v92 main_v100 (broadcastInDim S1600000x1 ![0] bcast_S1600000_S1600000x1_0 : (⟨S1600000, .f32⟩ : BufTy).Contents (Elt F) → (⟨S1600000x1, .f32⟩ : BufTy).Contents (Elt F)),
    unary main_v100 main_v101 (broadcastInDim S1600000x128 ![0, 1] bcast_S1600000x1_S1600000x128_0_1 : (⟨S1600000x1, .f32⟩ : BufTy).Contents (Elt F) → (⟨S1600000x128, .f32⟩ : BufTy).Contents (Elt F)),
    binary main_v99 main_v101 main_v102 (mulf : (⟨S1600000x128, .f32⟩ : BufTy).Contents (Elt F) → (⟨S1600000x128, .f32⟩ : BufTy).Contents (Elt F) → (⟨S1600000x128, .f32⟩ : BufTy).Contents (Elt F)),
    nullary main_cst_21 (constant S_ .f32 0x00000000#32),
    unary main_cst_21 main_v103 (broadcastInDim S100000x128 ![] bcast_S_S100000x128 : (⟨S_, .f32⟩ : BufTy).Contents (Elt F) → (⟨S100000x128, .f32⟩ : BufTy).Contents (Elt F)),
    unary main_v3 main_v104 (broadcastInDim S1600000x1 ![0] bcast_S1600000_S1600000x1_0 : (⟨S1600000, .i32⟩ : BufTy).Contents (Elt F) → (⟨S1600000x1, .i32⟩ : BufTy).Contents (Elt F)),
    ternary main_v103 main_v104 main_v102 main_v105 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v77 main_v77 main_v106 (mulf : (⟨S100000, .f32⟩ : BufTy).Contents (Elt F) → (⟨S100000, .f32⟩ : BufTy).Contents (Elt F) → (⟨S100000, .f32⟩ : BufTy).Contents (Elt F)),
    unary main_v106 main_v107 (broadcastInDim S100000x1 ![0] bcast_S100000_S100000x1_0 : (⟨S100000, .f32⟩ : BufTy).Contents (Elt F) → (⟨S100000x1, .f32⟩ : BufTy).Contents (Elt F)),
    unary main_v107 main_v108 (broadcastInDim S100000x128 ![0, 1] bcast_S100000x1_S100000x128_0_1 : (⟨S100000x1, .f32⟩ : BufTy).Contents (Elt F) → (⟨S100000x128, .f32⟩ : BufTy).Contents (Elt F)),
    binary main_v70 main_v108 main_v109 (mulf : (⟨S100000x128, .f32⟩ : BufTy).Contents (Elt F) → (⟨S100000x128, .f32⟩ : BufTy).Contents (Elt F) → (⟨S100000x128, .f32⟩ : BufTy).Contents (Elt F)),
    binary main_v105 main_v109 main_v110 (addf : (⟨S100000x128, .f32⟩ : BufTy).Contents (Elt F) → (⟨S100000x128, .f32⟩ : BufTy).Contents (Elt F) → (⟨S100000x128, .f32⟩ : BufTy).Contents (Elt F)),
    unary main_arg7 main_v111 (broadcastInDim S1x128 ![1] bcast_S128_S1x128_1 : (⟨S128, .f32⟩ : BufTy).Contents (Elt F) → (⟨S1x128, .f32⟩ : BufTy).Contents (Elt F)),
    unary main_v111 main_v112 (broadcastInDim S100000x128 ![0, 1] bcast_S1x128_S100000x128_0_1 : (⟨S1x128, .f32⟩ : BufTy).Contents (Elt F) → (⟨S100000x128, .f32⟩ : BufTy).Contents (Elt F)),
    binary main_v110 main_v112 main_v113 (addf : (⟨S100000x128, .f32⟩ : BufTy).Contents (Elt F) → (⟨S100000x128, .f32⟩ : BufTy).Contents (Elt F) → (⟨S100000x128, .f32⟩ : BufTy).Contents (Elt F)) ]

/-- The second normalisation and positive part (`%cst_22` … `%133`). -/
abbrev bn2 : List (HloOp τ sig (Elt F)) :=
  [ nullary main_cst_22 (constant S_ .f32 0x00000000#32),
    binary main_v113 main_cst_22 main_v114 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_23 (constant S_ .f32 0x47C35000#32),
    unary main_cst_23 main_v115 (broadcastInDim S128 ![] bcast_S_S128 : (⟨S_, .f32⟩ : BufTy).Contents (Elt F) → (⟨S128, .f32⟩ : BufTy).Contents (Elt F)),
    binary main_v114 main_v115 main_v116 (Host.divf : (⟨S128, .f32⟩ : BufTy).Contents (Elt F) → (⟨S128, .f32⟩ : BufTy).Contents (Elt F) → (⟨S128, .f32⟩ : BufTy).Contents (Elt F)),
    nullary main_c_24 (constantI S_ 32 0#32),
    TRef.nullary main_call2.cst (constant S_ .f32 0x00000000#32),
    TRef.binary (TRef.of (T := ⟨S100000x128, .f32⟩) main_v113) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (TRef.of (T := ⟨S100000x128, .f32⟩) main_v113) main_call2.v4 main_call2.v5 subf,
    TRef.binary main_call2.v5 main_call2.v5 main_call2.v6 mulf,
    TRef.unary (TRef.of (T := ⟨S_, .i32⟩) main_c_24) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v116 main_v118 (broadcastInDim S1x128 ![1] bcast_S128_S1x128_1 : (⟨S128, .f32⟩ : BufTy).Contents (Elt F) → (⟨S1x128, .f32⟩ : BufTy).Contents (Elt F)),
    unary main_v118 main_v119 (broadcastInDim S100000x128 ![0, 1] bcast_S1x128_S100000x128_0_1 : (⟨S1x128, .f32⟩ : BufTy).Contents (Elt F) → (⟨S100000x128, .f32⟩ : BufTy).Contents (Elt F)),
    binary main_v113 main_v119 main_v120 (subf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x3727C5AC#32),
    unary main_cst_25 main_v121 (broadcastInDim S128 ![] bcast_S_S128 : (⟨S_, .f32⟩ : BufTy).Contents (Elt F) → (⟨S128, .f32⟩ : BufTy).Contents (Elt F)),
    binary main_v117 main_v121 main_v122 (addf : (⟨S128, .f32⟩ : BufTy).Contents (Elt F) → (⟨S128, .f32⟩ : BufTy).Contents (Elt F) → (⟨S128, .f32⟩ : BufTy).Contents (Elt F)),
    unary main_v122 main_v123 (Host.rsqrt : (⟨S128, .f32⟩ : BufTy).Contents (Elt F) → (⟨S128, .f32⟩ : BufTy).Contents (Elt F)),
    unary main_v123 main_v124 (broadcastInDim S1x128 ![1] bcast_S128_S1x128_1 : (⟨S128, .f32⟩ : BufTy).Contents (Elt F) → (⟨S1x128, .f32⟩ : BufTy).Contents (Elt F)),
    unary main_v124 main_v125 (broadcastInDim S100000x128 ![0, 1] bcast_S1x128_S100000x128_0_1 : (⟨S1x128, .f32⟩ : BufTy).Contents (Elt F) → (⟨S100000x128, .f32⟩ : BufTy).Contents (Elt F)),
    binary main_v120 main_v125 main_v126 (mulf : (⟨S100000x128, .f32⟩ : BufTy).Contents (Elt F) → (⟨S100000x128, .f32⟩ : BufTy).Contents (Elt F) → (⟨S100000x128, .f32⟩ : BufTy).Contents (Elt F)),
    unary main_arg8 main_v127 (broadcastInDim S1x128 ![1] bcast_S128_S1x128_1 : (⟨S128, .f32⟩ : BufTy).Contents (Elt F) → (⟨S1x128, .f32⟩ : BufTy).Contents (Elt F)),
    unary main_v127 main_v128 (broadcastInDim S100000x128 ![0, 1] bcast_S1x128_S100000x128_0_1 : (⟨S1x128, .f32⟩ : BufTy).Contents (Elt F) → (⟨S100000x128, .f32⟩ : BufTy).Contents (Elt F)),
    binary main_v126 main_v128 main_v129 (mulf : (⟨S100000x128, .f32⟩ : BufTy).Contents (Elt F) → (⟨S100000x128, .f32⟩ : BufTy).Contents (Elt F) → (⟨S100000x128, .f32⟩ : BufTy).Contents (Elt F)),
    unary main_arg9 main_v130 (broadcastInDim S1x128 ![1] bcast_S128_S1x128_1 : (⟨S128, .f32⟩ : BufTy).Contents (Elt F) → (⟨S1x128, .f32⟩ : BufTy).Contents (Elt F)),
    unary main_v130 main_v131 (broadcastInDim S100000x128 ![0, 1] bcast_S1x128_S100000x128_0_1 : (⟨S1x128, .f32⟩ : BufTy).Contents (Elt F) → (⟨S100000x128, .f32⟩ : BufTy).Contents (Elt F)),
    binary main_v129 main_v131 main_v132 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (TRef.of (T := ⟨S100000x128, .f32⟩) main_v132) main_call3.v0 main_call3.v1 maximumf ]

/-- The third graph convolution, up to the source index's wrap-around sum for the degree gather (`%134` … `%146`). -/
abbrev layer3a : List (HloOp τ sig (Elt F)) :=
  [ unary main_arg10 main_v134 ((transpose S128x128 [1, 0] · transposes_S128x128_S128x128_1_0) : (⟨S128x128, .f32⟩ : BufTy).Contents (Elt F) → (⟨S128x128, .f32⟩ : BufTy).Contents (Elt F)),
    binary main_v133 main_v134 main_v135 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_26 (constant S_ .f32 0x3F800000#32),
    unary main_cst_26 main_v136 (broadcastInDim S1600000 ![] bcast_S_S1600000 : (⟨S_, .f32⟩ : BufTy).Contents (Elt F) → (⟨S1600000, .f32⟩ : BufTy).Contents (Elt F)),
    nullary main_cst_27 (constant S_ .f32 0x00000000#32),
    unary main_cst_27 main_v137 (broadcastInDim S100000 ![] bcast_S_S100000 : (⟨S_, .f32⟩ : BufTy).Contents (Elt F) → (⟨S100000, .f32⟩ : BufTy).Contents (Elt F)),
    unary main_v3 main_v138 (broadcastInDim S1600000x1 ![0] bcast_S1600000_S1600000x1_0 : (⟨S1600000, .i32⟩ : BufTy).Contents (Elt F) → (⟨S1600000x1, .i32⟩ : BufTy).Contents (Elt F)),
    ternary main_v137 main_v138 main_v136 main_v139 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_28 (constant S_ .f32 0x3F800000#32),
    unary main_cst_28 main_v140 (broadcastInDim S100000 ![] bcast_S_S100000 : (⟨S_, .f32⟩ : BufTy).Contents (Elt F) → (⟨S100000, .f32⟩ : BufTy).Contents (Elt F)),
    binary main_v139 main_v140 main_v141 (addf : (⟨S100000, .f32⟩ : BufTy).Contents (Elt F) → (⟨S100000, .f32⟩ : BufTy).Contents (Elt F) → (⟨S100000, .f32⟩ : BufTy).Contents (Elt F)),
    unary main_v141 main_v142 (Host.rsqrt : (⟨S100000, .f32⟩ : BufTy).Contents (Elt F) → (⟨S100000, .f32⟩ : BufTy).Contents (Elt F)),
    nullary main_c_29 (constantI S_ 32 0#32),
    unary main_c_29 main_v143 (broadcastInDim S1600000 ![] bcast_S_S1600000 : (⟨S_, .i32⟩ : BufTy).Contents (Elt F) → (⟨S1600000, .i32⟩ : BufTy).Contents (Elt F)),
    binary main_v1 main_v143 main_v144 (cmpi .slt : (⟨S1600000, .i32⟩ : BufTy).Contents (Elt F) → (⟨S1600000, .i32⟩ : BufTy).Contents (Elt F) → (⟨S1600000, .i1⟩ : BufTy).Contents (Elt F)),
    nullary main_c_30 (constantI S_ 32 100000#32),
    unary main_c_30 main_v145 (broadcastInDim S1600000 ![] bcast_S_S1600000 : (⟨S_, .i32⟩ : BufTy).Contents (Elt F) → (⟨S1600000, .i32⟩ : BufTy).Contents (Elt F)),
    binary main_v1 main_v145 main_v146 (addi : (⟨S1600000, .i32⟩ : BufTy).Contents (Elt F) → (⟨S1600000, .i32⟩ : BufTy).Contents (Elt F) → (⟨S1600000, .i32⟩ : BufTy).Contents (Elt F)) ]

/-- The third graph convolution, from that select to the bias: the result `%178`. -/
abbrev layer3b : List (HloOp τ sig (Elt F)) :=
  [ ternary main_v144 main_v146 main_v1 main_v147 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v147 main_v148 (broadcastInDim S1600000x1 ![0] bcast_S1600000_S1600000x1_0 : (⟨S1600000, .i32⟩ : BufTy).Contents (Elt F) → (⟨S1600000x1, .i32⟩ : BufTy).Contents (Elt F)),
    binary main_v142 main_v148 main_v149 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_31 (constantI S_ 32 0#32),
    unary main_c_31 main_v150 (broadcastInDim S1600000 ![] bcast_S_S1600000 : (⟨S_, .i32⟩ : BufTy).Contents (Elt F) → (⟨S1600000, .i32⟩ : BufTy).Contents (Elt F)),
    binary main_v3 main_v150 main_v151 (cmpi .slt : (⟨S1600000, .i32⟩ : BufTy).Contents (Elt F) → (⟨S1600000, .i32⟩ : BufTy).Contents (Elt F) → (⟨S1600000, .i1⟩ : BufTy).Contents (Elt F)),
    nullary main_c_32 (constantI S_ 32 100000#32),
    unary main_c_32 main_v152 (broadcastInDim S1600000 ![] bcast_S_S1600000 : (⟨S_, .i32⟩ : BufTy).Contents (Elt F) → (⟨S1600000, .i32⟩ : BufTy).Contents (Elt F)),
    binary main_v3 main_v152 main_v153 (addi : (⟨S1600000, .i32⟩ : BufTy).Contents (Elt F) → (⟨S1600000, .i32⟩ : BufTy).Contents (Elt F) → (⟨S1600000, .i32⟩ : BufTy).Contents (Elt F)),
    ternary main_v151 main_v153 main_v3 main_v154 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v154 main_v155 (broadcastInDim S1600000x1 ![0] bcast_S1600000_S1600000x1_0 : (⟨S1600000, .i32⟩ : BufTy).Contents (Elt F) → (⟨S1600000x1, .i32⟩ : BufTy).Contents (Elt F)),
    binary main_v142 main_v155 main_v156 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v149 main_v156 main_v157 (mulf : (⟨S1600000, .f32⟩ : BufTy).Contents (Elt F) → (⟨S1600000, .f32⟩ : BufTy).Contents (Elt F) → (⟨S1600000, .f32⟩ : BufTy).Contents (Elt F)),
    nullary main_c_33 (constantI S_ 32 0#32),
    unary main_c_33 main_v158 (broadcastInDim S1600000 ![] bcast_S_S1600000 : (⟨S_, .i32⟩ : BufTy).Contents (Elt F) → (⟨S1600000, .i32⟩ : BufTy).Contents (Elt F)),
    binary main_v1 main_v158 main_v159 (cmpi .slt : (⟨S1600000, .i32⟩ : BufTy).Contents (Elt F) → (⟨S1600000, .i32⟩ : BufTy).Contents (Elt F) → (⟨S1600000, .i1⟩ : BufTy).Contents (Elt F)),
    nullary main_c_34 (constantI S_ 32 100000#32),
    unary main_c_34 main_v160 (broadcastInDim S1600000 ![] bcast_S_S1600000 : (⟨S_, .i32⟩ : BufTy).Contents (Elt F) → (⟨S1600000, .i32⟩ : BufTy).Contents (Elt F)),
    binary main_v1 main_v160 main_v161 (addi : (⟨S1600000, .i32⟩ : BufTy).Contents (Elt F) → (⟨S1600000, .i32⟩ : BufTy).Contents (Elt F) → (⟨S1600000, .i32⟩ : BufTy).Contents (Elt F)),
    ternary main_v159 main_v161 main_v1 main_v162 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v162 main_v163 (broadcastInDim S1600000x1 ![0] bcast_S1600000_S1600000x1_0 : (⟨S1600000, .i32⟩ : BufTy).Contents (Elt F) → (⟨S1600000x1, .i32⟩ : BufTy).Contents (Elt F)),
    binary main_v135 main_v163 main_v164 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v157 main_v165 (broadcastInDim S1600000x1 ![0] bcast_S1600000_S1600000x1_0 : (⟨S1600000, .f32⟩ : BufTy).Contents (Elt F) → (⟨S1600000x1, .f32⟩ : BufTy).Contents (Elt F)),
    unary main_v165 main_v166 (broadcastInDim S1600000x128 ![0, 1] bcast_S1600000x1_S1600000x128_0_1 : (⟨S1600000x1, .f32⟩ : BufTy).Contents (Elt F) → (⟨S1600000x128, .f32⟩ : BufTy).Contents (Elt F)),
    binary main_v164 main_v166 main_v167 (mulf : (⟨S1600000x128, .f32⟩ : BufTy).Contents (Elt F) → (⟨S1600000x128, .f32⟩ : BufTy).Contents (Elt F) → (⟨S1600000x128, .f32⟩ : BufTy).Contents (Elt F)),
    nullary main_cst_35 (constant S_ .f32 0x00000000#32),
    unary main_cst_35 main_v168 (broadcastInDim S100000x128 ![] bcast_S_S100000x128 : (⟨S_, .f32⟩ : BufTy).Contents (Elt F) → (⟨S100000x128, .f32⟩ : BufTy).Contents (Elt F)),
    unary main_v3 main_v169 (broadcastInDim S1600000x1 ![0] bcast_S1600000_S1600000x1_0 : (⟨S1600000, .i32⟩ : BufTy).Contents (Elt F) → (⟨S1600000x1, .i32⟩ : BufTy).Contents (Elt F)),
    ternary main_v168 main_v169 main_v167 main_v170 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v142 main_v142 main_v171 (mulf : (⟨S100000, .f32⟩ : BufTy).Contents (Elt F) → (⟨S100000, .f32⟩ : BufTy).Contents (Elt F) → (⟨S100000, .f32⟩ : BufTy).Contents (Elt F)),
    unary main_v171 main_v172 (broadcastInDim S100000x1 ![0] bcast_S100000_S100000x1_0 : (⟨S100000, .f32⟩ : BufTy).Contents (Elt F) → (⟨S100000x1, .f32⟩ : BufTy).Contents (Elt F)),
    unary main_v172 main_v173 (broadcastInDim S100000x128 ![0, 1] bcast_S100000x1_S100000x128_0_1 : (⟨S100000x1, .f32⟩ : BufTy).Contents (Elt F) → (⟨S100000x128, .f32⟩ : BufTy).Contents (Elt F)),
    binary main_v135 main_v173 main_v174 (mulf : (⟨S100000x128, .f32⟩ : BufTy).Contents (Elt F) → (⟨S100000x128, .f32⟩ : BufTy).Contents (Elt F) → (⟨S100000x128, .f32⟩ : BufTy).Contents (Elt F)),
    binary main_v170 main_v174 main_v175 (addf : (⟨S100000x128, .f32⟩ : BufTy).Contents (Elt F) → (⟨S100000x128, .f32⟩ : BufTy).Contents (Elt F) → (⟨S100000x128, .f32⟩ : BufTy).Contents (Elt F)),
    unary main_arg11 main_v176 (broadcastInDim S1x128 ![1] bcast_S128_S1x128_1 : (⟨S128, .f32⟩ : BufTy).Contents (Elt F) → (⟨S1x128, .f32⟩ : BufTy).Contents (Elt F)),
    unary main_v176 main_v177 (broadcastInDim S100000x128 ![0, 1] bcast_S1x128_S100000x128_0_1 : (⟨S1x128, .f32⟩ : BufTy).Contents (Elt F) → (⟨S100000x128, .f32⟩ : BufTy).Contents (Elt F)),
    binary main_v175 main_v177 main_v178 (addf : (⟨S100000x128, .f32⟩ : BufTy).Contents (Elt F) → (⟨S100000x128, .f32⟩ : BufTy).Contents (Elt F) → (⟨S100000x128, .f32⟩ : BufTy).Contents (Elt F)) ]

/-- The first normalisation with the zero its column sum starts from. -/
abbrev bn1 : List (HloOp τ sig (Elt F)) := bn1a ++ bn1b
/-- The second graph convolution (`%69` … `%113`). -/
abbrev layer2 : List (HloOp τ sig (Elt F)) := layer2a ++ layer2b
/-- The third graph convolution (`%134` … `%178`). -/
abbrev layer3 : List (HloOp τ sig (Elt F)) := layer3a ++ layer3b

/-- The program's 263 operations in order, every call replaced by its callee's operations. -/
abbrev ops : List (HloOp τ sig (Elt F)) := edges ++ (layer1 ++ (bn1 ++ (layer2 ++ (bn2 ++ layer3))))

/-! ## The program is that line -/

set_option maxRecDepth 8192 in
set_option maxHeartbeats 4000000 in
/-- The first sixty statements are the edge rows, the first convolution and the zero after it. -/
theorem main_part0_eq (c : Dev nD) : main_part0 (F := F) c = seq (edges ++ (layer1 ++ bn1a)) := rfl

set_option maxRecDepth 8192 in
set_option maxHeartbeats 4000000 in
/-- The next sixty: the first normalisation (its two calls unfolded) and the head of the second convolution. -/
theorem main_part1_eq (c : Dev nD) : main_part1 (F := F) c = seq (bn1b ++ layer2a) := rfl

set_option maxRecDepth 8192 in
set_option maxHeartbeats 4000000 in
/-- The next sixty: the rest of the second convolution, the second normalisation, the head of the third convolution. -/
theorem main_part2_eq (c : Dev nD) : main_part2 (F := F) c = seq (layer2b ++ (bn2 ++ layer3a)) := rfl

set_option maxRecDepth 8192 in
set_option maxHeartbeats 4000000 in
/-- The last thirty-seven: the rest of the third convolution. -/
theorem main_part3_eq (c : Dev nD) : main_part3 (F := F) c = seq layer3b := rfl

/-- The whole program is the line: its four parts in turn are the stretches in turn, sequencing reassociated. -/
theorem main_eq (c : Dev nD) : main (F := F) c = seq ops := by
  simp only [main, main_part0_eq, main_part1_eq, main_part2_eq, main_part3_eq, ops, bn1, layer2, layer3,
    List.append_assoc, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-! ## Every operation touches the core's own buffers only, allocates nothing, and writes one known buffer -/

set_option maxRecDepth 8192 in
theorem edges_sub : (edges : List (HloOp τ sig (Elt F))).Forall fun op => op.bufs ⊆ tcRefs τ sig :=
  ⟨unary_bufs_sub .., reshape_bufs_sub .., unary_bufs_sub .., reshape_bufs_sub ..⟩
set_option maxRecDepth 8192 in
theorem edges_fresh : ∀ op ∈ (edges : List (HloOp τ sig (Elt F))), op.fresh = ∅ := by
  intro _ h; (repeat (cases h with | head => rfl | tail _ h => ?_)); exact nomatch h
/-- The buffers `edges` writes, in order. -/
abbrev edges_W : List (Ref sig .tc) := [main_v0, main_v1, main_v2, main_v3]
set_option maxRecDepth 8192 in
theorem edges_writes : (edges : List (HloOp τ sig (Elt F))).Forall fun op =>
    op.writes ⊆ (edges_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `edges` does not write keeps its contents through it. -/
theorem edges_keep (V : Valuation τ sig (Elt F)) (r : Ref sig .tc) (h : r ∉ edges_W) :
    after edges V (Proc.devRef .tc r) = V (Proc.devRef .tc r) :=
  after_of_writes_sub edges V edges_writes h

set_option maxRecDepth 8192 in
theorem layer1_sub : (layer1 : List (HloOp τ sig (Elt F))).Forall fun op => op.bufs ⊆ tcRefs τ sig :=
  ⟨unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩
set_option maxRecDepth 8192 in
theorem layer1_fresh : ∀ op ∈ (layer1 : List (HloOp τ sig (Elt F))), op.fresh = ∅ := by
  intro _ h; (repeat (cases h with | head => rfl | tail _ h => ?_)); exact nomatch h
/-- The buffers `layer1` writes, in order. -/
abbrev layer1_W : List (Ref sig .tc) := [main_v4, main_v5, main_cst, main_v6, main_cst_0, main_v7, main_v8, main_v9, main_cst_1, main_v10, main_v11, main_v12, main_c, main_v13, main_v14, main_c_2, main_v15, main_v16, main_v17, main_v18, main_v19, main_c_3, main_v20, main_v21, main_c_4, main_v22, main_v23, main_v24, main_v25, main_v26, main_v27, main_c_5, main_v28, main_v29, main_c_6, main_v30, main_v31, main_v32, main_v33, main_v34, main_v35, main_v36, main_v37, main_cst_7, main_v38, main_v39, main_v40, main_v41, main_v42, main_v43, main_v44, main_v45, main_v46, main_v47, main_v48]
set_option maxRecDepth 8192 in
theorem layer1_writes : (layer1 : List (HloOp τ sig (Elt F))).Forall fun op =>
    op.writes ⊆ (layer1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `layer1` does not write keeps its contents through it. -/
theorem layer1_keep (V : Valuation τ sig (Elt F)) (r : Ref sig .tc) (h : r ∉ layer1_W) :
    after layer1 V (Proc.devRef .tc r) = V (Proc.devRef .tc r) :=
  after_of_writes_sub layer1 V layer1_writes h

set_option maxRecDepth 8192 in
theorem bn1a_sub : (bn1a : List (HloOp τ sig (Elt F))).Forall fun op => op.bufs ⊆ tcRefs τ sig :=
  nullary_bufs_sub ..
set_option maxRecDepth 8192 in
theorem bn1a_fresh : ∀ op ∈ (bn1a : List (HloOp τ sig (Elt F))), op.fresh = ∅ := by
  intro _ h; (repeat (cases h with | head => rfl | tail _ h => ?_)); exact nomatch h
/-- The buffers `bn1a` writes, in order. -/
abbrev bn1a_W : List (Ref sig .tc) := [main_cst_8]
set_option maxRecDepth 8192 in
theorem bn1a_writes : (bn1a : List (HloOp τ sig (Elt F))).Forall fun op =>
    op.writes ⊆ (bn1a_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))
/-- A buffer `bn1a` does not write keeps its contents through it. -/
theorem bn1a_keep (V : Valuation τ sig (Elt F)) (r : Ref sig .tc) (h : r ∉ bn1a_W) :
    after bn1a V (Proc.devRef .tc r) = V (Proc.devRef .tc r) :=
  after_of_writes_sub bn1a V bn1a_writes h

set_option maxRecDepth 8192 in
theorem bn1b_sub : (bn1b : List (HloOp τ sig (Elt F))).Forall fun op => op.bufs ⊆ tcRefs τ sig :=
  ⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem bn1b_fresh : ∀ op ∈ (bn1b : List (HloOp τ sig (Elt F))), op.fresh = ∅ := by
  intro _ h; (repeat (cases h with | head => rfl | tail _ h => ?_)); exact nomatch h
/-- The buffers `bn1b` writes, in order. -/
abbrev bn1b_W : List (Ref sig .tc) := [main_v49, main_cst_9, main_v50, main_v51, main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v52, main_v53, main_v54, main_v55, main_cst_11, main_v56, main_v57, main_v58, main_v59, main_v60, main_v61, main_v62, main_v63, main_v64, main_v65, main_v66, main_v67, main_call1_cst, main_call1_v0, main_v68]
set_option maxRecDepth 8192 in
theorem bn1b_writes : (bn1b : List (HloOp τ sig (Elt F))).Forall fun op =>
    op.writes ⊆ (bn1b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `bn1b` does not write keeps its contents through it. -/
theorem bn1b_keep (V : Valuation τ sig (Elt F)) (r : Ref sig .tc) (h : r ∉ bn1b_W) :
    after bn1b V (Proc.devRef .tc r) = V (Proc.devRef .tc r) :=
  after_of_writes_sub bn1b V bn1b_writes h

set_option maxRecDepth 8192 in
theorem layer2a_sub : (layer2a : List (HloOp τ sig (Elt F))).Forall fun op => op.bufs ⊆ tcRefs τ sig :=
  ⟨unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub ..⟩
set_option maxRecDepth 8192 in
theorem layer2a_fresh : ∀ op ∈ (layer2a : List (HloOp τ sig (Elt F))), op.fresh = ∅ := by
  intro _ h; (repeat (cases h with | head => rfl | tail _ h => ?_)); exact nomatch h
/-- The buffers `layer2a` writes, in order. -/
abbrev layer2a_W : List (Ref sig .tc) := [main_v69, main_v70, main_cst_12, main_v71, main_cst_13, main_v72, main_v73, main_v74, main_cst_14, main_v75, main_v76, main_v77, main_c_15, main_v78, main_v79, main_c_16, main_v80, main_v81, main_v82, main_v83, main_v84, main_c_17, main_v85, main_v86, main_c_18, main_v87, main_v88, main_v89, main_v90, main_v91, main_v92, main_c_19, main_v93, main_v94, main_c_20, main_v95, main_v96]
set_option maxRecDepth 8192 in
theorem layer2a_writes : (layer2a : List (HloOp τ sig (Elt F))).Forall fun op =>
    op.writes ⊆ (layer2a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `layer2a` does not write keeps its contents through it. -/
theorem layer2a_keep (V : Valuation τ sig (Elt F)) (r : Ref sig .tc) (h : r ∉ layer2a_W) :
    after layer2a V (Proc.devRef .tc r) = V (Proc.devRef .tc r) :=
  after_of_writes_sub layer2a V layer2a_writes h

set_option maxRecDepth 8192 in
theorem layer2b_sub : (layer2b : List (HloOp τ sig (Elt F))).Forall fun op => op.bufs ⊆ tcRefs τ sig :=
  ⟨ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩
set_option maxRecDepth 8192 in
theorem layer2b_fresh : ∀ op ∈ (layer2b : List (HloOp τ sig (Elt F))), op.fresh = ∅ := by
  intro _ h; (repeat (cases h with | head => rfl | tail _ h => ?_)); exact nomatch h
/-- The buffers `layer2b` writes, in order. -/
abbrev layer2b_W : List (Ref sig .tc) := [main_v97, main_v98, main_v99, main_v100, main_v101, main_v102, main_cst_21, main_v103, main_v104, main_v105, main_v106, main_v107, main_v108, main_v109, main_v110, main_v111, main_v112, main_v113]
set_option maxRecDepth 8192 in
theorem layer2b_writes : (layer2b : List (HloOp τ sig (Elt F))).Forall fun op =>
    op.writes ⊆ (layer2b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `layer2b` does not write keeps its contents through it. -/
theorem layer2b_keep (V : Valuation τ sig (Elt F)) (r : Ref sig .tc) (h : r ∉ layer2b_W) :
    after layer2b V (Proc.devRef .tc r) = V (Proc.devRef .tc r) :=
  after_of_writes_sub layer2b V layer2b_writes h

set_option maxRecDepth 8192 in
theorem bn2_sub : (bn2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem bn2_fresh : ∀ op ∈ (bn2 : List (HloOp τ sig (Elt F))), op.fresh = ∅ := by
  intro _ h; (repeat (cases h with | head => rfl | tail _ h => ?_)); exact nomatch h
/-- The buffers `bn2` writes, in order. -/
abbrev bn2_W : List (Ref sig .tc) := [main_cst_22, main_v114, main_cst_23, main_v115, main_v116, main_c_24, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v117, main_v118, main_v119, main_v120, main_cst_25, main_v121, main_v122, main_v123, main_v124, main_v125, main_v126, main_v127, main_v128, main_v129, main_v130, main_v131, main_v132, main_call3_cst, main_call3_v0, main_v133]
set_option maxRecDepth 8192 in
theorem bn2_writes : (bn2 : List (HloOp τ sig (Elt F))).Forall fun op =>
    op.writes ⊆ (bn2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `bn2` does not write keeps its contents through it. -/
theorem bn2_keep (V : Valuation τ sig (Elt F)) (r : Ref sig .tc) (h : r ∉ bn2_W) :
    after bn2 V (Proc.devRef .tc r) = V (Proc.devRef .tc r) :=
  after_of_writes_sub bn2 V bn2_writes h

set_option maxRecDepth 8192 in
theorem layer3a_sub : (layer3a : List (HloOp τ sig (Elt F))).Forall fun op => op.bufs ⊆ tcRefs τ sig :=
  ⟨unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub ..⟩
set_option maxRecDepth 8192 in
theorem layer3a_fresh : ∀ op ∈ (layer3a : List (HloOp τ sig (Elt F))), op.fresh = ∅ := by
  intro _ h; (repeat (cases h with | head => rfl | tail _ h => ?_)); exact nomatch h
/-- The buffers `layer3a` writes, in order. -/
abbrev layer3a_W : List (Ref sig .tc) := [main_v134, main_v135, main_cst_26, main_v136, main_cst_27, main_v137, main_v138, main_v139, main_cst_28, main_v140, main_v141, main_v142, main_c_29, main_v143, main_v144, main_c_30, main_v145, main_v146]
set_option maxRecDepth 8192 in
theorem layer3a_writes : (layer3a : List (HloOp τ sig (Elt F))).Forall fun op =>
    op.writes ⊆ (layer3a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `layer3a` does not write keeps its contents through it. -/
theorem layer3a_keep (V : Valuation τ sig (Elt F)) (r : Ref sig .tc) (h : r ∉ layer3a_W) :
    after layer3a V (Proc.devRef .tc r) = V (Proc.devRef .tc r) :=
  after_of_writes_sub layer3a V layer3a_writes h

set_option maxRecDepth 8192 in
theorem layer3b_sub : (layer3b : List (HloOp τ sig (Elt F))).Forall fun op => op.bufs ⊆ tcRefs τ sig :=
  ⟨ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩
set_option maxRecDepth 8192 in
theorem layer3b_fresh : ∀ op ∈ (layer3b : List (HloOp τ sig (Elt F))), op.fresh = ∅ := by
  intro _ h; (repeat (cases h with | head => rfl | tail _ h => ?_)); exact nomatch h
/-- The buffers `layer3b` writes, in order. -/
abbrev layer3b_W : List (Ref sig .tc) := [main_v147, main_v148, main_v149, main_c_31, main_v150, main_v151, main_c_32, main_v152, main_v153, main_v154, main_v155, main_v156, main_v157, main_c_33, main_v158, main_v159, main_c_34, main_v160, main_v161, main_v162, main_v163, main_v164, main_v165, main_v166, main_v167, main_cst_35, main_v168, main_v169, main_v170, main_v171, main_v172, main_v173, main_v174, main_v175, main_v176, main_v177, main_v178]
set_option maxRecDepth 8192 in
theorem layer3b_writes : (layer3b : List (HloOp τ sig (Elt F))).Forall fun op =>
    op.writes ⊆ (layer3b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `layer3b` does not write keeps its contents through it. -/
theorem layer3b_keep (V : Valuation τ sig (Elt F)) (r : Ref sig .tc) (h : r ∉ layer3b_W) :
    after layer3b V (Proc.devRef .tc r) = V (Proc.devRef .tc r) :=
  after_of_writes_sub layer3b V layer3b_writes h

theorem ops_sub : (ops : List (HloOp τ sig (Elt F))).Forall fun op => op.bufs ⊆ tcRefs τ sig :=
  List.forall_iff_forall_mem.mpr fun op h => by
    simp only [ops, bn1, layer2, layer3, List.mem_append, or_assoc] at h
    rcases h with h | h | h | h | h | h | h | h | h
    exacts [List.forall_iff_forall_mem.mp edges_sub op h, List.forall_iff_forall_mem.mp layer1_sub op h, List.forall_iff_forall_mem.mp bn1a_sub op h, List.forall_iff_forall_mem.mp bn1b_sub op h, List.forall_iff_forall_mem.mp layer2a_sub op h, List.forall_iff_forall_mem.mp layer2b_sub op h, List.forall_iff_forall_mem.mp bn2_sub op h, List.forall_iff_forall_mem.mp layer3a_sub op h, List.forall_iff_forall_mem.mp layer3b_sub op h]

theorem ops_fresh : ∀ op ∈ (ops : List (HloOp τ sig (Elt F))), op.fresh = ∅ := by
  intro op h
  simp only [ops, bn1, layer2, layer3, List.mem_append, or_assoc] at h
  rcases h with h | h | h | h | h | h | h | h | h
  exacts [edges_fresh op h, layer1_fresh op h, bn1a_fresh op h, bn1b_fresh op h, layer2a_fresh op h, layer2b_fresh op h, bn2_fresh op h, layer3a_fresh op h, layer3b_fresh op h]

/-- The line's fold is the stretches' folds in turn. -/
theorem after_ops (V : Valuation τ sig (Elt F)) :
    after ops V = after layer3b (after layer3a (after bn2 (after layer2b (after layer2a (after bn1b (after bn1a
      (after layer1 (after edges V)))))))) := by
  simp only [ops, bn1, layer2, layer3, after_append]

/-- The same over the five named stretches after the edge rows. -/
theorem after_ops' (V : Valuation τ sig (Elt F)) :
    after ops V = after layer3 (after bn2 (after layer2 (after bn1 (after layer1 (after edges V))))) := by
  simp only [ops, after_append]

/-- The buffers the whole line writes. -/
abbrev ops_W : List (Ref sig .tc) :=
  edges_W ++ (layer1_W ++ (bn1a_W ++ (bn1b_W ++ (layer2a_W ++ (layer2b_W ++ (bn2_W ++ (layer3a_W ++ (layer3b_W))))))))

/-- A buffer the line never writes — each of the twelve arguments — keeps its launch contents to the end. -/
theorem ops_keep (V : Valuation τ sig (Elt F)) (r : Ref sig .tc) (h : r ∉ ops_W) :
    after ops V (Proc.devRef .tc r) = V (Proc.devRef .tc r) := by
  simp only [ops_W, List.mem_append, not_or] at h
  obtain ⟨h0, h1, h2, h3, h4, h5, h6, h7, h8⟩ := h
  rw [after_ops, layer3b_keep _ r h8, layer3a_keep _ r h7, bn2_keep _ r h6, layer2b_keep _ r h5, layer2a_keep _ r h4, bn1b_keep _ r h3, bn1a_keep _ r h2, layer1_keep _ r h1, edges_keep _ r h0]

/-! ## The run -/

/-- On every device, for any float values, from any memory with zero counters: every weakly fair execution of the
    program terminates with the result buffer at the line's fold over the launch contents and the twelve arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v178) = after ops (launchContents m c) (Proc.devRef .tc main_v178)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v178,
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide))⟩)
    (run_seq scopedRefs_eq scopedSems_eq defs main (fun _ => ops) main_eq (fun _ => ops_sub) m ρ (fun _ => ops_fresh))

/-- Every buffer after the run, not only the result: the line's fold at that buffer. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.BnLaw.lean ====
/-
  Real-valued arrays inside the extended reals, and the law that joins the two ways of computing a variance.

  An array of extended reals is REAL when every entry is (the image of) a real number. Sums, products, differences,
  quotients by a non-zero real, maxima and the inverse square root of a positive real keep arrays real, so the
  network's intermediate arrays are real when its inputs are. For real data the mean of the squared deviations from
  the mean is the mean of the squares minus the squared mean; on the extended reals this needs the data real
  (at an infinity the two sides differ).
-/
import Idealize.ShloMosaic.PureOps.Ideal
import Idealize.ShloMosaic.PureOps.Ideal.Laws

noncomputable section

open scoped BigOperators

namespace Cert.Gcn.Law

open Idealize.ShloMosaic

/-- Every entry is a real number. -/
def IsReal {ι : Type} (v : ι → EReal) : Prop := ∀ i, ∃ r : ℝ, v i = (r : EReal)

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem exists_real_sum {ι : Type} (s : Finset ι) (v : ι → EReal) (h : ∀ i ∈ s, ∃ r : ℝ, v i = (r : EReal)) :
    ∃ r : ℝ, ∑ i ∈ s, v i = (r : EReal) := by
  classical
  induction s using Finset.induction_on with
  | empty => exact ⟨0, by simp⟩
  | insert a s ha ih =>
    obtain ⟨r, hr⟩ := ih (fun i hi => h i (Finset.mem_insert_of_mem hi))
    obtain ⟨q, hq⟩ := h a (Finset.mem_insert_self _ _)
    exact ⟨q + r, by rw [Finset.sum_insert ha, hq, hr, EReal.coe_add]⟩

/-- A finite sum of non-negative reals is a non-negative real. -/
theorem exists_nonneg_sum {ι : Type} (s : Finset ι) (v : ι → EReal) (h : ∀ i ∈ s, ∃ r : ℝ, 0 ≤ r ∧ v i = (r : EReal)) :
    ∃ r : ℝ, 0 ≤ r ∧ ∑ i ∈ s, v i = (r : EReal) := by
  classical
  induction s using Finset.induction_on with
  | empty => exact ⟨0, le_refl _, by simp⟩
  | insert a s ha ih =>
    obtain ⟨r, hr0, hr⟩ := ih (fun i hi => h i (Finset.mem_insert_of_mem hi))
    obtain ⟨q, hq0, hq⟩ := h a (Finset.mem_insert_self _ _)
    exact ⟨q + r, add_nonneg hq0 hr0, by rw [Finset.sum_insert ha, hq, hr, EReal.coe_add]⟩

/-- The quotient of two reals, the divisor not zero, is the real quotient. -/
theorem div_real (x y : ℝ) (hy : y ≠ 0) : Ideal.div (x : EReal) (y : EReal) = ((x / y : ℝ) : EReal) := by
  rw [Ideal.div_coe hy, ← EReal.coe_mul]; congr 1; ring

/-- The inverse square root of a positive real is the real one. -/
theorem rsqrt_real (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.2 hx.le), if_neg hx.ne']

/-- The number of nodes as a float denotes the real 100000. -/
theorem ofBits_nodes : Ideal.ofBits .f32 0x47C35000#32 = ((100000 : ℝ) : EReal) := by
  simp [Ideal.ofBits, Ideal.ieee, -EReal.coe_mul]; norm_num

/-- The float one denotes 1. -/
theorem ofBits_one : Ideal.ofBits .f32 0x3F800000#32 = ((1 : ℝ) : EReal) := by
  simp [Ideal.ofBits, Ideal.ieee, -EReal.coe_mul]; norm_num

/-- The variance guard denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-- Mean of squared deviations = mean of squares − squared mean, over the reals. -/
theorem var_law {ι : Type} [Fintype ι] (f : ι → ℝ) (N : ℝ) (hN : N ≠ 0) (hc : (Fintype.card ι : ℝ) = N) :
    (∑ i, (f i - (∑ i, f i) / N) * (f i - (∑ i, f i) / N)) / N
      = (∑ i, f i * f i) / N - ((∑ i, f i) / N) * ((∑ i, f i) / N) := by
  have e : ∀ i, (f i - (∑ i, f i) / N) * (f i - (∑ i, f i) / N)
      = f i * f i - 2 * ((∑ i, f i) / N) * f i + ((∑ i, f i) / N) * ((∑ i, f i) / N) := fun i => by ring
  simp only [e, Finset.sum_add_distrib, Finset.sum_sub_distrib, ← Finset.mul_sum, Finset.sum_const, Finset.card_univ,
    nsmul_eq_mul, hc]
  field_simp
  ring

/-- A sum of squares of reals is not negative. -/
theorem sq_sum_nonneg {ι : Type} [Fintype ι] (f : ι → ℝ) (μ : ℝ) : 0 ≤ ∑ i, (f i - μ) * (f i - μ) :=
  Finset.sum_nonneg fun i _ => mul_self_nonneg _

end Cert.Gcn.Law

end
-- ==== Proof.RealNet.lean ====
/-
  The network keeps real-valued arrays real. With real features, weights and bias a layer's output is real:
  the matrix product is a finite sum of products; every node's degree count is a non-negative real, so the degree
  plus one is positive and its inverse square root is real; gathers and broadcasts only re-index; the neighbourhood
  sum adds finitely many real updates to zero.
-/
import proofs.«173880_j87316685127958_1_alg».proof.Proof.Layer
import proofs.«173880_j87316685127958_1_alg».proof.Proof.BnLaw
import Idealize.ShloMosaic.Lib.ValueIdx

noncomputable section

open scoped BigOperators

namespace Cert.KernelIdeal.Layer

open Idealize.ShloMosaic Idealize.ShloMosaic.ValueIdx Cert.Gcn.Law Cert.KernelIdeal

variable [Facts₀]
open Facts₀

section Closure
variable {s : Shape}

theorem real_addf {a b : FVec Ideal s .f32} (ha : IsReal a) (hb : IsReal b) : IsReal (addf a b) := fun i => by
  obtain ⟨r, hr⟩ := ha i; obtain ⟨q, hq⟩ := hb i
  exact ⟨r + q, by rw [addf_apply, hr, hq, EReal.coe_add]⟩

theorem real_mulf {a b : FVec Ideal s .f32} (ha : IsReal a) (hb : IsReal b) : IsReal (mulf a b) := fun i => by
  obtain ⟨r, hr⟩ := ha i; obtain ⟨q, hq⟩ := hb i
  exact ⟨r * q, by rw [mulf_apply, hr, hq, EReal.coe_mul]⟩

/-- Adding real updates into a real array leaves it real. -/
theorem real_scatterAdd {s si su : Shape} (d : ScatterDims s si su) {w : Nat} (x : FVec Ideal s .f32) (idx : IVec si w)
    (upd : FVec Ideal su .f32) (hx : IsReal x) (hu : IsReal upd) : IsReal (Host.scatterAdd d x idx upd) := fun i => by
  obtain ⟨r, hr⟩ := hx i
  obtain ⟨q, hq⟩ := exists_real_sum (Finset.univ.filter fun j => d.resultIdx? j idx = some i) upd (fun j _ => hu j)
  refine ⟨r + q, ?_⟩
  show Ideal.hostScatterAdd d x idx upd i = _
  unfold Ideal.hostScatterAdd
  rw [hr, hq, EReal.coe_add]

/-- A broadcast of a real array is real: it only re-indexes. -/
theorem real_bcast {s t : Shape} (dims : Fin s.rank → Fin t.rank) (h : s.BroadcastsInDim t dims) {x : FVec Ideal s .f32}
    (hx : IsReal x) : IsReal (broadcastInDim t dims h x) := fun _ => hx _

/-- A gather from a real array is real: it only re-indexes. -/
theorem real_gather {s si t : Shape} {w : Nat} (d : GatherDims s si t) {x : FVec Ideal s .f32} (idx : IVec si w)
    (hx : IsReal x) : IsReal (Host.gather d x idx) := fun _ => hx _

theorem hostRsqrt_apply {s : Shape} (x : FVec Ideal s .f32) (i : s.Idx) : Host.rsqrt x i = Ideal.rsqrt (x i) := rfl

theorem scatterAdd_apply {s si su : Shape} (d : ScatterDims s si su) {w : Nat} (x : FVec Ideal s .f32) (idx : IVec si w)
    (upd : FVec Ideal su .f32) (i : s.Idx) :
    Host.scatterAdd d x idx upd i = x i + ∑ j ∈ Finset.univ.filter (fun j => d.resultIdx? j idx = some i), upd j := rfl

theorem splat_apply {t : Shape} (h : S_.BroadcastsInDim t (![] : Fin 0 → Fin t.rank)) (b : BitVec 32) (i : t.Idx) :
    broadcastInDim t ![] h (constant (F := Ideal) S_ .f32 b) i = Ideal.ofBits .f32 b := rfl

end Closure

/-- The all-zero array is real. -/
theorem real_zeros {t : Shape} (h : S_.BroadcastsInDim t (![] : Fin 0 → Fin t.rank)) :
    IsReal (broadcastInDim t ![] h (constant (F := Ideal) S_ .f32 0x00000000#32)) := fun _ =>
  ⟨0, by show Ideal.ofBits .f32 0x00000000#32 = _; rw [Ideal.ofBits_zero_f32]; rfl⟩

/-- The inverse square roots of the degrees are real. -/
theorem real_dinv (dst : IVec S1600000 32) : IsReal (dinvOf dst) := fun i => by
  obtain ⟨q, hq0, hq⟩ := exists_nonneg_sum
    (Finset.univ.filter fun j => scatter_S100000_S1600000x1_S1600000_n_0_0_1.resultIdx? j
      (broadcastInDim S1600000x1 ![0] bcast_S1600000_S1600000x1_0 dst) = some i)
    (broadcastInDim S1600000 ![] bcast_S_S1600000 (constant (F := Ideal) S_ .f32 0x3F800000#32))
    (fun j _ => ⟨1, zero_le_one, ofBits_one⟩)
  refine ⟨(Real.sqrt (0 + q + 1))⁻¹, ?_⟩
  unfold dinvOf
  rw [hostRsqrt_apply, addf_apply, scatterAdd_apply, hq, splat_apply, splat_apply, ofBits_one, Ideal.ofBits_zero_f32,
    ← EReal.coe_zero, ← EReal.coe_add, ← EReal.coe_add, rsqrt_real _ (by positivity)]

/-- A transposed real matrix is real. -/
theorem real_tr {w : FVec Ideal S128x128 .f32} (hw : IsReal w) : IsReal (tr w) := fun _ => hw _

/-- The product of real matrices is real. -/
theorem real_lin {x : FVec Ideal S100000x128 .f32} {wt : FVec Ideal S128x128 .f32} (hx : IsReal x) (hw : IsReal wt) :
    IsReal (Cert.Gcn.lin x wt) := fun i =>
  exists_real_sum Finset.univ (fun k : Fin 128 => x (ix2 (i 0) k) * wt (ix2 k (i 1))) fun k _ => by
    obtain ⟨r, hr⟩ := hx (ix2 (i 0) k); obtain ⟨q, hq⟩ := hw (ix2 k (i 1))
    exact ⟨r * q, by rw [hr, hq, EReal.coe_mul]⟩

/-- The neighbourhood sum of a real array with a real bias is real. -/
theorem real_convTail {h : FVec Ideal S100000x128 .f32} (src dst : IVec S1600000 32) {b : FVec Ideal S128 .f32}
    (hh : IsReal h) (hb : IsReal b) : IsReal (convTail h src dst b) := by
  have hd := real_dinv dst
  unfold convTail
  exact real_addf
    (real_addf
      (real_scatterAdd _ _ _ _ (real_zeros _)
        (real_mulf (real_gather _ _ hh)
          (real_bcast _ _ (real_bcast _ _ (real_mulf (real_gather _ _ hd) (real_gather _ _ hd))))))
      (real_mulf hh (real_bcast _ _ (real_bcast _ _ (real_mulf hd hd)))))
    (real_bcast _ _ (real_bcast _ _ hb))

/-- A layer of real arrays is real. -/
theorem real_layer {x : FVec Ideal S100000x128 .f32} (e : IVec S2x1600000 32) {w : FVec Ideal S128x128 .f32} {b : FVec Ideal S128 .f32}
    (hx : IsReal x) (hw : IsReal w) (hb : IsReal b) : IsReal (layer x e w b) :=
  real_convTail _ _ (real_lin hx (real_tr hw)) hb

end Cert.KernelIdeal.Layer

end
-- ==== Proof.BnReal.lean ====
/-
  The normalisation on real data, in closed form over the reals.

  For a real feature matrix h with entries f(r, j): the channel sum and sum of squares are the real sums; the mean
  row is μ_j = (∑_r f(r,j)) / 100000; the variance row ss/N − μ² equals the mean of the squared deviations
  (∑_r (f(r,j) − μ_j)²) / 100000, which is not negative; with the positive guard added its inverse square root is real.
  So the normalised, scaled, shifted and rectified array is real when the scale and the shift are.
-/
import proofs.«173880_j87316685127958_1_alg».proof.Proof.RealNet
import Idealize.ShloMosaic.Lib.ValueLayout

noncomputable section

open scoped BigOperators

namespace Cert.KernelIdeal.Layer

open Idealize.ShloMosaic Idealize.ShloMosaic.ValueIdx Cert.Gcn.Law Cert.KernelIdeal

variable [Facts₀]
open Facts₀

theorem meanRow_apply (s : FVec Ideal S1x128 .f32) (i : S1x128.Idx) :
    meanRow s i = Ideal.div (s i) (Ideal.ofBits .f32 0x47C35000#32) := rfl

theorem varRow_apply (s ss : FVec Ideal S1x128 .f32) (i : S1x128.Idx) :
    varRow s ss i = Ideal.div (ss i) (Ideal.ofBits .f32 0x47C35000#32)
      - Ideal.div (s i) (Ideal.ofBits .f32 0x47C35000#32) * Ideal.div (s i) (Ideal.ofBits .f32 0x47C35000#32) := rfl

/-- A channel vector held as a row reads the vector at the column. -/
theorem rowOf_apply (g : FVec Ideal S128 .f32) (j : Fin 128) : rowOf g (ix2 (0 : Fin 1) j) = g (ix1 j) :=
  shapeCast_a_1a_apply g shapeCasts_S128_S1x128 0 j

/-- Channel j's real sum. -/
def rsum (f : S100000x128.Idx → ℝ) (j : Fin 128) : ℝ := ∑ r : Fin 100000, f (ix2 r j)
/-- Channel j's real sum of squares. -/
def rsq (f : S100000x128.Idx → ℝ) (j : Fin 128) : ℝ := ∑ r : Fin 100000, f (ix2 r j) * f (ix2 r j)
/-- Channel j's real mean. -/
def rmean (f : S100000x128.Idx → ℝ) (j : Fin 128) : ℝ := rsum f j / 100000
/-- Channel j's real variance, as the mean of the squared deviations. -/
def rvar (f : S100000x128.Idx → ℝ) (j : Fin 128) : ℝ :=
  (∑ r : Fin 100000, (f (ix2 r j) - rmean f j) * (f (ix2 r j) - rmean f j)) / 100000

theorem rvar_nonneg (f : S100000x128.Idx → ℝ) (j : Fin 128) : 0 ≤ rvar f j :=
  div_nonneg (Finset.sum_nonneg fun _ _ => mul_self_nonneg _) (by norm_num)

/-- Mean of squared deviations = mean of squares − squared mean. -/
theorem rvar_eq (f : S100000x128.Idx → ℝ) (j : Fin 128) : rvar f j = rsq f j / 100000 - rmean f j * rmean f j :=
  var_law (fun r : Fin 100000 => f (ix2 r j)) 100000 (by norm_num) (by simp)

section Real
variable {h : FVec Ideal S100000x128 .f32} {f : S100000x128.Idx → ℝ} (hf : ∀ i, h i = (f i : EReal))
include hf

theorem colSum_real (j : Fin 128) : Cert.Gcn.colSumAt h j = (rsum f j : EReal) := by
  unfold Cert.Gcn.colSumAt rsum
  rw [coe_sum]
  exact Finset.sum_congr rfl fun r _ => hf _

theorem colSqSum_real (j : Fin 128) : Cert.Gcn.colSqSumAt h j = (rsq f j : EReal) := by
  unfold Cert.Gcn.colSqSumAt rsq
  rw [coe_sum]
  exact Finset.sum_congr rfl fun r _ => by rw [hf, EReal.coe_mul]

theorem mean_real (j : Fin 128) : meanRow (Cert.Gcn.colSum h) (ix2 (0 : Fin 1) j) = (rmean f j : EReal) := by
  rw [meanRow_apply, Cert.Gcn.colSum_apply, colSum_real hf, ofBits_nodes, div_real _ _ (by norm_num)]
  rfl

theorem var_real (j : Fin 128) :
    varRow (Cert.Gcn.colSum h) (Cert.Gcn.colSqSum h) (ix2 (0 : Fin 1) j) = (rvar f j : EReal) := by
  rw [varRow_apply, Cert.Gcn.colSum_apply, Cert.Gcn.colSqSum_apply, colSum_real hf, colSqSum_real hf, ofBits_nodes,
    div_real _ _ (by norm_num), div_real _ _ (by norm_num), ← EReal.coe_mul, ← EReal.coe_sub, rvar_eq]
  rfl

end Real

/-- An entry of the normalisation of real data, as a real number. -/
theorem bnK_entry {h : FVec Ideal S100000x128 .f32} {g beta : FVec Ideal S128 .f32} {f : S100000x128.Idx → ℝ}
    {gr br : S128.Idx → ℝ} (hf : ∀ i, h i = (f i : EReal)) (hg : ∀ i, g i = (gr i : EReal)) (hb : ∀ i, beta i = (br i : EReal))
    {e : ℝ} (he0 : 0 < e) (he : Ideal.ofBits .f32 0x3727C5AC#32 = (e : EReal)) (a : Fin 100000) (b : Fin 128) :
    bnK h g beta (ix2 a b)
      = ((max ((f (ix2 a b) - rmean f b) * (Real.sqrt (rvar f b + e))⁻¹ * gr (ix1 b) + br (ix1 b)) 0 : ℝ) : EReal) := by
  show Cert.Gcn.bnAt h _ _ _ _ a b = _
  unfold Cert.Gcn.bnAt Cert.Gcn.eps
  rw [mean_real hf, var_real hf, rowOf_apply, rowOf_apply, hg, hb, hf, he, ← EReal.coe_add,
    rsqrt_real _ (add_pos_of_nonneg_of_pos (rvar_nonneg f _) he0), ← EReal.coe_sub, ← EReal.coe_mul, ← EReal.coe_mul,
    ← EReal.coe_add, ← EReal.coe_zero]
  exact (Monotone.map_max EReal.coe_strictMono.monotone).symm

/-- The normalisation of a real array with real scale and shift is real. -/
theorem real_bnK {h : FVec Ideal S100000x128 .f32} {g beta : FVec Ideal S128 .f32} (hh : IsReal h) (hg : IsReal g)
    (hb : IsReal beta) : IsReal (bnK h g beta) := fun i => by
  obtain ⟨a, b, rfl⟩ : ∃ (a : Fin 100000) (b : Fin 128), i = ix2 a b := ⟨i 0, i 1, eq_ix2 i⟩
  choose f hf using hh
  choose gr hgr using hg
  choose br hbr using hb
  obtain ⟨e, he0, he⟩ := ofBits_eps
  exact ⟨_, bnK_entry hf hgr hbr he0 he a b⟩

end Cert.KernelIdeal.Layer

end
-- ==== Proof.BnRef.lean ====
/-
  The reference's batch statistics on real data, piece by piece, over the reals.

  For a real feature matrix with entries f(r, j), channel j:
    * the channel sum divided by the number of nodes (the float 100000) is the real mean μ_j;
    * the variance's normaliser, the number of nodes minus the float of the integer 0, is 100000, and it is
      greater than zero;
    * the sum of the squared deviations (f(r, j) − μ_j)² divided by 100000 is the real variance, the mean of the
      squared deviations; the guard "normaliser > 0" selects that quotient.
-/
import proofs.«173880_j87316685127958_1_alg».proof.Proof.BnReal

noncomputable section

open scoped BigOperators

namespace Cert.KernelIdeal.Layer

open Idealize.ShloMosaic Idealize.ShloMosaic.ValueIdx Cert.Gcn.Law Cert.KernelIdeal

/-- The channel sum over the number of nodes is the real mean. -/
theorem ref_mean (f : S100000x128.Idx → ℝ) (j : Fin 128) :
    Ideal.div (∑ r : Fin 100000, ((f (ix2 r j) : ℝ) : EReal)) (Ideal.ofBits .f32 0x47C35000#32)
      = ((rmean f j : ℝ) : EReal) := by
  rw [← coe_sum, ofBits_nodes, div_real _ _ (by norm_num)]
  rfl

/-- The variance's normaliser: the number of nodes minus the float of the integer zero is 100000. -/
theorem ref_norm :
    Ideal.ofBits .f32 0x47C35000#32 - Scalar.sitofp (F := Ideal) .f32 (0#32 : BitVec 32) = ((100000 : ℝ) : EReal) := by
  rw [ofBits_nodes, Ideal.scalar_sitofp_def, BitVec.toInt_zero, Int.cast_zero, EReal.coe_zero, sub_zero]

/-- The same with the integer zero held as a scalar array and converted as an array. -/
theorem ref_norm_vec :
    Ideal.ofBits .f32 0x47C35000#32 - sitofp (F := Ideal) .f32 (constantI S_ 32 0#32) ValueIdx.ix0
      = ((100000 : ℝ) : EReal) := ref_norm

/-- The normaliser is greater than zero. -/
theorem ref_norm_pos : Ideal.cmp .ogt ((100000 : ℝ) : EReal) (Ideal.ofBits .f32 0x00000000#32) = 1#1 := by
  show BitVec.ofBool (decide (Ideal.ofBits .f32 0x00000000#32 < ((100000 : ℝ) : EReal))) = 1#1
  rw [Ideal.ofBits_zero_f32, decide_eq_true (EReal.coe_pos.mpr (by norm_num))]
  rfl

/-- The sum of the squared deviations over the normaliser is the real variance. -/
theorem ref_var (f : S100000x128.Idx → ℝ) (j : Fin 128) :
    Ideal.div (∑ r : Fin 100000, (((f (ix2 r j) : ℝ) : EReal) - ((rmean f j : ℝ) : EReal))
        * (((f (ix2 r j) : ℝ) : EReal) - ((rmean f j : ℝ) : EReal))) ((100000 : ℝ) : EReal)
      = ((rvar f j : ℝ) : EReal) := by
  have e : (∑ r : Fin 100000, (((f (ix2 r j) : ℝ) : EReal) - ((rmean f j : ℝ) : EReal))
        * (((f (ix2 r j) : ℝ) : EReal) - ((rmean f j : ℝ) : EReal)))
      = ((∑ r : Fin 100000, (f (ix2 r j) - rmean f j) * (f (ix2 r j) - rmean f j) : ℝ) : EReal) := by
    rw [coe_sum]
    exact Finset.sum_congr rfl fun r _ => by rw [← EReal.coe_sub, ← EReal.coe_mul]
  rw [e, div_real _ _ (by norm_num)]
  rfl

/-- A selection whose condition is 1 takes its first value. -/
theorem select_one {α : Type} (a b : α) : Scalar.select (1#1) a b = a := if_pos rfl

/-- The guarded variance: the normaliser being positive, the guard selects the quotient, the real variance. -/
theorem ref_var_guarded (f : S100000x128.Idx → ℝ) (j : Fin 128) :
    Scalar.select (Ideal.cmp .ogt ((100000 : ℝ) : EReal) (Ideal.ofBits .f32 0x00000000#32))
        (Ideal.div (∑ r : Fin 100000, (((f (ix2 r j) : ℝ) : EReal) - ((rmean f j : ℝ) : EReal))
          * (((f (ix2 r j) : ℝ) : EReal) - ((rmean f j : ℝ) : EReal))) ((100000 : ℝ) : EReal))
        (Ideal.ofBits .f32 0x7FC00000#32)
      = ((rvar f j : ℝ) : EReal) := by
  rw [ref_norm_pos, select_one, ref_var]

end Cert.KernelIdeal.Layer

end
-- ==== Proof.RefSums.lean ====
/-
  The reference's column sums read as plain sums: the host's sum of a 100000 x 128 matrix over its rows is, at
  channel j, the initial value plus the sum over the 100000 rows r of the entry (r, j); from the zero initial value
  it is that sum itself.
-/
import proofs.«173880_j87316685127958_1_alg».proof.ReferenceIdeal
import Idealize.ShloMosaic.PureOps.Ideal.Laws
import Idealize.ShloMosaic.Lib.ValueIdx

noncomputable section

open scoped BigOperators

namespace Cert.ReferenceIdeal.RefBridge

open Idealize.ShloMosaic Idealize.ShloMosaic.ValueIdx
open Cert.ReferenceIdeal Cert.ReferenceIdeal.Facts₀

/-- The reduced index j with row r put back is (r, j). -/
theorem lift_ix_rows (h : Shape.Reduces ⟨2, ![100000, 128]⟩ [0] ⟨1, ![128]⟩) (j : Fin 128) (r : Fin 100000) :
    h.lift (ix1 j) r = ix2 r j := by
  funext d; apply Fin.ext
  match d with
  | ⟨0, _⟩ => rfl
  | ⟨1, _⟩ => rfl

variable [Cert.ReferenceIdeal.Facts₀]

/-- The host's sum over the rows, at channel j: the initial value plus the column's sum. -/
theorem hostReduceAdd_cols (v : FVec Ideal S100000x128 .f32) (init : EReal) (j : Fin 128) :
    Ideal.hostReduceAdd reducesTo_S100000x128_S128_d0 v init (ix1 j) = init + ∑ r : Fin 100000, v (ix2 r j) := by
  have hR : Shape.Reduces ⟨2, ![100000, 128]⟩ [0] ⟨1, ![128]⟩ := by decide
  refine (Ideal.hostReduceAdd_single reducesTo_S100000x128_S128_d0 hR v init (ix1 j)).trans ?_
  exact congrArg (init + ·) (Finset.sum_congr rfl fun r _ => congrArg v (lift_ix_rows hR j r))

/-- The same through the program's spelling, from the zero initial value: the column's sum. -/
theorem reduceAdd_cols (v : FVec Ideal S100000x128 .f32) (j : Fin 128) :
    Host.reduceAdd v (constant (F := Ideal) S_ .f32 0x00000000#32) reducesTo_S100000x128_S128_d0 h_S_ (ix1 j)
      = ∑ r : Fin 100000, v (ix2 r j) := by
  refine (hostReduceAdd_cols v (Ideal.ofBits .f32 0x00000000#32) j).trans ?_
  rw [Ideal.ofBits_zero_f32, zero_add]

end Cert.ReferenceIdeal.RefBridge

end
-- ==== Proof.RefBn.lean ====
/-
  The reference's batch normalisation with the rectifier, as one function of the feature matrix, the scale and the
  shift, and its agreement with the kernel's on real data.

  The reference takes the channel means by a column sum and a division, the variance as the mean of the squared
  deviations from the mean (guarded by a test that the divisor N − 0 is positive, which it is), adds the guard
  1e-5, takes the inverse square root, and normalises, scales, shifts and rectifies. The kernel's variance is the mean of the
  squares minus the squared mean. On real data the two variances are the same real number, and so are all entries.
-/
import proofs.«173880_j87316685127958_1_alg».proof.ReferenceIdeal
import proofs.«173880_j87316685127958_1_alg».proof.Proof.BnRef
import proofs.«173880_j87316685127958_1_alg».proof.Proof.RefSums
import Idealize.ShloMosaic.Lib.Pipeline.Value
import Idealize.ShloMosaic.Lib.ValueIdx

noncomputable section

open scoped BigOperators

namespace Cert.ReferenceIdeal.RefBn

open Idealize.ShloMosaic Idealize.ShloMosaic.ValueIdx Cert.ReferenceIdeal Cert.Gcn.Law
open Cert.KernelIdeal.Layer (rmean rvar bnK bnK_entry ref_mean ref_norm ref_var_guarded)

variable [Facts₀] [Cert.KernelIdeal.Facts₀]
open Facts₀

/-- A channel vector repeated down every row. -/
def rows (v : FVec Ideal S128 .f32) : FVec Ideal S100000x128 .f32 :=
  broadcastInDim S100000x128 ![0, 1] bcast_S1x128_S100000x128_0_1 (broadcastInDim S1x128 ![1] bcast_S128_S1x128_1 v)

/-- The channel sums. -/
def sumV (h : FVec Ideal S100000x128 .f32) : FVec Ideal S128 .f32 :=
  Host.reduceAdd h (constant S_ .f32 0x00000000#32) reducesTo_S100000x128_S128_d0 h_S_

/-- The channel means. -/
def meanV (h : FVec Ideal S100000x128 .f32) : FVec Ideal S128 .f32 :=
  Host.divf (sumV h) (broadcastInDim S128 ![] bcast_S_S128 (constant S_ .f32 0x47C35000#32))

/-- The variance's divisor: the number of rows minus the correction, a scalar. -/
def normS (ddof : IVec S_ 32) : FVec Ideal S_ .f32 := subf (constant S_ .f32 0x47C35000#32) (sitofp .f32 ddof)

/-- The deviations from the channel means (the means held as a row and repeated). -/
def devV (h : FVec Ideal S100000x128 .f32) : FVec Ideal S100000x128 .f32 :=
  subf h (broadcastInDim S100000x128 ![0, 1] bcast_S1x128_S100000x128_0_1
    (Host.divf (broadcastInDim S1x128 ![1] bcast_S128_S1x128_1 (sumV h))
      (broadcastInDim S1x128 ![] bcast_S_S1x128 (constant S_ .f32 0x47C35000#32))))

/-- The channel variances: mean squared deviation, where the divisor is positive. -/
def varV (h : FVec Ideal S100000x128 .f32) (ddof : IVec S_ 32) : FVec Ideal S128 .f32 :=
  select (broadcastInDim S128 ![] bcast_S_S128 (cmpf .ogt (normS ddof) (constant S_ .f32 0x00000000#32)))
    (Host.divf (Host.reduceAdd (mulf (devV h) (devV h)) (constant S_ .f32 0x00000000#32) reducesTo_S100000x128_S128_d0 h_S_)
      (broadcastInDim S128 ![] bcast_S_S128 (normS ddof)))
    (broadcastInDim S128 ![] bcast_S_S128 (id (constant S_ .f32 0x7FC00000#32)))

/-- Normalise by the batch statistics, scale, shift, rectify. -/
def bnR (h : FVec Ideal S100000x128 .f32) (g beta : FVec Ideal S128 .f32) : FVec Ideal S100000x128 .f32 :=
  maximumf
    (addf
      (mulf
        (mulf (subf h (rows (meanV h)))
          (rows (Host.rsqrt (addf (varV h (constantI S_ 32 0#32))
            (broadcastInDim S128 ![] bcast_S_S128 (constant S_ .f32 0x3727C5AC#32))))))
        (rows g))
      (rows beta))
    (broadcastInDim S100000x128 ![] bcast_S_S100000x128 (constant S_ .f32 0x00000000#32))

/-! ## Read at an entry -/

theorem rows_apply (v : FVec Ideal S128 .f32) (r : Fin 100000) (j : Fin 128) : rows v (ix2 r j) = v (ix1 j) := by
  unfold rows
  rw [broadcastInDim_apply _ _ _ (ix2 r j) (ix2 (0 : Fin 1) j) (fun a => by match a with | ⟨0, _⟩ => rfl | ⟨1, _⟩ => rfl),
    broadcastInDim_apply _ _ _ (ix2 (0 : Fin 1) j) (ix1 j) (fun a => by match a with | ⟨0, _⟩ => rfl)]

theorem splat128_apply {α : Type} (x : S_.Idx → α) (i : S128.Idx) : broadcastInDim S128 ![] bcast_S_S128 x i = x ix0 :=
  broadcastInDim_apply _ _ _ i ix0 (fun a => a.elim0)

theorem sumV_apply (h : FVec Ideal S100000x128 .f32) (j : Fin 128) : sumV h (ix1 j) = ∑ r : Fin 100000, h (ix2 r j) :=
  Cert.ReferenceIdeal.RefBridge.reduceAdd_cols h j

theorem meanV_apply (h : FVec Ideal S100000x128 .f32) (j : Fin 128) :
    meanV h (ix1 j) = Ideal.div (∑ r : Fin 100000, h (ix2 r j)) (Ideal.ofBits .f32 0x47C35000#32) := by
  show Ideal.div (sumV h (ix1 j)) (broadcastInDim S128 ![] bcast_S_S128 (constant (F := Ideal) S_ .f32 0x47C35000#32) (ix1 j)) = _
  rw [sumV_apply, splat128_apply]; rfl

theorem devV_apply (h : FVec Ideal S100000x128 .f32) (r : Fin 100000) (j : Fin 128) :
    devV h (ix2 r j) = h (ix2 r j) - Ideal.div (∑ r : Fin 100000, h (ix2 r j)) (Ideal.ofBits .f32 0x47C35000#32) := by
  unfold devV
  rw [subf_apply, broadcastInDim_apply _ _ _ (ix2 r j) (ix2 (0 : Fin 1) j) (fun a => by match a with | ⟨0, _⟩ => rfl | ⟨1, _⟩ => rfl)]
  show _ - Ideal.div (broadcastInDim S1x128 ![1] bcast_S128_S1x128_1 (sumV h) (ix2 (0 : Fin 1) j))
    (broadcastInDim S1x128 ![] bcast_S_S1x128 (constant (F := Ideal) S_ .f32 0x47C35000#32) (ix2 (0 : Fin 1) j)) = _
  rw [broadcastInDim_apply _ _ _ (ix2 (0 : Fin 1) j) (ix1 j) (fun a => by match a with | ⟨0, _⟩ => rfl), sumV_apply]
  rfl

theorem normS_zero : normS (constantI S_ 32 0#32) ix0 = ((100000 : ℝ) : EReal) := ref_norm

/-- The reference's variance of real data is the real variance. -/
theorem varV_real {h : FVec Ideal S100000x128 .f32} {f : S100000x128.Idx → ℝ} (hf : ∀ i, h i = (f i : EReal)) (j : Fin 128) :
    varV h (constantI S_ 32 0#32) (ix1 j) = ((rvar f j : ℝ) : EReal) := by
  unfold varV
  rw [select_apply, splat128_apply, splat128_apply, cmpf_apply, Ideal.cmpf_def, normS_zero]
  show Scalar.select _ (Ideal.div (Host.reduceAdd (mulf (devV h) (devV h)) (constant (F := Ideal) S_ .f32 0x00000000#32)
      reducesTo_S100000x128_S128_d0 h_S_ (ix1 j)) (broadcastInDim S128 ![] bcast_S_S128 (normS (constantI S_ 32 0#32)) (ix1 j))) _ = _
  rw [Cert.ReferenceIdeal.RefBridge.reduceAdd_cols, splat128_apply, normS_zero]
  have e : ∀ r : Fin 100000, mulf (devV h) (devV h) (ix2 r j)
      = (((f (ix2 r j) : ℝ) : EReal) - ((rmean f j : ℝ) : EReal)) * (((f (ix2 r j) : ℝ) : EReal) - ((rmean f j : ℝ) : EReal)) := fun r => by
    rw [mulf_apply, devV_apply, ← ref_mean f j]
    simp only [hf]
  rw [Finset.sum_congr rfl fun r _ => e r]
  exact ref_var_guarded f j

/-- The reference's mean of real data is the real mean. -/
theorem meanV_real {h : FVec Ideal S100000x128 .f32} {f : S100000x128.Idx → ℝ} (hf : ∀ i, h i = (f i : EReal)) (j : Fin 128) :
    meanV h (ix1 j) = ((rmean f j : ℝ) : EReal) := by
  rw [meanV_apply, ← ref_mean f j]
  simp only [hf]

/-- An entry of the reference's normalisation of real data, as a real number. -/
theorem bnR_entry {h : FVec Ideal S100000x128 .f32} {g beta : FVec Ideal S128 .f32} {f : S100000x128.Idx → ℝ}
    {gr br : S128.Idx → ℝ} (hf : ∀ i, h i = (f i : EReal)) (hg : ∀ i, g i = (gr i : EReal)) (hb : ∀ i, beta i = (br i : EReal))
    {e : ℝ} (he0 : 0 < e) (he : Ideal.ofBits .f32 0x3727C5AC#32 = (e : EReal)) (a : Fin 100000) (b : Fin 128) :
    bnR h g beta (ix2 a b)
      = ((max ((f (ix2 a b) - rmean f b) * (Real.sqrt (rvar f b + e))⁻¹ * gr (ix1 b) + br (ix1 b)) 0 : ℝ) : EReal) := by
  unfold bnR
  rw [maximumf_apply, addf_apply, mulf_apply, mulf_apply, subf_apply, rows_apply, rows_apply, rows_apply, rows_apply,
    meanV_real hf]
  show max ((h (ix2 a b) - _) * Ideal.rsqrt (varV h (constantI S_ 32 0#32) (ix1 b)
      + broadcastInDim S128 ![] bcast_S_S128 (constant (F := Ideal) S_ .f32 0x3727C5AC#32) (ix1 b)) * g (ix1 b) + beta (ix1 b))
      (Ideal.ofBits .f32 0x00000000#32) = _
  rw [varV_real hf, splat128_apply]
  show max ((h (ix2 a b) - _) * Ideal.rsqrt (_ + Ideal.ofBits .f32 0x3727C5AC#32) * g (ix1 b) + beta (ix1 b)) _ = _
  rw [hg, hb, hf, he, Ideal.ofBits_zero_f32, ← EReal.coe_add,
    rsqrt_real _ (add_pos_of_nonneg_of_pos (Cert.KernelIdeal.Layer.rvar_nonneg f _) he0), ← EReal.coe_sub, ← EReal.coe_mul,
    ← EReal.coe_mul, ← EReal.coe_add, ← EReal.coe_zero]
  exact (Monotone.map_max EReal.coe_strictMono.monotone).symm

/-- On real data the reference's normalisation is the kernel's. -/
theorem bnR_eq_bnK {h : FVec Ideal S100000x128 .f32} {g beta : FVec Ideal S128 .f32} (hh : IsReal h) (hg : IsReal g)
    (hb : IsReal beta) : bnR h g beta = bnK h g beta := by
  funext i
  obtain ⟨a, b, rfl⟩ : ∃ (a : Fin 100000) (b : Fin 128), i = ix2 a b := ⟨i 0, i 1, eq_ix2 i⟩
  choose f hf using hh
  choose gr hgr using hg
  choose br hbr using hb
  obtain ⟨e, he0, he⟩ := ofBits_eps
  rw [bnR_entry hf hgr hbr he0 he, bnK_entry hf hgr hbr he0 he]

end Cert.ReferenceIdeal.RefBn

end
-- ==== Proof.RefClosed.lean ====
import proofs.«173880_j87316685127958_1_alg».proof.Proof.RefRun
import proofs.«173880_j87316685127958_1_alg».proof.Proof.Layer
import proofs.«173880_j87316685127958_1_alg».proof.Proof.Gen.KernelIdeal
import proofs.«173880_j87316685127958_1_alg».proof.Proof.RefBn

/-!
# The reference's result in closed form

The line of operations of the reference is read back stretch by stretch at the ideal values: the edge rows, each graph
convolution as the neighbourhood sum `convTail` of a matrix product, each normalisation as one composed function `bnR`;
then the whole line's result as their composition over the twelve argument arrays.
-/

noncomputable section

namespace Cert.ReferenceIdeal.RefClosed

open Cert.ReferenceIdeal Cert.ReferenceIdeal.Gen Cert.ReferenceIdeal.RefRun Idealize.ShloMosaic Idealize.ShloMosaic.TcCoe Idealize.SL.Sem Idealize.ShloMosaic.StableHlo
open Cert.KernelIdeal.Layer (convTail tr srcOf dstOf)
open Cert.ReferenceIdeal.RefBn (bnR)

/-! ## What each compound stretch leaves alone -/

theorem bn1_keep (V : Valuation τ sig (Elt Ideal)) (r : Ref sig .tc) (ha : r ∉ bn1a_W) (hb : r ∉ bn1b_W) :
    after bn1 V (Proc.devRef .tc r) = V (Proc.devRef .tc r) := by
  rw [show (bn1 : List (HloOp τ sig (Elt Ideal))) = bn1a ++ bn1b from rfl, after_append, bn1b_keep _ r hb, bn1a_keep _ r ha]

theorem layer2_keep (V : Valuation τ sig (Elt Ideal)) (r : Ref sig .tc) (ha : r ∉ layer2a_W) (hb : r ∉ layer2b_W) :
    after layer2 V (Proc.devRef .tc r) = V (Proc.devRef .tc r) := by
  rw [show (layer2 : List (HloOp τ sig (Elt Ideal))) = layer2a ++ layer2b from rfl, after_append, layer2b_keep _ r hb, layer2a_keep _ r ha]

theorem layer3_keep (V : Valuation τ sig (Elt Ideal)) (r : Ref sig .tc) (ha : r ∉ layer3a_W) (hb : r ∉ layer3b_W) :
    after layer3 V (Proc.devRef .tc r) = V (Proc.devRef .tc r) := by
  rw [show (layer3 : List (HloOp τ sig (Elt Ideal))) = layer3a ++ layer3b from rfl, after_append, layer3b_keep _ r hb, layer3a_keep _ r ha]

/-! ## The stretches read back -/

/-- The source index of every edge: row 0 of the edge table. -/
theorem edges_src (V : Valuation τ sig (Elt Ideal)) : after edges V (Proc.devRef .tc main_v1) = srcOf (V (Proc.devRef .tc main_arg1)) := by
  after_results <;> rfl

/-- The target index of every edge: row 1 of the edge table. -/
theorem edges_dst (V : Valuation τ sig (Elt Ideal)) : after edges V (Proc.devRef .tc main_v3) = dstOf (V (Proc.devRef .tc main_arg1)) := by
  after_results <;> rfl

set_option maxRecDepth 8192 in
set_option maxHeartbeats 4000000 in
/-- Layer 1 read back: the neighbourhood sum of `x · wᵀ` over the edge rows, plus the bias. -/
theorem layer1_val (V : Valuation τ sig (Elt Ideal)) :
    after layer1 V (Proc.devRef .tc main_v48) =
      convTail (Host.dotGeneral (φ₁ := .f32) (φ₂ := .f32) dot_S100000x128_S128x128_S100000x128_1_0_0_1_n_n none (V (Proc.devRef .tc main_arg0)) (tr (V (Proc.devRef .tc main_arg2))))
        (V (Proc.devRef .tc main_v1)) (V (Proc.devRef .tc main_v3)) (V (Proc.devRef .tc main_arg3)) := by
  after_results_simp <;> rfl

set_option maxRecDepth 8192 in
set_option maxHeartbeats 4000000 in
/-- Normalisation 1 read back: the stretch's operations composed are `bnR`. -/
theorem bn1_val (V : Valuation τ sig (Elt Ideal)) :
    after bn1 V (Proc.devRef .tc main_v68) = bnR (V (Proc.devRef .tc main_v48)) (V (Proc.devRef .tc main_arg4)) (V (Proc.devRef .tc main_arg5)) := by
  simp only [bn1, bn1a, bn1b, after_append]
  after_results_simp <;> rfl

set_option maxRecDepth 8192 in
set_option maxHeartbeats 4000000 in
/-- Layer 2 read back: the neighbourhood sum of `x · wᵀ` over the edge rows, plus the bias. -/
theorem layer2_val (V : Valuation τ sig (Elt Ideal)) :
    after layer2 V (Proc.devRef .tc main_v113) =
      convTail (Host.dotGeneral (φ₁ := .f32) (φ₂ := .f32) dot_S100000x128_S128x128_S100000x128_1_0_0_1_n_n none (V (Proc.devRef .tc main_v68)) (tr (V (Proc.devRef .tc main_arg6))))
        (V (Proc.devRef .tc main_v1)) (V (Proc.devRef .tc main_v3)) (V (Proc.devRef .tc main_arg7)) := by
  simp only [layer2, layer2a, layer2b, after_append]
  after_results_simp <;> rfl

set_option maxRecDepth 8192 in
set_option maxHeartbeats 4000000 in
/-- Normalisation 2 read back: the stretch's operations composed are `bnR`. -/
theorem bn2_val (V : Valuation τ sig (Elt Ideal)) :
    after bn2 V (Proc.devRef .tc main_v133) = bnR (V (Proc.devRef .tc main_v113)) (V (Proc.devRef .tc main_arg8)) (V (Proc.devRef .tc main_arg9)) := by
  after_results_simp <;> rfl

set_option maxRecDepth 8192 in
set_option maxHeartbeats 4000000 in
/-- Layer 3 read back: the neighbourhood sum of `x · wᵀ` over the edge rows, plus the bias. -/
theorem layer3_val (V : Valuation τ sig (Elt Ideal)) :
    after layer3 V (Proc.devRef .tc main_v178) =
      convTail (Host.dotGeneral (φ₁ := .f32) (φ₂ := .f32) dot_S100000x128_S128x128_S100000x128_1_0_0_1_n_n none (V (Proc.devRef .tc main_v133)) (tr (V (Proc.devRef .tc main_arg10))))
        (V (Proc.devRef .tc main_v1)) (V (Proc.devRef .tc main_v3)) (V (Proc.devRef .tc main_arg11)) := by
  simp only [layer3, layer3a, layer3b, after_append]
  after_results_simp <;> rfl

/-! ## The whole line -/

set_option maxRecDepth 8192 in
/-- The result buffer after the whole line, over the contents of the twelve argument buffers, for ANY function `bn`
    that the two normalisation stretches compute: each stretch read back in turn, the buffers a stretch does not
    write carried through it. -/
theorem out_eq_of
    (bn : FVec Ideal S100000x128 .f32 → FVec Ideal S128 .f32 → FVec Ideal S128 .f32 → FVec Ideal S100000x128 .f32)
    (hbn1 : ∀ V : Valuation τ sig (Elt Ideal), after bn1 V (Proc.devRef .tc main_v68) =
      bn (V (Proc.devRef .tc main_v48)) (V (Proc.devRef .tc main_arg4)) (V (Proc.devRef .tc main_arg5)))
    (hbn2 : ∀ V : Valuation τ sig (Elt Ideal), after bn2 V (Proc.devRef .tc main_v133) =
      bn (V (Proc.devRef .tc main_v113)) (V (Proc.devRef .tc main_arg8)) (V (Proc.devRef .tc main_arg9)))
    (V : Valuation τ sig (Elt Ideal)) :
    after ops V (Proc.devRef .tc main_v178) =
      convTail (Host.dotGeneral (φ₁ := .f32) (φ₂ := .f32) dot_S100000x128_S128x128_S100000x128_1_0_0_1_n_n none (bn (convTail (Host.dotGeneral (φ₁ := .f32) (φ₂ := .f32) dot_S100000x128_S128x128_S100000x128_1_0_0_1_n_n none (bn (convTail (Host.dotGeneral (φ₁ := .f32) (φ₂ := .f32) dot_S100000x128_S128x128_S100000x128_1_0_0_1_n_n none (V (Proc.devRef .tc main_arg0)) (tr (V (Proc.devRef .tc main_arg2)))) (srcOf (V (Proc.devRef .tc main_arg1))) (dstOf (V (Proc.devRef .tc main_arg1))) (V (Proc.devRef .tc main_arg3))) (V (Proc.devRef .tc main_arg4)) (V (Proc.devRef .tc main_arg5))) (tr (V (Proc.devRef .tc main_arg6)))) (srcOf (V (Proc.devRef .tc main_arg1))) (dstOf (V (Proc.devRef .tc main_arg1))) (V (Proc.devRef .tc main_arg7))) (V (Proc.devRef .tc main_arg8)) (V (Proc.devRef .tc main_arg9))) (tr (V (Proc.devRef .tc main_arg10)))) (srcOf (V (Proc.devRef .tc main_arg1))) (dstOf (V (Proc.devRef .tc main_arg1))) (V (Proc.devRef .tc main_arg11)) := by
  rw [after_ops']
  rw [layer3_val]
  rw [hbn2,
    bn2_keep _ main_arg10 (by decide),
    bn2_keep _ main_v1 (by decide),
    bn2_keep _ main_v3 (by decide),
    bn2_keep _ main_arg11 (by decide)]
  rw [layer2_val,
    layer2_keep _ main_arg8 (by decide) (by decide),
    layer2_keep _ main_arg9 (by decide) (by decide),
    layer2_keep _ main_arg10 (by decide) (by decide),
    layer2_keep _ main_v1 (by decide) (by decide),
    layer2_keep _ main_v3 (by decide) (by decide),
    layer2_keep _ main_arg11 (by decide) (by decide)]
  rw [hbn1,
    bn1_keep _ main_arg6 (by decide) (by decide),
    bn1_keep _ main_v1 (by decide) (by decide),
    bn1_keep _ main_v3 (by decide) (by decide),
    bn1_keep _ main_arg7 (by decide) (by decide),
    bn1_keep _ main_arg8 (by decide) (by decide),
    bn1_keep _ main_arg9 (by decide) (by decide),
    bn1_keep _ main_arg10 (by decide) (by decide),
    bn1_keep _ main_arg11 (by decide) (by decide)]
  rw [layer1_val,
    layer1_keep _ main_arg4 (by decide),
    layer1_keep _ main_arg5 (by decide),
    layer1_keep _ main_arg6 (by decide),
    layer1_keep _ main_v1 (by decide),
    layer1_keep _ main_v3 (by decide),
    layer1_keep _ main_arg7 (by decide),
    layer1_keep _ main_arg8 (by decide),
    layer1_keep _ main_arg9 (by decide),
    layer1_keep _ main_arg10 (by decide),
    layer1_keep _ main_arg11 (by decide)]
  rw [edges_src,
    edges_dst,
    edges_keep _ main_arg0 (by decide),
    edges_keep _ main_arg2 (by decide),
    edges_keep _ main_arg3 (by decide),
    edges_keep _ main_arg4 (by decide),
    edges_keep _ main_arg5 (by decide),
    edges_keep _ main_arg6 (by decide),
    edges_keep _ main_arg7 (by decide),
    edges_keep _ main_arg8 (by decide),
    edges_keep _ main_arg9 (by decide),
    edges_keep _ main_arg10 (by decide),
    edges_keep _ main_arg11 (by decide)]

/-- On every device, from any memory with zero counters: every weakly fair execution of the reference terminates
    with the result buffer at that closed form of the launch contents of the twelve arguments, and those unchanged. -/
theorem run_closed_of
    (bn : FVec Ideal S100000x128 .f32 → FVec Ideal S128 .f32 → FVec Ideal S128 .f32 → FVec Ideal S100000x128 .f32)
    (hbn1 : ∀ V : Valuation τ sig (Elt Ideal), after bn1 V (Proc.devRef .tc main_v68) =
      bn (V (Proc.devRef .tc main_v48)) (V (Proc.devRef .tc main_arg4)) (V (Proc.devRef .tc main_arg5)))
    (hbn2 : ∀ V : Valuation τ sig (Elt Ideal), after bn2 V (Proc.devRef .tc main_v133) =
      bn (V (Proc.devRef .tc main_v113)) (V (Proc.devRef .tc main_arg8)) (V (Proc.devRef .tc main_arg9)))
    (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v178) =
        convTail (Host.dotGeneral (φ₁ := .f32) (φ₂ := .f32) dot_S100000x128_S128x128_S100000x128_1_0_0_1_n_n none (bn (convTail (Host.dotGeneral (φ₁ := .f32) (φ₂ := .f32) dot_S100000x128_S128x128_S100000x128_1_0_0_1_n_n none (bn (convTail (Host.dotGeneral (φ₁ := .f32) (φ₂ := .f32) dot_S100000x128_S128x128_S100000x128_1_0_0_1_n_n none (m ((c.tc : Thread nD τ).loc main_arg0)) (tr (m ((c.tc : Thread nD τ).loc main_arg2)))) (srcOf (m ((c.tc : Thread nD τ).loc main_arg1))) (dstOf (m ((c.tc : Thread nD τ).loc main_arg1))) (m ((c.tc : Thread nD τ).loc main_arg3))) (m ((c.tc : Thread nD τ).loc main_arg4)) (m ((c.tc : Thread nD τ).loc main_arg5))) (tr (m ((c.tc : Thread nD τ).loc main_arg6)))) (srcOf (m ((c.tc : Thread nD τ).loc main_arg1))) (dstOf (m ((c.tc : Thread nD τ).loc main_arg1))) (m ((c.tc : Thread nD τ).loc main_arg7))) (m ((c.tc : Thread nD τ).loc main_arg8)) (m ((c.tc : Thread nD τ).loc main_arg9))) (tr (m ((c.tc : Thread nD τ).loc main_arg10)))) (srcOf (m ((c.tc : Thread nD τ).loc main_arg1))) (dstOf (m ((c.tc : Thread nD τ).loc main_arg1))) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (out_eq_of bn hbn1 hbn2 (launchContents m c)), (h c).2⟩) (run m ρ)

/-! ## With the normalisation's own function -/

/-- The network as the reference computes it: three neighbourhood sums of matrix products over one edge table, a
    normalisation after each of the first two. -/
def refNet (x : FVec Ideal S100000x128 .f32) (e : IVec S2x1600000 32)
    (w1 : FVec Ideal S128x128 .f32) (b1 g1 be1 : FVec Ideal S128 .f32)
    (w2 : FVec Ideal S128x128 .f32) (b2 g2 be2 : FVec Ideal S128 .f32)
    (w3 : FVec Ideal S128x128 .f32) (b3 : FVec Ideal S128 .f32) : FVec Ideal S100000x128 .f32 :=
  convTail (Host.dotGeneral (φ₁ := .f32) (φ₂ := .f32) dot_S100000x128_S128x128_S100000x128_1_0_0_1_n_n none
    (bnR (convTail (Host.dotGeneral (φ₁ := .f32) (φ₂ := .f32) dot_S100000x128_S128x128_S100000x128_1_0_0_1_n_n none
      (bnR (convTail (Host.dotGeneral (φ₁ := .f32) (φ₂ := .f32) dot_S100000x128_S128x128_S100000x128_1_0_0_1_n_n none x (tr w1)) (srcOf e) (dstOf e) b1) g1 be1)
      (tr w2)) (srcOf e) (dstOf e) b2) g2 be2)
    (tr w3)) (srcOf e) (dstOf e) b3

/-- The result buffer after the whole line, over the contents of the twelve argument buffers. -/
theorem out_eq (V : Valuation τ sig (Elt Ideal)) :
    after ops V (Proc.devRef .tc main_v178) =
      convTail (Host.dotGeneral (φ₁ := .f32) (φ₂ := .f32) dot_S100000x128_S128x128_S100000x128_1_0_0_1_n_n none (bnR (convTail (Host.dotGeneral (φ₁ := .f32) (φ₂ := .f32) dot_S100000x128_S128x128_S100000x128_1_0_0_1_n_n none (bnR (convTail (Host.dotGeneral (φ₁ := .f32) (φ₂ := .f32) dot_S100000x128_S128x128_S100000x128_1_0_0_1_n_n none (V (Proc.devRef .tc main_arg0)) (tr (V (Proc.devRef .tc main_arg2)))) (srcOf (V (Proc.devRef .tc main_arg1))) (dstOf (V (Proc.devRef .tc main_arg1))) (V (Proc.devRef .tc main_arg3))) (V (Proc.devRef .tc main_arg4)) (V (Proc.devRef .tc main_arg5))) (tr (V (Proc.devRef .tc main_arg6)))) (srcOf (V (Proc.devRef .tc main_arg1))) (dstOf (V (Proc.devRef .tc main_arg1))) (V (Proc.devRef .tc main_arg7))) (V (Proc.devRef .tc main_arg8)) (V (Proc.devRef .tc main_arg9))) (tr (V (Proc.devRef .tc main_arg10)))) (srcOf (V (Proc.devRef .tc main_arg1))) (dstOf (V (Proc.devRef .tc main_arg1))) (V (Proc.devRef .tc main_arg11)) :=
  out_eq_of bnR bn1_val bn2_val V

/-- The same, the closed form by its name. -/
theorem out_eq_net (V : Valuation τ sig (Elt Ideal)) :
    after ops V (Proc.devRef .tc main_v178) =
      refNet (V (Proc.devRef .tc main_arg0))
        (V (Proc.devRef .tc main_arg1))
        (V (Proc.devRef .tc main_arg2))
        (V (Proc.devRef .tc main_arg3))
        (V (Proc.devRef .tc main_arg4))
        (V (Proc.devRef .tc main_arg5))
        (V (Proc.devRef .tc main_arg6))
        (V (Proc.devRef .tc main_arg7))
        (V (Proc.devRef .tc main_arg8))
        (V (Proc.devRef .tc main_arg9))
        (V (Proc.devRef .tc main_arg10))
        (V (Proc.devRef .tc main_arg11)) :=
  out_eq V

/-- On every device, from any memory with zero counters: every weakly fair execution of the reference terminates
    with the result buffer at `refNet` of the launch contents of the twelve arguments, and those unchanged. -/
theorem run_closed (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v178) =
        refNet (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  run_closed_of bnR bn1_val bn2_val m ρ

end Cert.ReferenceIdeal.RefClosed

end
-- ==== Proof.RefDot.lean ====
/-
  The reference's matrix product is the specification's: entry (r, j) of features (100000 x 128) times weights
  (128 x 128) is the sum over the 128 input channels k of x(r, k) · wt(k, j).
-/
import proofs.«173880_j87316685127958_1_alg».proof.ReferenceIdeal
import proofs.«173880_j87316685127958_1_alg».proof.Proof.Spec
import proofs.«173880_j87316685127958_1_alg».proof.Proof.LibMatSum

noncomputable section

open scoped BigOperators

namespace Cert.ReferenceIdeal.RefBridge

open Idealize.ShloMosaic Idealize.ShloMosaic.ValueIdx

variable [Cert.ReferenceIdeal.Facts₀]

/-- The host's product of a 100000 x 128 matrix with a 128 x 128 matrix is `Cert.Gcn.lin`. -/
theorem dot_eq_lin (x : FVec Ideal Cert.ReferenceIdeal.S100000x128 .f32) (wt : FVec Ideal Cert.ReferenceIdeal.S128x128 .f32) :
    Host.dotGeneral Cert.ReferenceIdeal.dot_S100000x128_S128x128_S100000x128_1_0_0_1_n_n none x wt = Cert.Gcn.lin x wt := by
  funext i
  obtain ⟨a, b, rfl⟩ : ∃ (a : Fin 100000) (b : Fin 128), i = ix2 a b := ⟨i 0, i 1, eq_ix2 i⟩
  exact Idealize.ShloMosaic.MatSum.dotGeneral_entry
    Cert.ReferenceIdeal.Facts₀.dot_S100000x128_S128x128_S100000x128_1_0_0_1_n_n_wf none x wt a b

end Cert.ReferenceIdeal.RefBridge

end
-- ==== Proof.Bridge.lean ====
/-
  The reference's network is the kernel's network on real inputs.

  Layer by layer: the reference's matrix product is the plain sum over the input channels, the same as the kernel's
  blocked one; the neighbourhood sum is the same function on both sides; and the two normalisations agree on real
  data, which each layer's output is when the inputs are real.
-/
import proofs.«173880_j87316685127958_1_alg».proof.Proof.RefBn
import proofs.«173880_j87316685127958_1_alg».proof.Proof.RefDot

noncomputable section

namespace Cert.ReferenceIdeal.RefBridge

open Idealize.ShloMosaic Cert.ReferenceIdeal Cert.Gcn.Law Cert.ReferenceIdeal.RefBn
open Cert.KernelIdeal.Layer (convTail tr srcOf dstOf layer bnK net real_layer real_bnK)

variable [Facts₀] [Cert.KernelIdeal.Facts₀]

/-- The three layers with the two normalisations, in the reference's spelling, equal the kernel's. -/
theorem netR_eq_net (x : FVec Ideal S100000x128 .f32) (e : IVec S2x1600000 32)
    (w1 : FVec Ideal S128x128 .f32) (b1 g1 be1 : FVec Ideal S128 .f32)
    (w2 : FVec Ideal S128x128 .f32) (b2 g2 be2 : FVec Ideal S128 .f32)
    (w3 : FVec Ideal S128x128 .f32) (b3 : FVec Ideal S128 .f32)
    (hx : IsReal x) (hw1 : IsReal w1) (hb1 : IsReal b1) (hg1 : IsReal g1) (hbe1 : IsReal be1)
    (hw2 : IsReal w2) (hb2 : IsReal b2) (hg2 : IsReal g2) (hbe2 : IsReal be2) :
    convTail (Host.dotGeneral (φ₁ := .f32) (φ₂ := .f32) dot_S100000x128_S128x128_S100000x128_1_0_0_1_n_n none
        (bnR (convTail (Host.dotGeneral (φ₁ := .f32) (φ₂ := .f32) dot_S100000x128_S128x128_S100000x128_1_0_0_1_n_n none
            (bnR (convTail (Host.dotGeneral (φ₁ := .f32) (φ₂ := .f32) dot_S100000x128_S128x128_S100000x128_1_0_0_1_n_n none x (tr w1)) (srcOf e) (dstOf e) b1) g1 be1) (tr w2))
          (srcOf e) (dstOf e) b2) g2 be2) (tr w3))
      (srcOf e) (dstOf e) b3
    = net x e w1 b1 g1 be1 w2 b2 g2 be2 w3 b3 := by
  have h1 : IsReal (layer x e w1 b1) := real_layer e hx hw1 hb1
  have h1' : IsReal (bnK (layer x e w1 b1) g1 be1) := real_bnK h1 hg1 hbe1
  have h2 : IsReal (layer (bnK (layer x e w1 b1) g1 be1) e w2 b2) := real_layer e h1' hw2 hb2
  rw [dot_eq_lin x (tr w1),
    show convTail (Cert.Gcn.lin x (tr w1)) (srcOf e) (dstOf e) b1 = layer x e w1 b1 from rfl,
    bnR_eq_bnK h1 hg1 hbe1, dot_eq_lin (bnK (layer x e w1 b1) g1 be1) (tr w2),
    show convTail (Cert.Gcn.lin (bnK (layer x e w1 b1) g1 be1) (tr w2)) (srcOf e) (dstOf e) b2
      = layer (bnK (layer x e w1 b1) g1 be1) e w2 b2 from rfl,
    bnR_eq_bnK h2 hg2 hbe2, dot_eq_lin (bnK (layer (bnK (layer x e w1 b1) g1 be1) e w2 b2) g2 be2) (tr w3)]
  rfl

end Cert.ReferenceIdeal.RefBridge

end
-- ==== Proof.PreReal.lean ====
/-
  From the precondition to real-valued inputs.

  The precondition says, for each of the eleven float argument arrays a, that every entry satisfies |a| < +inf
  (the conjunction of the eleven "all entries" tests is 1).  Over the extended reals |x| = max x (-x), and
  max x (-x) < +inf excludes x = +inf and x = -inf, so every entry is a real number.  (The integer edge list,
  argument 1, is not constrained and does not occur.)
-/
import proofs.«173880_j87316685127958_1_alg».proof.Defs
import Idealize.ShloMosaic.Lib.ReduceAll
import Idealize.ShloMosaic.Lib.ValueIdx
import Idealize.ShloMosaic.Lib.Affine
import Idealize.ShloMosaic.PureOps.Ideal.Laws

noncomputable section

open Idealize.ShloMosaic Idealize.SL.Sem

namespace Cert.KernelIdeal.PreReal

open Cert.KernelIdeal

/-- An extended real whose absolute value lies below +inf is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

/-- A conjunction of two one-bit arrays that is 1 at an index: both are 1 there. -/
theorem andi_split {s : Shape} (a b : IVec s 1) (i : s.Idx) (h : andi a b i = 1#1) : a i = 1#1 ∧ b i = 1#1 :=
  IntOp.andi_eq_one.mp h

/-- If the test "every entry of x has |x| < +inf" is 1, every entry of x is a real number. -/
theorem real_of_all {s : Shape} (axes : List (Fin s.rank)) (x : FVec Ideal s .f32)
    (hb : Cert.Pre_finite_inputs.S_.BroadcastsInDim s (![] : Fin 0 → Fin s.rank))
    (h : s.ReducesTo axes Cert.Pre_finite_inputs.S_) (hu : 0 < Cert.Pre_finite_inputs.S_.numel)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) h hu ValueIdx.ix0 = 1#1) (i : s.Idx) :
    ∃ r : ℝ, x i = (r : EReal) :=
  real_of_abs_lt (x i) (Host.reduce_andi_all _ _ h hu ValueIdx.ix0 e i)

variable [Cert.Pre_finite_inputs.Facts]
variable (m : (ℓ : Loc nD τ sig) → Buf (Elt Ideal) ℓ)

/-- Under the precondition every entry of every float argument array is a real number. -/
theorem inputs_real (h : Cert.Pre_KernelIdeal m) (c : Dev nD) :
    (∀ i, ∃ r : ℝ, m ((c.tc : Thread nD τ).loc main_arg0) i = (r : EReal))
      ∧ (∀ i, ∃ r : ℝ, m ((c.tc : Thread nD τ).loc main_arg2) i = (r : EReal))
      ∧ (∀ i, ∃ r : ℝ, m ((c.tc : Thread nD τ).loc main_arg3) i = (r : EReal))
      ∧ (∀ i, ∃ r : ℝ, m ((c.tc : Thread nD τ).loc main_arg4) i = (r : EReal))
      ∧ (∀ i, ∃ r : ℝ, m ((c.tc : Thread nD τ).loc main_arg5) i = (r : EReal))
      ∧ (∀ i, ∃ r : ℝ, m ((c.tc : Thread nD τ).loc main_arg6) i = (r : EReal))
      ∧ (∀ i, ∃ r : ℝ, m ((c.tc : Thread nD τ).loc main_arg7) i = (r : EReal))
      ∧ (∀ i, ∃ r : ℝ, m ((c.tc : Thread nD τ).loc main_arg8) i = (r : EReal))
      ∧ (∀ i, ∃ r : ℝ, m ((c.tc : Thread nD τ).loc main_arg9) i = (r : EReal))
      ∧ (∀ i, ∃ r : ℝ, m ((c.tc : Thread nD τ).loc main_arg10) i = (r : EReal))
      ∧ (∀ i, ∃ r : ℝ, m ((c.tc : Thread nD τ).loc main_arg11) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  obtain ⟨h0, e11⟩ := andi_split _ _ _ h0
  obtain ⟨h0, e10⟩ := andi_split _ _ _ h0
  obtain ⟨h0, e9⟩ := andi_split _ _ _ h0
  obtain ⟨h0, e8⟩ := andi_split _ _ _ h0
  obtain ⟨h0, e7⟩ := andi_split _ _ _ h0
  obtain ⟨h0, e6⟩ := andi_split _ _ _ h0
  obtain ⟨h0, e5⟩ := andi_split _ _ _ h0
  obtain ⟨h0, e4⟩ := andi_split _ _ _ h0
  obtain ⟨h0, e3⟩ := andi_split _ _ _ h0
  obtain ⟨e0, e2⟩ := andi_split _ _ _ h0
  exact ⟨fun i => real_of_all _ _ _ _ _ e0 i,
    fun i => real_of_all _ _ _ _ _ e2 i,
    fun i => real_of_all _ _ _ _ _ e3 i,
    fun i => real_of_all _ _ _ _ _ e4 i,
    fun i => real_of_all _ _ _ _ _ e5 i,
    fun i => real_of_all _ _ _ _ _ e6 i,
    fun i => real_of_all _ _ _ _ _ e7 i,
    fun i => real_of_all _ _ _ _ _ e8 i,
    fun i => real_of_all _ _ _ _ _ e9 i,
    fun i => real_of_all _ _ _ _ _ e10 i,
    fun i => real_of_all _ _ _ _ _ e11 i⟩

/-- Every entry of argument 0 is a real number. -/
theorem arg0_real (h : Cert.Pre_KernelIdeal m) (c : Dev nD) :
    ∀ i, ∃ r : ℝ, m ((c.tc : Thread nD τ).loc main_arg0) i = (r : EReal) :=
  (inputs_real m h c).1

/-- Every entry of argument 2 is a real number. -/
theorem arg2_real (h : Cert.Pre_KernelIdeal m) (c : Dev nD) :
    ∀ i, ∃ r : ℝ, m ((c.tc : Thread nD τ).loc main_arg2) i = (r : EReal) :=
  (inputs_real m h c).2.1

/-- Every entry of argument 3 is a real number. -/
theorem arg3_real (h : Cert.Pre_KernelIdeal m) (c : Dev nD) :
    ∀ i, ∃ r : ℝ, m ((c.tc : Thread nD τ).loc main_arg3) i = (r : EReal) :=
  (inputs_real m h c).2.2.1

/-- Every entry of argument 4 is a real number. -/
theorem arg4_real (h : Cert.Pre_KernelIdeal m) (c : Dev nD) :
    ∀ i, ∃ r : ℝ, m ((c.tc : Thread nD τ).loc main_arg4) i = (r : EReal) :=
  (inputs_real m h c).2.2.2.1

/-- Every entry of argument 5 is a real number. -/
theorem arg5_real (h : Cert.Pre_KernelIdeal m) (c : Dev nD) :
    ∀ i, ∃ r : ℝ, m ((c.tc : Thread nD τ).loc main_arg5) i = (r : EReal) :=
  (inputs_real m h c).2.2.2.2.1

/-- Every entry of argument 6 is a real number. -/
theorem arg6_real (h : Cert.Pre_KernelIdeal m) (c : Dev nD) :
    ∀ i, ∃ r : ℝ, m ((c.tc : Thread nD τ).loc main_arg6) i = (r : EReal) :=
  (inputs_real m h c).2.2.2.2.2.1

/-- Every entry of argument 7 is a real number. -/
theorem arg7_real (h : Cert.Pre_KernelIdeal m) (c : Dev nD) :
    ∀ i, ∃ r : ℝ, m ((c.tc : Thread nD τ).loc main_arg7) i = (r : EReal) :=
  (inputs_real m h c).2.2.2.2.2.2.1

/-- Every entry of argument 8 is a real number. -/
theorem arg8_real (h : Cert.Pre_KernelIdeal m) (c : Dev nD) :
    ∀ i, ∃ r : ℝ, m ((c.tc : Thread nD τ).loc main_arg8) i = (r : EReal) :=
  (inputs_real m h c).2.2.2.2.2.2.2.1

/-- Every entry of argument 9 is a real number. -/
theorem arg9_real (h : Cert.Pre_KernelIdeal m) (c : Dev nD) :
    ∀ i, ∃ r : ℝ, m ((c.tc : Thread nD τ).loc main_arg9) i = (r : EReal) :=
  (inputs_real m h c).2.2.2.2.2.2.2.2.1

/-- Every entry of argument 10 is a real number. -/
theorem arg10_real (h : Cert.Pre_KernelIdeal m) (c : Dev nD) :
    ∀ i, ∃ r : ℝ, m ((c.tc : Thread nD τ).loc main_arg10) i = (r : EReal) :=
  (inputs_real m h c).2.2.2.2.2.2.2.2.2.1

/-- Every entry of argument 11 is a real number. -/
theorem arg11_real (h : Cert.Pre_KernelIdeal m) (c : Dev nD) :
    ∀ i, ∃ r : ℝ, m ((c.tc : Thread nD τ).loc main_arg11) i = (r : EReal) :=
  (inputs_real m h c).2.2.2.2.2.2.2.2.2.2

end Cert.KernelIdeal.PreReal

end
-- ==== Proof.lean ====
/-
  A three-layer graph convolution network (100000 nodes, 128 channels, 1600000 edges) with batch normalisation and a
  rectifier between the layers, as a kernel program and as its reference, agree at the ideal values on finite inputs.

  The kernel program computes each layer's matrix product block by block (20 row blocks of 5000 nodes, operands
  rounded to bf16, which at the ideal values is the identity), the batch statistics as running channel sums and sums of
  squares over the 20 blocks, and the normalisation block by block from the mean s/N and the variance ss/N − (s/N)²;
  the neighbourhood sums (degree counts, inverse square roots, gathers, scatter-adds) are host operations shared with
  the reference. The reference computes the matrix products whole and the variance as the mean of the squared
  deviations from the mean.

  Read back to the arguments, the kernel's result is `net` of them (a layer is the neighbourhood sum of features times
  transposed weights; the normalisation uses the two-sum variance), and the reference's result is the same composition
  with its own normalisation. The matrix products agree as plain sums over the input channels; a sum over 100000 rows
  is the sum of its 20 blocks by associativity and commutativity alone. The two variances agree only for real data:
  (1/N)∑(h − μ)² = (1/N)∑h² − μ² holds over the reals and fails at an infinity. So the precondition is used: finite
  inputs are real, every layer keeps real arrays real (each degree count is a non-negative real, so degree + 1 is
  positive and its inverse square root real; the variance is non-negative, so with the positive guard 1e-5 added its
  inverse square root is real), and on real data the normalisations coincide entry by entry.

  The frames of the two kernel programs are the generated ones; the reference's is its run with the result dropped.
  The idealization rewrote nothing, so `preserves` is trivial.
-/
import proofs.«173880_j87316685127958_1_alg».proof.Defs
import proofs.«173880_j87316685127958_1_alg».proof.Proof.Gen.Kernel
import proofs.«173880_j87316685127958_1_alg».proof.Proof.Gen.Kernel.Skeleton
import proofs.«173880_j87316685127958_1_alg».proof.Proof.Gen.Kernel.Launch
import proofs.«173880_j87316685127958_1_alg».proof.Proof.Gen.Kernel.Points
import proofs.«173880_j87316685127958_1_alg».proof.Proof.Gen.Kernel.Frame
import proofs.«173880_j87316685127958_1_alg».proof.Proof.Gen.KernelIdeal
import proofs.«173880_j87316685127958_1_alg».proof.Proof.Gen.KernelIdeal.Skeleton
import proofs.«173880_j87316685127958_1_alg».proof.Proof.Gen.KernelIdeal.Launch
import proofs.«173880_j87316685127958_1_alg».proof.Proof.Gen.KernelIdeal.Points
import proofs.«173880_j87316685127958_1_alg».proof.Proof.Gen.KernelIdeal.Frame
import proofs.«173880_j87316685127958_1_alg».proof.Proof.Gen.ReferenceIdeal
import proofs.«173880_j87316685127958_1_alg».proof.Proof.Gen.Pre_finite_inputs
import proofs.«173880_j87316685127958_1_alg».proof.Proof.KRun
import proofs.«173880_j87316685127958_1_alg».proof.Proof.KRead
import proofs.«173880_j87316685127958_1_alg».proof.Proof.RefRun
import proofs.«173880_j87316685127958_1_alg».proof.Proof.RefClosed
import proofs.«173880_j87316685127958_1_alg».proof.Proof.Bridge
import proofs.«173880_j87316685127958_1_alg».proof.Proof.PreReal
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both runs end at the network of the (shared, real) arguments. -/
theorem algebraic : Cert.algebraic_KernelIdeal_ReferenceIdeal := by
  intro m ρ m' ρ' hpre hagree
  refine ⟨fun c => Cert.KernelIdeal.Layer.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Read.result_eq m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.RefRun.run (F := Ideal) m' ρ')
    obtain ⟨a0, a1, a2, a3, a4, a5, a6, a7, a8, a9, a10, a11⟩ := hagree c
    refine (Cert.ReferenceIdeal.RefClosed.out_eq (StableHlo.launchContents m' c)).trans ?_
    have e0 : StableHlo.launchContents m' c (Proc.devRef .tc Cert.ReferenceIdeal.main_arg0) = (m ((c.tc : Thread Cert.KernelIdeal.nD Cert.KernelIdeal.τ).loc Cert.KernelIdeal.main_arg0)) := a0
    have e1 : StableHlo.launchContents m' c (Proc.devRef .tc Cert.ReferenceIdeal.main_arg1) = (m ((c.tc : Thread Cert.KernelIdeal.nD Cert.KernelIdeal.τ).loc Cert.KernelIdeal.main_arg1)) := a1
    have e2 : StableHlo.launchContents m' c (Proc.devRef .tc Cert.ReferenceIdeal.main_arg2) = (m ((c.tc : Thread Cert.KernelIdeal.nD Cert.KernelIdeal.τ).loc Cert.KernelIdeal.main_arg2)) := a2
    have e3 : StableHlo.launchContents m' c (Proc.devRef .tc Cert.ReferenceIdeal.main_arg3) = (m ((c.tc : Thread Cert.KernelIdeal.nD Cert.KernelIdeal.τ).loc Cert.KernelIdeal.main_arg3)) := a3
    have e4 : StableHlo.launchContents m' c (Proc.devRef .tc Cert.ReferenceIdeal.main_arg4) = (m ((c.tc : Thread Cert.KernelIdeal.nD Cert.KernelIdeal.τ).loc Cert.KernelIdeal.main_arg4)) := a4
    have e5 : StableHlo.launchContents m' c (Proc.devRef .tc Cert.ReferenceIdeal.main_arg5) = (m ((c.tc : Thread Cert.KernelIdeal.nD Cert.KernelIdeal.τ).loc Cert.KernelIdeal.main_arg5)) := a5
    have e6 : StableHlo.launchContents m' c (Proc.devRef .tc Cert.ReferenceIdeal.main_arg6) = (m ((c.tc : Thread Cert.KernelIdeal.nD Cert.KernelIdeal.τ).loc Cert.KernelIdeal.main_arg6)) := a6
    have e7 : StableHlo.launchContents m' c (Proc.devRef .tc Cert.ReferenceIdeal.main_arg7) = (m ((c.tc : Thread Cert.KernelIdeal.nD Cert.KernelIdeal.τ).loc Cert.KernelIdeal.main_arg7)) := a7
    have e8 : StableHlo.launchContents m' c (Proc.devRef .tc Cert.ReferenceIdeal.main_arg8) = (m ((c.tc : Thread Cert.KernelIdeal.nD Cert.KernelIdeal.τ).loc Cert.KernelIdeal.main_arg8)) := a8
    have e9 : StableHlo.launchContents m' c (Proc.devRef .tc Cert.ReferenceIdeal.main_arg9) = (m ((c.tc : Thread Cert.KernelIdeal.nD Cert.KernelIdeal.τ).loc Cert.KernelIdeal.main_arg9)) := a9
    have e10 : StableHlo.launchContents m' c (Proc.devRef .tc Cert.ReferenceIdeal.main_arg10) = (m ((c.tc : Thread Cert.KernelIdeal.nD Cert.KernelIdeal.τ).loc Cert.KernelIdeal.main_arg10)) := a10
    have e11 : StableHlo.launchContents m' c (Proc.devRef .tc Cert.ReferenceIdeal.main_arg11) = (m ((c.tc : Thread Cert.KernelIdeal.nD Cert.KernelIdeal.τ).loc Cert.KernelIdeal.main_arg11)) := a11
    rw [e0, e1, e2, e3, e4, e5, e6, e7, e8, e9, e10, e11]
    exact Cert.ReferenceIdeal.RefBridge.netR_eq_net _ _ _ _ _ _ _ _ _ _ _ _
      (Cert.KernelIdeal.PreReal.arg0_real m hpre c) (Cert.KernelIdeal.PreReal.arg2_real m hpre c)
      (Cert.KernelIdeal.PreReal.arg3_real m hpre c) (Cert.KernelIdeal.PreReal.arg4_real m hpre c)
      (Cert.KernelIdeal.PreReal.arg5_real m hpre c) (Cert.KernelIdeal.PreReal.arg6_real m hpre c)
      (Cert.KernelIdeal.PreReal.arg7_real m hpre c) (Cert.KernelIdeal.PreReal.arg8_real m hpre c)
      (Cert.KernelIdeal.PreReal.arg9_real m hpre c)

/-- The claim: the three frames, the idealization, and the equivalence at the ideal values. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
